-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_ref_divisor" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S128 .f32) (main_arg5 : FVec F S1024x1024 .f32) (main_arg6 : FVec F S1024 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x128 .f32) (main_arg2 : FVec F S128 .f32) (main_arg3 : FVec F S1024x128 .f32) (main_arg4 : FVec F S128 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S4x4096x1024 : Shape := ⟨3, ![4, 4096, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S1024x1280 : Shape := ⟨2, ![1024, 1280]⟩
abbrev S1280 : Shape := ⟨1, ![1280]⟩
abbrev S16384x1024 : Shape := ⟨2, ![16384, 1024]⟩
abbrev S16384x128 : Shape := ⟨2, ![16384, 128]⟩
abbrev S1x1280 : Shape := ⟨2, ![1, 1280]⟩
abbrev S4x4096x128 : Shape := ⟨3, ![4, 4096, 128]⟩
abbrev S1x1024x128 : Shape := ⟨3, ![1, 1024, 128]⟩
abbrev S1x512x128 : Shape := ⟨3, ![1, 512, 128]⟩
abbrev S1x512x1024 : Shape := ⟨3, ![1, 512, 1024]⟩
abbrev S1x1024x1024 : Shape := ⟨3, ![1, 1024, 1024]⟩
abbrev S1024x1 : Shape := ⟨2, ![1024, 1]⟩
abbrev S512x128 : Shape := ⟨2, ![512, 128]⟩
abbrev S512x1024 : Shape := ⟨2, ![512, 1024]⟩
abbrev S128x512 : Shape := ⟨2, ![128, 512]⟩
abbrev S1024x512 : Shape := ⟨2, ![1024, 512]⟩

abbrev nBuf : Space → Nat
  | .hbm => 18
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x1280, .f32⟩
  | .hbm, ⟨8, _⟩ => ⟨S1024x1280, .bf16⟩
  | .hbm, ⟨9, _⟩ => ⟨S1280, .f32⟩
  | .hbm, ⟨10, _⟩ => ⟨S16384x1024, .f32⟩
  | .hbm, ⟨11, _⟩ => ⟨S16384x128, .bf16⟩
  | .hbm, ⟨12, _⟩ => ⟨S16384x128, .bf16⟩
  | .hbm, ⟨13, _⟩ => ⟨S16384x1024, .bf16⟩
  | .hbm, ⟨14, _⟩ => ⟨S4x4096x128, .bf16⟩
  | .hbm, ⟨15, _⟩ => ⟨S4x4096x128, .bf16⟩
  | .hbm, ⟨16, _⟩ => ⟨S4x4096x1024, .bf16⟩
  | .hbm, ⟨17, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1280, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x128_S1024x128_S1024x1024_S1024x1280_d1 : Shape.Concatenates [S1024x128, S1024x128, S1024x1024] S1024x1280 1
  bitsLt_bf16_f32 : FTy.bits .bf16 < FTy.bits .f32
  concatenates_S128_S128_S1024_S1280_d0 : Shape.Concatenates [S128, S128, S1024] S1280 0
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280_S1280_0 : ∀ a, (![0] : Fin 1 → Nat) a + S1280.size a ≤ S1280.size a
  h_S1280 : 0 < S1280.numel
  shapeCasts_S1280_S1280 : S1280.ShapeCasts S1280
  shapeCasts_S1280_S1x1280 : S1280.ShapeCasts S1x1280
  broadcasts_S1x1280_S1024x1280 : S1x1280.Broadcasts S1024x1280
  slices_S1024x1280_o0_0_S1024x128 : S1024x1280.Slices ![0, 0] S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S1024x1280_o0_128_S1024x128 : S1024x1280.Slices ![0, 128] S1024x128
  slices_S1024x1280_o0_256_S1024x1024 : S1024x1280.Slices ![0, 256] S1024x1024
  packedbf16_S1024x1024_S1024x1024_0_0 : (Rect.unit (s := S1024x1024) ![0, 0] S1024x1024.size inb_S1024x1024_S1024x1024_0_0).PackedRows (EltTy.packing .bf16)
  shapeCasts_S16384x128_S4x4096x128 : S16384x128.ShapeCasts S4x4096x128
  shapeCasts_S16384x1024_S4x4096x1024 : S16384x1024.ShapeCasts S4x4096x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x128_p1_0_S128x512 : S512x128.Transposes [1, 0] S128x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S1024x1280_S1024x1280_1_0_0_1_n_n_wf : DotDims.WF S1024x1024 S1024x1280 S1024x1280 [1] [0] [0] [1] [] []
  dot_S1024x128_S128x512_S1024x512_1_0_0_1_n_n_wf : DotDims.WF S1024x128 S128x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S1024x1280.size a
  hwx0_1 : ∀ i : grid0.Coords, EltTy.bits .bf16 = 32 ∨ (Rect.block (s := S1024x1280) S1024x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280.size a ≤ S1280.size a
  hwx0_2 : ∀ i : grid0.Coords, EltTy.bits .f32 = 32 ∨ (Rect.block (s := S1280) S1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .bf16 = 32 ∨ (Rect.block (s := S16384x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .bf16 = 32 ∨ (Rect.block (s := S16384x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .bf16 = 32 ∨ (Rect.block (s := S4x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S4x4096x128.size a
  hwx1_1 : ∀ i : grid1.Coords, EltTy.bits .bf16 = 32 ∨ (Rect.block (s := S4x4096x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x128 : Shape := ⟨2, ![1024, 128]⟩
abbrev S128 : Shape := ⟨1, ![128]⟩
abbrev S1024x1024 : Shape := ⟨2, ![1024, 1024]⟩
abbrev S1024 : Shape := ⟨1, ![1024]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x1024_S1024x1024_S4x4096x1024_2_0_01_1_n_n_wf : DotDims.WF S4x4096x1024 S1024x1024 S4x4096x1024 [2] [0] [0, 1] [1] [] []
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.ReferenceSide.lean ====
/-
  Two of the five conjuncts that need no kernel run.

  * The reference program is host operations only. Its run, read back, ends with every argument array
    holding what it held at launch; the frame conjunct is that run with the statement about the result dropped.
  * The idealized kernel differs from the kernel as printed in one place: the scalar the attention body
    multiplies the scores by, the binary32 word 0x3DB504F3, is read as the rational 1048576/11863283,
    which is one over the reference's divisor 11863283/1048576 (the word 0x413504F3). The conjunct says
    that the named constant denotes that rational on the extended reals.
-/
import proofs.«174010_j37280316129900_2_alg».proof.Defs
import proofs.«174010_j37280316129900_2_alg».proof.Proof.Gen.ReferenceIdeal
import proofs.«174010_j37280316129900_2_alg».proof.Proof.Gen.Pre_finite_inputs
import proofs.«174010_j37280316129900_2_alg».proof.Proof.Gen.ReferenceIdeal.Run

noncomputable section

namespace Cert.Proof.ReferenceSide

open Idealize.ShloMosaic Idealize.SL.Sem

/-- The reference terminates, faults nowhere, and leaves its seven argument arrays as launched. -/
theorem frame_reference :
    Cert.frame_ReferenceIdeal (hReferenceIdeal := Cert.ReferenceIdeal.Gen.facts)
      (hPre_finite_inputs := Cert.Pre_finite_inputs.Gen.facts) := fun m ρ _ =>
  (θ_run Cert.ReferenceIdeal.defs _ _).mono (fun _ h c => (h c).2)
    (Cert.ReferenceIdeal.Value.run (F := Ideal) m ρ)

/-- The score scale's name denotes one over the reference's divisor. -/
theorem scale_named : Cert.preserves_Kernel_KernelIdeal :=
  IdealRules.named_const.statement Cert.KernelIdeal.κ "inv_ref_divisor" .f32 0x3DB504F3#32
    ((1048576 / 11863283 : ℝ) : EReal) rfl

end Cert.Proof.ReferenceSide

end
-- ==== Proof.AttentionSpec.lean ====
/-
  What both programs compute, as one function of the seven argument arrays, written over explicit coordinates
  on the extended reals. No program is mentioned here.

  With x : [4, 4096, 1024], a weight W : [1024, n] and a bias β : [n], the affine layer is
      lin x W β (b, s, j) = (Σ_e x(b,s,e) · W(e,j)) + β(j).
  Queries and keys are the layers with n = 128, values the layer with n = 1024. The score of query row q against
  key row k of batch b is the inner product over the 128 features times `scale`, the rational 1048576/11863283:
  one over the divisor 11863283/1048576 by which the other program divides.
  For one query row with scores S(k) and one output feature with values V(k), k < 4096, the attention output is
      (Σ_k V(k) · exp(S(k) − top S)) / (Σ_k exp(S(k) − top S)),    top S = the largest score of the row.
-/
import Idealize.ShloMosaic.PureOps.Ideal
import Idealize.ShloMosaic.Lib.ValueIdx

noncomputable section

namespace Cert.AttentionSpec

open Idealize.ShloMosaic

/-- One over the other program's divisor of the scores. -/
def scale : EReal := ((1048576 / 11863283 : ℝ) : EReal)

/-- The affine layer `x · W + β` at batch `b`, row `s`, output feature `j`. -/
def lin {n : ℕ} (x : Fin 4 → Fin 4096 → Fin 1024 → EReal) (W : Fin 1024 → Fin n → EReal) (β : Fin n → EReal)
    (b : Fin 4) (s : Fin 4096) (j : Fin n) : EReal :=
  (∑ e : Fin 1024, x b s e * W e j) + β j

/-- The scaled inner product of query row `q` and key row `k` of batch `b`. -/
def score (Q K : Fin 4 → Fin 4096 → Fin 128 → EReal) (b : Fin 4) (q k : Fin 4096) : EReal :=
  (∑ p : Fin 128, Q b q p * K b k p) * scale

/-- The largest score of a row. -/
def top (S : Fin 4096 → EReal) : EReal := Finset.univ.sup S

/-- The sum of the row's shifted exponentials. -/
def denom (S : Fin 4096 → EReal) : EReal := ∑ k : Fin 4096, Ideal.exp (S k - top S)

/-- The values weighted by the row's shifted exponentials, summed. -/
def numer (S V : Fin 4096 → EReal) : EReal := ∑ k : Fin 4096, V k * Ideal.exp (S k - top S)

/-- One entry of the attention output: the weighted sum of the values over the sum of the weights. -/
def attend (S V : Fin 4096 → EReal) : EReal := Ideal.div (numer S V) (denom S)

/-- The whole computation at batch `b`, query row `q`, output feature `d`. -/
def out (x : Fin 4 → Fin 4096 → Fin 1024 → EReal)
    (Wq : Fin 1024 → Fin 128 → EReal) (bq : Fin 128 → EReal)
    (Wk : Fin 1024 → Fin 128 → EReal) (bk : Fin 128 → EReal)
    (Wov : Fin 1024 → Fin 1024 → EReal) (bov : Fin 1024 → EReal)
    (b : Fin 4) (q : Fin 4096) (d : Fin 1024) : EReal :=
  attend (fun k => score (lin x Wq bq) (lin x Wk bk) b q k) (fun k => lin x Wov bov b k d)

end Cert.AttentionSpec

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.LibQuotientOfSums.lean ====
/-
  Dividing every term of a weighted sum by one real number, or the whole sum once.

  On the extended reals multiplication does not distribute over addition, so
      Σ_k (e k / L) · v k  =  (Σ_k v k · e k) / L
  is not a law there; it is one as soon as every e k, every v k and L are real numbers and L ≠ 0, because then
  both sides are the coercion of the same real number.  The case at hand is a row of softmax weights: with real
  entries S k and a real shift M each exp (S k − M) is a positive real, their sum over a nonempty index set is a
  positive real, and the weights exp (S k − M) / Σ exp (S · − M) applied to real values V k give the quotient of
  the weighted sum by the sum of the weights.

  * `coe_sum`: the coercion ℝ → EReal commutes with finite sums;
  * `isReal_exp`, `exp_sub_coe`: the exponential of a real is a real;
  * `isReal_sum_exp`, `sum_exp_ne_zero`: the sum of the shifted exponentials is a nonzero real;
  * `sum_div_mul`: the law above;
  * `sum_softmax_mul`: its softmax instance.
-/
import Idealize.ShloMosaic.PureOps.Ideal
import proofs.«174010_j37280316129900_2_alg».proof.Proof.LibIsReal

noncomputable section

namespace Idealize.ShloMosaic.QuotientOfSums

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of reals is the real exponential of the difference. -/
theorem exp_sub_coe (a m : ℝ) : Ideal.exp ((a : EReal) - (m : EReal)) = ((Real.exp (a - m) : ℝ) : EReal) := by
  rw [← EReal.coe_sub]; rfl

/-- The exponential of a real number is a real number. -/
theorem isReal_exp {x : EReal} (h : IsReal x) : IsReal (Ideal.exp x) := by
  obtain ⟨r, rfl⟩ := h; exact ⟨Real.exp r, rfl⟩

/-- The sum of the shifted exponentials of real entries is a real number. -/
theorem isReal_sum_exp {ι : Type} [Fintype ι] {S : ι → EReal} {M : EReal} (hS : ∀ k, IsReal (S k)) (hM : IsReal M) :
    IsReal (∑ k, Ideal.exp (S k - M)) :=
  IsReal.sum Finset.univ fun k _ => isReal_exp ((hS k).sub hM)

/-- Over a nonempty index set the sum of the shifted exponentials of real entries is not zero: it is a sum of
    positive reals. -/
theorem sum_exp_ne_zero {ι : Type} [Fintype ι] [Nonempty ι] {S : ι → EReal} {M : EReal} (hS : ∀ k, IsReal (S k))
    (hM : IsReal M) : (∑ k, Ideal.exp (S k - M)) ≠ 0 := by
  choose s hs using hS
  obtain ⟨m, rfl⟩ := hM
  have e : (∑ k, Ideal.exp (S k - (m : EReal))) = ((∑ k, Real.exp (s k - m) : ℝ) : EReal) := by
    rw [coe_sum]; exact Finset.sum_congr rfl fun k _ => by rw [hs k, exp_sub_coe]
  rw [e]
  have hpos : 0 < ∑ k, Real.exp (s k - m) := Finset.sum_pos (fun k _ => Real.exp_pos _) Finset.univ_nonempty
  exact fun h => (ne_of_gt hpos) (EReal.coe_eq_zero.mp h)

/-- Real terms divided one by one by a nonzero real and weighted by real values sum to the weighted sum divided
    once. -/
theorem sum_div_mul {ι : Type} [Fintype ι] (e v : ι → EReal) (L : EReal) (he : ∀ k, IsReal (e k))
    (hv : ∀ k, IsReal (v k)) (hL : IsReal L) (hL0 : L ≠ 0) :
    ∑ k, Ideal.div (e k) L * v k = Ideal.div (∑ k, v k * e k) L := by
  choose a ha using he
  choose w hw using hv
  obtain ⟨l, rfl⟩ := hL
  have hl : l ≠ 0 := fun h => hL0 (by rw [h]; rfl)
  rw [Ideal.div_coe hl]
  have lhs : ∀ k, Ideal.div (e k) (l : EReal) * v k = ((a k * (1 / l) * w k : ℝ) : EReal) := fun k => by
    rw [Ideal.div_coe hl, ha k, hw k, ← EReal.coe_mul, ← EReal.coe_mul]
  have rhs : (∑ k, v k * e k) = ((∑ k, w k * a k : ℝ) : EReal) := by
    rw [coe_sum]; exact Finset.sum_congr rfl fun k _ => by rw [ha k, hw k, ← EReal.coe_mul]
  rw [Finset.sum_congr rfl fun k _ => lhs k, rhs, ← coe_sum, ← EReal.coe_mul]
  congr 1
  rw [Finset.sum_mul]
  exact Finset.sum_congr rfl fun k _ => by ring

/-- A row of softmax weights applied to real values: the weights' common denominator comes out of the sum. -/
theorem sum_softmax_mul {ι : Type} [Fintype ι] [Nonempty ι] (S V : ι → EReal) (M : EReal) (hS : ∀ k, IsReal (S k))
    (hV : ∀ k, IsReal (V k)) (hM : IsReal M) :
    ∑ k, Ideal.div (Ideal.exp (S k - M)) (∑ k', Ideal.exp (S k' - M)) * V k
      = Ideal.div (∑ k, V k * Ideal.exp (S k - M)) (∑ k', Ideal.exp (S k' - M)) :=
  sum_div_mul _ V _ (fun k => isReal_exp ((hS k).sub hM)) hV (isReal_sum_exp hS hM) (sum_exp_ne_zero hS hM)

end Idealize.ShloMosaic.QuotientOfSums

end
-- ==== Proof.ReferenceLayers.lean ====
/-
  The reference's three affine layers, read at explicit coordinates.

  Each of the queries, the keys and the values is a matrix product of the input with a weight, contracting the
  1024 input features, plus a bias broadcast along batch and row. At batch b, row s and output feature j that is
      (Σ_e x(b,s,e) · W(e,j)) + β(j),
  the specification's affine layer of the argument arrays.
-/
import proofs.«174010_j37280316129900_2_alg».proof.Proof.Gen.ReferenceIdeal.Read
import proofs.«174010_j37280316129900_2_alg».proof.Proof.AttentionSpec

noncomputable section

namespace Cert.Proof.ReferenceValue

open Idealize.ShloMosaic Idealize.ShloMosaic.ValueIdx Cert.ReferenceIdeal Cert.ReferenceIdeal.Gen Cert.ReferenceIdeal.Read
open Cert.AttentionSpec

/-- The queries: the input times the query weight plus the query bias. -/
theorem queries_eq_lin (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (b : Fin 4) (s : Fin 4096) (j : Fin 128) :
    val_main_v3 (F := Ideal) a0 a1 a2 (ix3 b s j)
      = lin (fun b s e => a0 (ix3 b s e)) (fun e p => a1 (ix2 e p)) (fun p => a2 (ix1 p)) b s j := by
  rw [val_main_v3_apply, val_main_v0_apply, val_main_v2_apply, val_main_v1_apply]
  have el : ∀ k : Fin 1024, lidx_main_v0 (ix3 b s j) k = ix3 b s k := fun k => funext fun a => Fin.ext (by match a with | ⟨0, _⟩ => rfl | ⟨1, _⟩ => rfl | ⟨2, _⟩ => rfl)
  have er : ∀ k : Fin 1024, ridx_main_v0 (ix3 b s j) k = ix2 k j := fun k => funext fun a => Fin.ext (by match a with | ⟨0, _⟩ => rfl | ⟨1, _⟩ => rfl)
  have eb : idx_main_v1 (idx_main_v2 (ix3 b s j)) = ix1 j := funext fun a => Fin.ext (by match a with | ⟨0, _⟩ => rfl)
  simp only [el, er, eb, Ideal.addf_def]
  rfl

/-- The keys: the input times the key weight plus the key bias. -/
theorem keys_eq_lin (a0 : (⟨S4x4096x1024, .f32⟩ : BufTy).Contents (Elt Ideal)) (a3 : (⟨S1024x128, .f32⟩ : BufTy).Contents (Elt Ideal)) (a4 : (⟨S128, .f32⟩ : BufTy).Contents (Elt Ideal))
    (b : Fin 4) (s : Fin 4096) (j : Fin 128) :
    val_main_v7 (F := Ideal) a0 a3 a4 (ix3 b s j)
      = lin (fun b s e => a0 (ix3 b s e)) (fun e p => a3 (ix2 e p)) (fun p => a4 (ix1 p)) b s j := by
  rw [val_main_v7_apply, val_main_v4_apply, val_main_v6_apply, val_main_v5_apply]
  have el : ∀ k : Fin 1024, lidx_main_v4 (ix3 b s j) k = ix3 b s k := fun k => funext fun a => Fin.ext (by match a with | ⟨0, _⟩ => rfl | ⟨1, _⟩ => rfl | ⟨2, _⟩ => rfl)
  have er : ∀ k : Fin 1024, ridx_main_v4 (ix3 b s j) k = ix2 k j := fun k => funext fun a => Fin.ext (by match a with | ⟨0, _⟩ => rfl | ⟨1, _⟩ => rfl)
  have eb : idx_main_v5 (idx_main_v6 (ix3 b s j)) = ix1 j := funext fun a => Fin.ext (by match a with | ⟨0, _⟩ => rfl)
  simp only [el, er, eb, Ideal.addf_def]
  rfl

/-- The values: the input times the value weight plus the value bias. -/
theorem values_eq_lin (a0 : (⟨S4x4096x1024, .f32⟩ : BufTy).Contents (Elt Ideal)) (a5 : (⟨S1024x1024, .f32⟩ : BufTy).Contents (Elt Ideal)) (a6 : (⟨S1024, .f32⟩ : BufTy).Contents (Elt Ideal))
    (b : Fin 4) (s : Fin 4096) (j : Fin 1024) :
    val_main_v25 (F := Ideal) a0 a5 a6 (ix3 b s j)
      = lin (fun b s e => a0 (ix3 b s e)) (fun e p => a5 (ix2 e p)) (fun p => a6 (ix1 p)) b s j := by
  rw [val_main_v25_apply, val_main_v22_apply, val_main_v24_apply, val_main_v23_apply]
  have el : ∀ k : Fin 1024, lidx_main_v22 (ix3 b s j) k = ix3 b s k := fun k => funext fun a => Fin.ext (by match a with | ⟨0, _⟩ => rfl | ⟨1, _⟩ => rfl | ⟨2, _⟩ => rfl)
  have er : ∀ k : Fin 1024, ridx_main_v22 (ix3 b s j) k = ix2 k j := fun k => funext fun a => Fin.ext (by match a with | ⟨0, _⟩ => rfl | ⟨1, _⟩ => rfl)
  have eb : idx_main_v23 (idx_main_v24 (ix3 b s j)) = ix1 j := funext fun a => Fin.ext (by match a with | ⟨0, _⟩ => rfl)
  simp only [el, er, eb, Ideal.addf_def]
  rfl

end Cert.Proof.ReferenceValue

end
-- ==== Proof.ReferenceScores.lean ====
/-
  The reference's scores, their row maxima, the shifted exponentials and their row sums, at explicit coordinates.

  * The score of query row q against key row k of batch b is the inner product of the two 128-feature rows divided
    by the number the binary32 word 0x413504F3 denotes, 11863283/1048576; dividing an extended real by a nonzero
    real is multiplying by its reciprocal, here 1048576/11863283, the specification's `scale`.
  * The row maximum is a fold of `max` from −∞ over the 4096 keys, then once more `max` with −∞: the supremum of
    the row.
  * Each score minus its row's maximum is exponentiated, and the 4096 exponentials of a row are summed from 0.
-/
import proofs.«174010_j37280316129900_2_alg».proof.Proof.Gen.ReferenceIdeal.Read
import proofs.«174010_j37280316129900_2_alg».proof.Proof.AttentionSpec
import proofs.«174010_j37280316129900_2_alg».proof.Proof.ReferenceLayers

noncomputable section

namespace Cert.Proof.ReferenceValue

open Idealize.ShloMosaic Idealize.ShloMosaic.ValueIdx Cert.ReferenceIdeal Cert.ReferenceIdeal.Gen Cert.ReferenceIdeal.Read
open Cert.AttentionSpec

/-- The binary32 word 0x413504F3 denotes the rational 11863283/1048576. -/
theorem ofBits_divisor : Ideal.ofBits .f32 0x413504F3#32 = ((11863283 / 1048576 : ℝ) : EReal) := by
  simp [Ideal.ofBits, Ideal.ieee, -EReal.coe_mul]; norm_num

/-- The binary32 word 0xFF800000 denotes −∞. -/
theorem ofBits_neg_inf : Ideal.ofBits .f32 0xFF800000#32 = ⊥ := by
  simp [Ideal.ofBits, Ideal.ieee]

/-- Dividing by the reference's divisor is multiplying by `scale`, on every extended real. -/
theorem div_divisor (x : EReal) : Ideal.div x (Ideal.ofBits .f32 0x413504F3#32) = x * scale := by
  rw [ofBits_divisor, Ideal.div_coe (by norm_num : (11863283 / 1048576 : ℝ) ≠ 0)]
  unfold scale
  norm_num

/-- The reference's score array holds the specification's scores of the affine layers. -/
theorem scores_eq_score (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q k : Fin 4096) :
    val_main_v10 (F := Ideal) a0 a1 a2 a3 a4 (ix3 b q k)
      = score (lin (fun b s e => a0 (ix3 b s e)) (fun e p => a1 (ix2 e p)) (fun p => a2 (ix1 p))) (lin (fun b s e => a0 (ix3 b s e)) (fun e p => a3 (ix2 e p)) (fun p => a4 (ix1 p))) b q k := by
  rw [val_main_v10_apply, val_main_v8_apply, val_main_v9_apply, val_main_cst_apply]
  have el : ∀ p : Fin 128, lidx_main_v8 (ix3 b q k) p = ix3 b q p := fun p => funext fun a => Fin.ext (by match a with | ⟨0, _⟩ => rfl | ⟨1, _⟩ => rfl | ⟨2, _⟩ => rfl)
  have er : ∀ p : Fin 128, ridx_main_v8 (ix3 b q k) p = ix3 b k p := fun p => funext fun a => Fin.ext (by match a with | ⟨0, _⟩ => rfl | ⟨1, _⟩ => rfl | ⟨2, _⟩ => rfl)
  simp only [el, er, queries_eq_lin, keys_eq_lin, Ideal.hostDivf_def, Ideal.ofBits_def, div_divisor]
  rfl

/-- The key axis of the score array can be reduced away. -/
theorem reduces_keys : S4x4096x4096.Reduces [2] S4x4096 := by decide

/-- A row index of the reduced array with key k put back is (b, q, k). -/
theorem lift_keys (b : Fin 4) (q : Fin 4096) (k : Fin (S4x4096x4096.size 2)) :
    reduces_keys.lift (ix2 b q) k = ix3 b q (⟨k.val, k.isLt⟩ : Fin 4096) :=
  funext fun a => Fin.ext (by match a with | ⟨0, _⟩ => rfl | ⟨1, _⟩ => rfl | ⟨2, _⟩ => rfl)

/-- A fold of `max` from −∞ over the keys of one row is the supremum of the row. -/
theorem reduce_max_row (y : S4x4096x4096.Idx → Ideal .f32) (b : Fin 4) (q : Fin 4096) :
    Host.reduce (FloatOps.maximumf (F := Ideal) (φ := .f32)) y (val_main_cst_0 (F := Ideal))
        reducesTo_S4x4096x4096_S4x4096_d2 h_S_ (ix2 b q)
      = Finset.univ.sup fun k : Fin 4096 => y (ix3 b q k) := by
  rw [Host.reduce_eq_fold_single (FloatOps.maximumf (F := Ideal) (φ := .f32)) y _ reducesTo_S4x4096x4096_S4x4096_d2
    reduces_keys h_S_, val_main_cst_0_apply]
  have hf : (y ∘ reduces_keys.lift (ix2 b q)) = fun k : Fin 4096 => y (ix3 b q k) :=
    funext fun k => congrArg y (lift_keys b q k)
  rw [hf]
  simp only [Ideal.ofBits_def, ofBits_neg_inf]
  rfl

/-- The reference's row maximum is the supremum of the row of scores. -/
theorem rowmax_eq_sup (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q : Fin 4096) :
    val_main_v13 (F := Ideal) a0 a1 a2 a3 a4 (ix2 b q)
      = Finset.univ.sup fun k : Fin 4096 => val_main_v10 (F := Ideal) a0 a1 a2 a3 a4 (ix3 b q k) := by
  rw [val_main_v13_apply, val_main_v12_apply, val_main_cst_1_apply]
  have hv : val_main_v11 (F := Ideal) a0 a1 a2 a3 a4 (ix2 b q)
      = Finset.univ.sup fun k : Fin 4096 => val_main_v10 (F := Ideal) a0 a1 a2 a3 a4 (ix3 b q k) :=
    reduce_max_row (val_main_v10 (F := Ideal) a0 a1 a2 a3 a4) b q
  rw [hv]
  simp only [Ideal.ofBits_def, ofBits_neg_inf, Ideal.maximumf_def]
  exact max_eq_right bot_le

/-- The reference's row maximum is the specification's largest score of the row. -/
theorem rowmax_eq_top (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q : Fin 4096) :
    val_main_v13 (F := Ideal) a0 a1 a2 a3 a4 (ix2 b q)
      = top (fun k' => score (lin (fun b s e => a0 (ix3 b s e)) (fun e p => a1 (ix2 e p)) (fun p => a2 (ix1 p))) (lin (fun b s e => a0 (ix3 b s e)) (fun e p => a3 (ix2 e p)) (fun p => a4 (ix1 p))) b q k') := by
  rw [rowmax_eq_sup]
  simp only [scores_eq_score]
  rfl

/-- The reference's exponentials are those of the scores shifted by their row's largest. -/
theorem exps_eq_exp (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q k : Fin 4096) :
    val_main_v17 (F := Ideal) a0 a1 a2 a3 a4 (ix3 b q k)
      = Ideal.exp (score (lin (fun b s e => a0 (ix3 b s e)) (fun e p => a1 (ix2 e p)) (fun p => a2 (ix1 p))) (lin (fun b s e => a0 (ix3 b s e)) (fun e p => a3 (ix2 e p)) (fun p => a4 (ix1 p))) b q k
          - top (fun k' => score (lin (fun b s e => a0 (ix3 b s e)) (fun e p => a1 (ix2 e p)) (fun p => a2 (ix1 p))) (lin (fun b s e => a0 (ix3 b s e)) (fun e p => a3 (ix2 e p)) (fun p => a4 (ix1 p))) b q k')) := by
  rw [val_main_v17_apply, val_main_v16_apply, val_main_v15_apply, val_main_v14_apply]
  have e : idx_main_v14 (idx_main_v15 (ix3 b q k)) = ix2 b q := funext fun a => Fin.ext (by match a with | ⟨0, _⟩ => rfl | ⟨1, _⟩ => rfl)
  rw [e, rowmax_eq_top, scores_eq_score]
  rfl

/-- The reference's row sums are the specification's sums of shifted exponentials. -/
theorem rowsum_eq_denom (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q : Fin 4096) :
    val_main_v18 (F := Ideal) a0 a1 a2 a3 a4 (ix2 b q)
      = denom (fun k' => score (lin (fun b s e => a0 (ix3 b s e)) (fun e p => a1 (ix2 e p)) (fun p => a2 (ix1 p))) (lin (fun b s e => a0 (ix3 b s e)) (fun e p => a3 (ix2 e p)) (fun p => a4 (ix1 p))) b q k') := by
  rw [val_main_v18_apply, val_main_cst_2_apply]
  have e : ∀ k : Fin 4096, idx_main_v18 (ix2 b q) k = ix3 b q k := fun k => funext fun a => Fin.ext (by match a with | ⟨0, _⟩ => rfl | ⟨1, _⟩ => rfl | ⟨2, _⟩ => rfl)
  simp only [e, exps_eq_exp, Ideal.ofBits_def, Ideal.ofBits_zero_f32, zero_add]
  rfl

end Cert.Proof.ReferenceValue

end
-- ==== Proof.ReferenceValue.lean ====
/-
  The reference's result is the specification's attention output of the argument arrays.

  The reference normalizes first: it divides each shifted exponential by its row's sum and then takes the weighted
  sum of the values, Σ_k (exp(S k − M) / L) · V k. The specification divides once, (Σ_k V k · exp(S k − M)) / L.
  On the extended reals the two differ in general; they agree when every score and every value is a real number,
  for then M is a real number, every exponential is a positive real and L a positive real. Scores and values are
  real because the arguments are: sums and products of real numbers are real numbers.
-/
import proofs.«174010_j37280316129900_2_alg».proof.Proof.Gen.ReferenceIdeal.Read
import proofs.«174010_j37280316129900_2_alg».proof.Proof.AttentionSpec
import proofs.«174010_j37280316129900_2_alg».proof.Proof.LibIsReal
import proofs.«174010_j37280316129900_2_alg».proof.Proof.LibQuotientOfSums
import proofs.«174010_j37280316129900_2_alg».proof.Proof.ReferenceLayers
import proofs.«174010_j37280316129900_2_alg».proof.Proof.ReferenceScores

noncomputable section

namespace Cert.Proof.ReferenceValue

open Idealize.ShloMosaic Idealize.ShloMosaic.ValueIdx Cert.ReferenceIdeal Cert.ReferenceIdeal.Gen Cert.ReferenceIdeal.Read
open Cert.AttentionSpec

/-- An affine layer of real arrays has real entries. -/
theorem isReal_lin {n : ℕ} {x : Fin 4 → Fin 4096 → Fin 1024 → EReal} {W : Fin 1024 → Fin n → EReal} {β : Fin n → EReal}
    (hx : ∀ b s e, IsReal (x b s e)) (hW : ∀ e j, IsReal (W e j)) (hβ : ∀ j, IsReal (β j))
    (b : Fin 4) (s : Fin 4096) (j : Fin n) : IsReal (lin x W β b s j) :=
  (IsReal.sum_mul (fun e => hx b s e) (fun e => hW e j)).add (hβ j)

/-- A score of real queries and keys is a real number. -/
theorem isReal_score {Q K : Fin 4 → Fin 4096 → Fin 128 → EReal} (hQ : ∀ b s p, IsReal (Q b s p))
    (hK : ∀ b s p, IsReal (K b s p)) (b : Fin 4) (q k : Fin 4096) : IsReal (score Q K b q k) :=
  (IsReal.sum_mul (fun p => hQ b q p) (fun p => hK b k p)).mul (IsReal.coe _)

/-- The largest of a row of real scores is a real number. -/
theorem isReal_top {S : Fin 4096 → EReal} (hS : ∀ k, IsReal (S k)) : IsReal (top S) :=
  IsReal.sup Finset.univ_nonempty fun k _ => hS k

/-- Normalizing the weights first or dividing the weighted sum once is the same for real scores and values. -/
theorem normalized_sum_eq_attend (S V : Fin 4096 → EReal) (hS : ∀ k, IsReal (S k)) (hV : ∀ k, IsReal (V k)) :
    ∑ k, Ideal.div (Ideal.exp (S k - top S)) (denom S) * V k = attend S V :=
  QuotientOfSums.sum_softmax_mul S V (top S) hS hV (isReal_top hS)

/-- The reference's normalized weights. -/
theorem weights_eq (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (b : Fin 4) (q k : Fin 4096) :
    val_main_v21 (F := Ideal) a0 a1 a2 a3 a4 (ix3 b q k)
      = Ideal.div (Ideal.exp (score (lin (fun b s e => a0 (ix3 b s e)) (fun e p => a1 (ix2 e p)) (fun p => a2 (ix1 p))) (lin (fun b s e => a0 (ix3 b s e)) (fun e p => a3 (ix2 e p)) (fun p => a4 (ix1 p))) b q k
          - top (fun k' => score (lin (fun b s e => a0 (ix3 b s e)) (fun e p => a1 (ix2 e p)) (fun p => a2 (ix1 p))) (lin (fun b s e => a0 (ix3 b s e)) (fun e p => a3 (ix2 e p)) (fun p => a4 (ix1 p))) b q k')))
        (denom (fun k' => score (lin (fun b s e => a0 (ix3 b s e)) (fun e p => a1 (ix2 e p)) (fun p => a2 (ix1 p))) (lin (fun b s e => a0 (ix3 b s e)) (fun e p => a3 (ix2 e p)) (fun p => a4 (ix1 p))) b q k')) := by
  rw [val_main_v21_apply, val_main_v20_apply, val_main_v19_apply]
  have e : idx_main_v19 (idx_main_v20 (ix3 b q k)) = ix2 b q := funext fun a => Fin.ext (by match a with | ⟨0, _⟩ => rfl | ⟨1, _⟩ => rfl)
  rw [e, rowsum_eq_denom, exps_eq_exp]
  rfl

/-- The reference's result at batch b, query row q and output feature d, for real argument arrays. -/
theorem result_at (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (a5 : (⟨S1024x1024, .f32⟩ : BufTy).Contents (Elt Ideal)) (a6 : (⟨S1024, .f32⟩ : BufTy).Contents (Elt Ideal))
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i))
    (b : Fin 4) (q : Fin 4096) (d : Fin 1024) :
    val_main_v26 (F := Ideal) a0 a1 a2 a3 a4 a5 a6 (ix3 b q d)
      = Cert.AttentionSpec.out (fun b s e => a0 (ix3 b s e)) (fun e p => a1 (ix2 e p)) (fun p => a2 (ix1 p))
        (fun e p => a3 (ix2 e p)) (fun p => a4 (ix1 p)) (fun e d => a5 (ix2 e d)) (fun d => a6 (ix1 d)) b q d := by
  rw [val_main_v26_apply]
  have el : ∀ k : Fin 4096, lidx_main_v26 (ix3 b q d) k = ix3 b q k := fun k => funext fun a => Fin.ext (by match a with | ⟨0, _⟩ => rfl | ⟨1, _⟩ => rfl | ⟨2, _⟩ => rfl)
  have er : ∀ k : Fin 4096, ridx_main_v26 (ix3 b q d) k = ix3 b k d := fun k => funext fun a => Fin.ext (by match a with | ⟨0, _⟩ => rfl | ⟨1, _⟩ => rfl | ⟨2, _⟩ => rfl)
  simp only [el, er, weights_eq, values_eq_lin]
  have hx : ∀ b s e, IsReal ((fun b s e => a0 (ix3 b s e)) b s e) := fun b s e => h0 _
  have hQ := isReal_lin hx (fun e p => h1 (ix2 e p)) (fun p => h2 (ix1 p))
  have hK := isReal_lin hx (fun e p => h3 (ix2 e p)) (fun p => h4 (ix1 p))
  have hV := isReal_lin hx (fun e p => h5 (ix2 e p)) (fun p => h6 (ix1 p))
  exact normalized_sum_eq_attend _ _ (fun k => isReal_score hQ hK b q k) (fun k => hV b k d)

/-- The reference's result array is the specification's output, index by index, for real argument arrays. -/
theorem result_eq_spec (a0 : (⟨S4x4096x1024, .f32⟩ : BufTy).Contents (Elt Ideal)) (a1 : (⟨S1024x128, .f32⟩ : BufTy).Contents (Elt Ideal)) (a2 : (⟨S128, .f32⟩ : BufTy).Contents (Elt Ideal))
    (a3 : (⟨S1024x128, .f32⟩ : BufTy).Contents (Elt Ideal)) (a4 : (⟨S128, .f32⟩ : BufTy).Contents (Elt Ideal))
    (a5 : (⟨S1024x1024, .f32⟩ : BufTy).Contents (Elt Ideal)) (a6 : (⟨S1024, .f32⟩ : BufTy).Contents (Elt Ideal))
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) :
    val_main_v26 (F := Ideal) a0 a1 a2 a3 a4 a5 a6
      = fun i => Cert.AttentionSpec.out (fun b s e => a0 (ix3 b s e)) (fun e p => a1 (ix2 e p)) (fun p => a2 (ix1 p))
        (fun e p => a3 (ix2 e p)) (fun p => a4 (ix1 p)) (fun e d => a5 (ix2 e d)) (fun d => a6 (ix1 d)) (i 0) (i 1) (i 2) := by
  funext i
  obtain ⟨b, q, d, rfl⟩ : ∃ (b : Fin 4) (q : Fin 4096) (d : Fin 1024), i = ix3 b q d := ⟨i 0, i 1, i 2, eq_ix3 i⟩
  exact result_at a0 a1 a2 a3 a4 a5 a6 h0 h1 h2 h3 h4 h5 h6 b q d

end Cert.Proof.ReferenceValue

end
-- ==== Proof.FiniteInputs.lean ====
/-
  From "every input is finite" to "every entry of every argument array is a real number".

  The precondition is one truth value: for each of the seven argument arrays, the conjunction over all its entries
  of |x| < +∞, and the seven conjunctions and-ed together. An extended real whose absolute value max x (−x) is
  below +∞ is neither infinity, so it is a real number. Read back entry by entry, the precondition therefore says
  that every entry of every argument is a real number, which is what the cancellation laws of the attention
  arithmetic need.
-/
import proofs.«174010_j37280316129900_2_alg».proof.Pre_finite_inputs
import proofs.«174010_j37280316129900_2_alg».proof.Proof.Gen.Pre_finite_inputs
import proofs.«174010_j37280316129900_2_alg».proof.Proof.LibIsReal
import Idealize.ShloMosaic.Lib.ReduceAll
import Idealize.ShloMosaic.Lib.ValueIdx
import Idealize.ShloMosaic.PureOps.Ideal.Laws

noncomputable section

namespace Cert.Proof.FiniteInputs

open Idealize.ShloMosaic Cert.Pre_finite_inputs Cert.Pre_finite_inputs.Gen

/-- The rank-0 shape has one index. -/
instance subsingleton_scalar_idx : Subsingleton S_.Idx := ⟨fun a b => funext fun d => d.elim0⟩

/-- The binary32 word 0x7F800000 denotes +∞. -/
theorem ofBits_pos_inf : Ideal.ofBits .f32 0x7F800000#32 = ⊤ := by
  simp [Ideal.ofBits, Ideal.ieee]

/-- An extended real whose absolute value compares below the word for +∞ is a real number. -/
theorem isReal_of_abs_olt_inf {x : EReal}
    (h : Ideal.cmp .olt (max x (-x)) (Ideal.ofBits .f32 0x7F800000#32) = 1#1) : IsReal x := by
  rw [ofBits_pos_inf] at h
  refine isReal_of_abs_lt_top ?_
  by_contra hn
  simp [Ideal.cmp, hn] at h

/-- One argument array: if the conjunction over all entries of "|x| < +∞" is true, every entry is a real number. -/
theorem entries_real {s : Shape} {axes : List (Fin s.rank)} (x : FVec Ideal s .f32)
    (bc : S_.BroadcastsInDim s (![] : Fin 0 → Fin s.rank)) (hr : s.ReducesTo axes S_) (hu : 0 < S_.numel)
    (h : Host.reduce IntOp.andi
          (cmpf .olt (Host.absf x) (broadcastInDim s ![] bc (constant (F := Ideal) S_ .f32 0x7F800000#32)))
          (constantI S_ 1 1#1) hr hu ValueIdx.ix0 = 1#1) (i : s.Idx) : IsReal (x i) :=
  isReal_of_abs_olt_inf (Host.reduce_andi_all _ _ hr hu ValueIdx.ix0 h i)

/-- Under the precondition every entry of each of the seven argument arrays is a real number. -/
theorem args_real (a0 : FVec Ideal S4x4096x1024 .f32) (a1 : FVec Ideal S1024x128 .f32) (a2 : FVec Ideal S128 .f32)
    (a3 : FVec Ideal S1024x128 .f32) (a4 : FVec Ideal S128 .f32) (a5 : FVec Ideal S1024x1024 .f32)
    (a6 : FVec Ideal S1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨entries_real a0 _ _ _ h3, entries_real a1 _ _ _ h7, entries_real a2 _ _ _ h12, entries_real a3 _ _ _ h17,
    entries_real a4 _ _ _ h22, entries_real a5 _ _ _ h27, entries_real a6 _ _ _ h32⟩

end Cert.Proof.FiniteInputs

end
-- ==== Proof.KernelProjectionRegion.lean ====
import proofs.«174010_j37280316129900_2_alg».proof.Proof.Gen.Kernel.Launch
import proofs.«174010_j37280316129900_2_alg».proof.Proof.Gen.Kernel.Skeleton
import proofs.«174010_j37280316129900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused projection (the first kernel region): what its body leaves, and its proof data

The first kernel multiplies a block of 1024 rows of the input (reshaped to 16384 rows of 1024) by the
concatenated weight (1024 by 1280), adds the concatenated bias, and writes the three column ranges
0..127, 128..255 and 256..1279 of the sum into the three output blocks. Everything here is stated at a
parameter `V`: the contents of the core's buffers when the region is entered. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the block of 1024 rows of its point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer, filled at the first point only, holds the whole weight at every point: its block
    index never moves, so what the first fetch left is the block of every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1024x1024 := Rect.unit (s := S1024x1024) ![0, 0] S1024x1024.size inb_S1024x1024_S1024x1024_0_0
abbrev r0_w : Rect S1024x1280 := Rect.unit (s := S1024x1280) ![0, 0] S1024x1280.size inb_S1024x1280_S1024x1280_0_0
abbrev r0_b : Rect S1280 := Rect.unit (s := S1280) ![0] S1280.size inb_S1280_S1280_0
abbrev r0_q : Rect S1024x128 := Rect.unit (s := S1024x128) ![0, 0] S1024x128.size inb_S1024x128_S1024x128_0_0

/-! ## What the body leaves in each output block's buffer -/

/-- The first output block (columns 0..127 of the sum) after the body, from the three input blocks. -/
def out0_3 (x0 : Vec F S1024x1024 .f32) (x1 : Vec F S1024x1280 .bf16) (x2 : Vec F S1280 .f32) : Vec F S1024x128 .bf16 :=
  View.canon [⟨r0_q, k0_pay2 (View.ld x0 r0_x) (View.ld x1 r0_w) (View.ld x2 r0_b)⟩]
/-- The second output block (columns 128..255). -/
def out0_4 (x0 : Vec F S1024x1024 .f32) (x1 : Vec F S1024x1280 .bf16) (x2 : Vec F S1280 .f32) : Vec F S1024x128 .bf16 :=
  View.canon [⟨r0_q, k0_pay3 (View.ld x0 r0_x) (View.ld x1 r0_w) (View.ld x2 r0_b)⟩]
/-- The third output block (columns 256..1279). -/
def out0_5 (x0 : Vec F S1024x1024 .f32) (x1 : Vec F S1024x1280 .bf16) (x2 : Vec F S1280 .f32) : Vec F S1024x1024 .bf16 :=
  View.canon [⟨r0_x, k0_pay4 (View.ld x0 r0_x) (View.ld x1 r0_w) (View.ld x2 r0_b)⟩]

/-- One whole-buffer store covers the buffer. -/
theorem cover0_q (p0 : Vec F S1024x128 .bf16) (y : S1024x128.Idx) :
    ∃ pc ∈ ([⟨r0_q, p0⟩] : List (View.Piece (Elt F) S1024x128 .bf16)), y ∈ pc.1.set :=
  View.cover_of_tiled [⟨r0_q, p0⟩] S1024x128.size (by rfl) y
theorem cover0_x (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-! ## The body's triple -/

/-- The body on whole staging buffers, the three inputs' at read contents `x0 x1 x2` and the three outputs' at
    anything, runs to the continuation holding the inputs' as they were and each output's at `out0_W` of the inputs.
    (The body also reads each output buffer once before its store; the values read are not used.) -/
theorem sound_kernel0 (c : Dev nD) (E : Set ℕ) (i : grid0.Coords)
    (arg1 : Memref sig .tc .vmem S1024x1024 .f32) (harg1 : arg1.IsWhole) (arg2 : Memref sig .tc .vmem S1024x1280 .bf16) (harg2 : arg2.IsWhole)
    (arg3 : Memref sig .tc .vmem S1280 .f32) (harg3 : arg3.IsWhole) (arg4 : Memref sig .tc .vmem S1024x128 .bf16) (harg4 : arg4.IsWhole)
    (arg5 : Memref sig .tc .vmem S1024x128 .bf16) (harg5 : arg5.IsWhole) (arg6 : Memref sig .tc .vmem S1024x1024 .bf16) (harg6 : arg6.IsWhole)
    (x0 : Vec F S1024x1024 .f32) (x1 : Vec F S1024x1280 .bf16) (x2 : Vec F S1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_q _)
  isplitl [H4]
  · iexists _; isplitr
    swap; · iexact H4
    ipureintro
    exact View.read_writes_eq_canon _ _ _ (cover0_q _)
  iexists _; isplitr
  swap; · iexact H5
  ipureintro
  exact View.read_writes_eq_canon _ _ _ (cover0_x _)

/-! ## The region's proof data -/

/-- The proof data of the projection on core `c`: the arrays as the region finds them (`V`); after the body at
    point `t` each input's buffer at its block and each output's at `out0_W` of the three input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the projection, at every point. -/
theorem body_obligation0 (c : Dev nD) : BodyObligation (dat0 (F := F) V c) (defs₀ (F := F)) Variants.none () Set.univ := fun t => by
  rw [bigSep_W0, bigSep_W0]
  exact sound_body0 V c t

end Region0

/-- info: 'Cert.Kernel.Hand.body_obligation0' depends on axioms: [propext, Classical.choice, Quot.sound] -/
#guard_msgs in #print axioms body_obligation0

end Cert.Kernel.Hand

end
-- ==== Proof.KernelAttentionCases.lean ====
/-
  The second pallas_call (attention over a grid of batch × query tile × key tile, 4 × 4 × 8 = 128 points, the key
  tile innermost) — what its three cases are stated over.

  * A window's block at a point is read off its array as the region finds it.
  * Two conditions branch the body: "the key tile is the first" holds exactly at the points ≡ 0 (mod 8), where the
    three scratch buffers are reset; "the key tile is the last" holds exactly at the points ≡ 7 (mod 8), where the
    output block is written. No point meets both, so a point is in one of three cases: first, middle, last.
  * The output window is idle (nothing stored, nothing written back) in the first and middle cases and live in the last.
  * Between two points the region owns, besides the windows' staging buffers, the three scratch buffers (running
    maximum, running sum, accumulator), the staging buffers of the other pallas_call (at contents it never reads),
    and the generator register.
-/
import proofs.«174010_j37280316129900_2_alg».proof.Proof.Gen.Kernel.Launch
import proofs.«174010_j37280316129900_2_alg».proof.Proof.Gen.Kernel.Skeleton
import proofs.«174010_j37280316129900_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions -/

/-- "The key tile is the first", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The key tile is the last". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, the running sum and the accumulator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1x1024x1024 .f32 := (Memref.whole cc1_stg3_0 : Memref sig .tc .vmem S1x1024x1024 .f32).view

end Cert.Kernel.Hand

end
-- ==== Proof.KernelAttentionRunMiddle.lean ====
/-
  The attention body at a point whose key tile is neither the first nor the last, run once on any staging and
  scratch memrefs: the three inputs' buffers hold the point's query, key and value blocks and end as they were; the
  output's buffer is not touched; each scratch buffer enters at what the point before left and ends with one whole
  store written into it (the new running maximum, the new running sum, the new accumulator). The stored pieces are
  the witness the run finds.
-/
import proofs.«174010_j37280316129900_2_alg».proof.Proof.KernelAttentionCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_mid (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KernelAttentionRunFirst.lean ====
/-
  The attention body at a point whose key tile is the first (and not the last), run once on any staging and
  scratch memrefs: the inputs' buffers end as they were; the output's buffer is not touched; each scratch buffer
  enters at anything, is reset (the maximum to minus infinity, the sum and the accumulator to zero) and then
  receives the tile's update, so it ends with two whole stores written into it.
-/
import proofs.«174010_j37280316129900_2_alg».proof.Proof.KernelAttentionRunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_first (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KernelAttentionRunLast.lean ====
/-
  The attention body at a point whose key tile is the last (and not the first), run once on any staging and
  scratch memrefs: the inputs' buffers end as they were; each scratch buffer enters at what the point before left
  and ends with one whole store written into it; the output's buffer enters at anything and ends with one whole
  store written into it: the accumulator divided, row by row, by the running sum.
-/
import proofs.«174010_j37280316129900_2_alg».proof.Proof.KernelAttentionRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_last (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KernelAttentionRegion.lean ====
/-
  The second pallas_call's proof data and body obligation.

  The grid's 128 points run the key tile innermost, so each run of eight consecutive points is one (batch, query
  tile) pair: at its first point the three scratch buffers are reset and receive the first tile's update, at the
  next six they are updated from what the point before left, and at the eighth they are updated once more and the
  output block — the accumulator divided row by row by the running sum — is stored. What the four buffers hold
  after each point is therefore a recurrence on the point, and the invariant between two points says that the
  scratch buffers hold the recurrence's value at the point before.
-/
import proofs.«174010_j37280316129900_2_alg».proof.Proof.KernelAttentionRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each buffer it stores into -/

/-- The pieces the first case writes into the running-maximum buffer cover it. -/
theorem cover1_first_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1.Idx) :
    ∃ pc ∈ (kernelRun1_first c i arg3 harg3 arg4 harg4 arg5 harg5 arg6 harg6 arg7 harg7 arg8 harg8 arg9 harg9 hc0 hc1 x0 x1 x2).1, y ∈ pc.1.set :=
  View.cover_of_tiledL (kernelRun1_first c i arg3 harg3 arg4 harg4 arg5 harg5 arg6 harg6 arg7 harg7 arg8 harg8 arg9 harg9 hc0 hc1 x0 x1 x2).1 S1024x1.size (by sl_kernel_rfl) y

/-- What the first case leaves in the running-maximum buffer: its pieces read back. -/
def out1_first_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1 .f32 :=
  VS1_0.read (Elt F) (VS1_0.writes (Elt F) VS1_0.junk (kernelRun1_first c i arg3 harg3 arg4 harg4 arg5 harg5 arg6 harg6 arg7 harg7 arg8 harg8 arg9 harg9 hc0 hc1 x0 x1 x2).1)

/-- The pieces the first case writes into the running-sum buffer cover it. -/
theorem cover1_first_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1.Idx) :
    ∃ pc ∈ (kernelRun1_first c i arg3 harg3 arg4 harg4 arg5 harg5 arg6 harg6 arg7 harg7 arg8 harg8 arg9 harg9 hc0 hc1 x0 x1 x2).2.1, y ∈ pc.1.set :=
  View.cover_of_tiledL (kernelRun1_first c i arg3 harg3 arg4 harg4 arg5 harg5 arg6 harg6 arg7 harg7 arg8 harg8 arg9 harg9 hc0 hc1 x0 x1 x2).2.1 S1024x1.size (by sl_kernel_rfl) y

/-- What the first case leaves in the running-sum buffer: its pieces read back. -/
def out1_first_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1 .f32 :=
  VS1_1.read (Elt F) (VS1_1.writes (Elt F) VS1_1.junk (kernelRun1_first c i arg3 harg3 arg4 harg4 arg5 harg5 arg6 harg6 arg7 harg7 arg8 harg8 arg9 harg9 hc0 hc1 x0 x1 x2).2.1)

/-- The pieces the first case writes into the accumulator buffer cover it. -/
theorem cover1_first_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1024.Idx) :
    ∃ pc ∈ (kernelRun1_first c i arg3 harg3 arg4 harg4 arg5 harg5 arg6 harg6 arg7 harg7 arg8 harg8 arg9 harg9 hc0 hc1 x0 x1 x2).2.2.1, y ∈ pc.1.set :=
  View.cover_of_tiledL (kernelRun1_first c i arg3 harg3 arg4 harg4 arg5 harg5 arg6 harg6 arg7 harg7 arg8 harg8 arg9 harg9 hc0 hc1 x0 x1 x2).2.2.1 S1024x1024.size (by sl_kernel_rfl) y

/-- What the first case leaves in the accumulator buffer: its pieces read back. -/
def out1_first_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1024 .f32 :=
  VS1_2.read (Elt F) (VS1_2.writes (Elt F) VS1_2.junk (kernelRun1_first c i arg3 harg3 arg4 harg4 arg5 harg5 arg6 harg6 arg7 harg7 arg8 harg8 arg9 harg9 hc0 hc1 x0 x1 x2).2.2.1)

/-- The pieces the mid case writes into the running-maximum buffer cover it. -/
theorem cover1_mid_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_mid c i arg3 harg3 arg4 harg4 arg5 harg5 arg6 harg6 arg7 harg7 arg8 harg8 arg9 harg9 hc0 hc1 x0 x1 x2 xs0 xs1 xs2).1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).1 S1024x1.size (by sl_kernel_rfl) y

/-- What the mid case leaves in the running-maximum buffer: its pieces read back. -/
def out1_mid_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_mid c i arg3 harg3 arg4 harg4 arg5 harg5 arg6 harg6 arg7 harg7 arg8 harg8 arg9 harg9 hc0 hc1 x0 x1 x2 xs0 xs1 xs2).1)

/-- The pieces the mid case writes into the running-sum buffer cover it. -/
theorem cover1_mid_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_mid c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).2.1 S1024x1.size (by sl_kernel_rfl) y

/-- What the mid case leaves in the running-sum buffer: its pieces read back. -/
def out1_mid_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_mid c i arg3 harg3 arg4 harg4 arg5 harg5 arg6 harg6 arg7 harg7 arg8 harg8 arg9 harg9 hc0 hc1 x0 x1 x2 xs0 xs1 xs2).2.1)

/-- The pieces the mid case writes into the accumulator buffer cover it. -/
theorem cover1_mid_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1024.Idx) :
    ∃ pc ∈ (kernelRun1_mid c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).2.2.1 S1024x1024.size (by sl_kernel_rfl) y

/-- What the mid case leaves in the accumulator buffer: its pieces read back. -/
def out1_mid_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_mid c i arg3 harg3 arg4 harg4 arg5 harg5 arg6 harg6 arg7 harg7 arg8 harg8 arg9 harg9 hc0 hc1 x0 x1 x2 xs0 xs1 xs2).2.2.1)

/-- The pieces the last case writes into the output window's buffer cover it. -/
theorem cover1_last_o3 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_last c i arg3 harg3 arg4 harg4 arg5 harg5 arg6 harg6 arg7 harg7 arg8 harg8 arg9 harg9 hc0 hc1 x0 x1 x2 xs0 xs1 xs2).1, y ∈ pc.1.set :=
  View.cover_of_tiledL (kernelRun1_last c i arg3 harg3 arg4 harg4 arg5 harg5 arg6 harg6 arg7 harg7 arg8 harg8 arg9 harg9 hc0 hc1 x0 x1 x2 xs0 xs1 xs2).1 S1x1024x1024.size (by sl_kernel_rfl) y

/-- What the last case leaves in the output window's buffer: its pieces read back. -/
def out1_last_o3 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_last c i arg3 harg3 arg4 harg4 arg5 harg5 arg6 harg6 arg7 harg7 arg8 harg8 arg9 harg9 hc0 hc1 x0 x1 x2 xs0 xs1 xs2).1)

/-- The pieces the last case writes into the running-maximum buffer cover it. -/
theorem cover1_last_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_last c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.1 S1024x1.size (by sl_kernel_rfl) y

/-- What the last case leaves in the running-maximum buffer: its pieces read back. -/
def out1_last_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_last c i arg3 harg3 arg4 harg4 arg5 harg5 arg6 harg6 arg7 harg7 arg8 harg8 arg9 harg9 hc0 hc1 x0 x1 x2 xs0 xs1 xs2).2.1)

/-- The pieces the last case writes into the running-sum buffer cover it. -/
theorem cover1_last_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_last c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.2.1 S1024x1.size (by sl_kernel_rfl) y

/-- What the last case leaves in the running-sum buffer: its pieces read back. -/
def out1_last_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_last c i arg3 harg3 arg4 harg4 arg5 harg5 arg6 harg6 arg7 harg7 arg8 harg8 arg9 harg9 hc0 hc1 x0 x1 x2 xs0 xs1 xs2).2.2.1)

/-- The pieces the last case writes into the accumulator buffer cover it. -/
theorem cover1_last_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1024.Idx) :
    ∃ pc ∈ (kernelRun1_last c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.2.2.1 S1024x1024.size (by sl_kernel_rfl) y

/-- What the last case leaves in the accumulator buffer: its pieces read back. -/
def out1_last_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_last c i arg3 harg3 arg4 harg4 arg5 harg5 arg6 harg6 arg7 harg7 arg8 harg8 arg9 harg9 hc0 hc1 x0 x1 x2 xs0 xs1 xs2).2.2.2.1)

/-! ## What the buffers hold after each point -/

/-- What the output window's buffer is said to hold at a point where nothing is stored into it: a placeholder no
    statement consults (at such a point the window is neither written back nor read again). -/
def idle3 : Vec F S1x1024x1024 .f32 := VO1_3.read (Elt F) VO1_3.junk

/-- THE RECURRENCE. After the body at position `n`: the output window's buffer, then the three scratch buffers
    (maximum, sum, accumulator). A first key tile starts from nothing; a middle or last one continues from what
    position `n - 1` left in the scratch buffers. -/
def outsAt1 (c : Dev nD) : (n : ℕ) → n < cfg1.N → Vec F S1x1024x1024 .f32 × Vec F S1024x1 .f32 × Vec F S1024x1 .f32 × Vec F S1024x1024 .f32
  | 0, hn => (idle3, out1_first_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_first_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_first_s2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idle3, out1_first_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_first_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_first_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_last_o3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (idle3, out1_mid_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_mid_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_mid_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first key tile. -/
theorem outsAt1_first (c : Dev nD) (t : Fin cfg1.N) (h0 : t.val % 8 = 0) (h1 : ¬t.val % 8 = 7) :
    outsAt1 V c t.val t.isLt = (idle3, out1_first_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), out1_first_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), out1_first_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle key tile: over what the point before left. -/
theorem outsAt1_mid (c : Dev nD) (t : Fin cfg1.N) (h0 : ¬t.val % 8 = 0) (h1 : ¬t.val % 8 = 7) :
    outsAt1 V c t.val t.isLt = (idle3, out1_mid_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_mid_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_mid_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt1_last (c : Dev nD) (t : Fin cfg1.N) (h0 : ¬t.val % 8 = 0) (h1 : t.val % 8 = 7) :
    outsAt1 V c t.val t.isLt = (out1_last_o3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## What the region owns between two points -/

/-- A scoped buffer of the other pallas_call, whole, at contents this region never reads. -/
abbrev oth (c : Dev nD) (b : Ref sig .tc) : sProp 𝕄 :=
  iprop(∃ f : Buf (Elt F) ((c : Thread nD τ).loc b), ((c : Thread nD τ).loc b) ↦{fullShare} f)

/-- Before the first point: the other call's staging buffers, the three scratch buffers at anything, the
    generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before position `n`: as above before the first point; afterwards each scratch buffer at what the point before
    left in it. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- Each input window's current staging buffer holds its block at every point, fetched there or not (the query
    block is fetched once per eight points and stays), for any proof data whose array is the entry contents and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The arrays as the region finds them; after the body at a point each input's buffer at its block and the
    output's at the recurrence's first component; the invariant as above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point. The inputs' buffers hold their blocks; the closed forms say which of the three cases the
    point is in; the invariant hands the body the scratch buffers at what the point before left (at anything before
    the very first point) and takes them back at this point's contents, each covered by the stores the case makes;
    the output's buffer is handed back untouched off the last key tile, and covered by its one store at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_first V c t h0 h1]
      unfold out1_first_s0 out1_first_s1 out1_first_s2; (try dsimp only)
      by_cases hz : t.val = 0
      · rw [PhiS1_castSucc V c t, PhiS1_zero V c _ _ hz, PhiA1_eq]
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_first c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_first_s0 c _ _ _ _ _ _ _ _ _ _ _ _ _ _ _ _ _ _ _ _)
            isplitl [HS1]
            · unfold owns; iexists _; isplitr
              swap; · iexact HS1
              ipureintro; exact View.read_writes_of_cover _ _ _ _ _ (cover1_first_s1 c _ _ _ _ _ _ _ _ _ _ _ _ _ _ _ _ _ _ _ _)
            unfold owns; iexists _; isplitr
            swap; · iexact HS2
            ipureintro; exact View.read_writes_of_cover _ _ _ _ _ (cover1_first_s2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_first c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_first_s0 c _ _ _ _ _ _ _ _ _ _ _ _ _ _ _ _ _ _ _ _)
            isplitl [HS1]
            · unfold owns; iexists _; isplitr
              swap; · iexact HS1
              ipureintro; exact View.read_writes_of_cover _ _ _ _ _ (cover1_first_s1 c _ _ _ _ _ _ _ _ _ _ _ _ _ _ _ _ _ _ _ _)
            unfold owns; iexists _; isplitr
            swap; · iexact HS2
            ipureintro; exact View.read_writes_of_cover _ _ _ _ _ (cover1_first_s2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_last V c t h0 h1]
      unfold out1_last_o3 out1_last_s0 out1_last_s1 out1_last_s2; (try dsimp only)
      have hz : t.val ≠ 0 := by omega
      rw [PhiS1_castSucc V c t, PhiS1_pos V c _ _ hz]
      ·
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_last c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_last_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_last_s1 c _ _ _ _ _ _ _ _ _ _ _ _ _ _ _ _ _ _ _ _ _ _ _)
            unfold owns; iexists _; isplitr
            swap; · iexact HS2
            ipureintro; exact View.read_writes_of_cover _ _ _ _ _ (cover1_last_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_last_o3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_mid V c t h0 h1]
      unfold out1_mid_s0 out1_mid_s1 out1_mid_s2; (try dsimp only)
      have hz : t.val ≠ 0 := by omega
      rw [PhiS1_castSucc V c t, PhiS1_pos V c _ _ hz]
      ·
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_mid c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_mid_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_mid_s1 c _ _ _ _ _ _ _ _ _ _ _ _ _ _ _ _ _ _ _ _ _ _ _)
            unfold owns; iexists _; isplitr
            swap; · iexact HS2
            ipureintro; exact View.read_writes_of_cover _ _ _ _ _ (cover1_mid_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A0, A1, A2, A3, A4, A5, A6, A7, A8, A9, HS0, HS1, HS2⟩, Hg⟩
  isplitl [A0 A1 A2 A3 A4 A5 A6 A7 A8 A9 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KernelProgramRun.lean ====
import proofs.«174010_j37280316129900_2_alg».proof.Proof.KernelProjectionRegion
import proofs.«174010_j37280316129900_2_alg».proof.Proof.KernelAttentionRegion
import proofs.«174010_j37280316129900_2_alg».proof.Proof.Gen.Kernel.Regions

/-! # The run of the whole program over its two kernel regions

@main is: four host operations (the two concatenations, the weight's change of format, the reshape of the input), the
projection region, three reshapes, the attention region. The run threads the contents of every unscoped buffer through
these four segments: `W0` at launch, `W1` after the first host stretch, `W2` after the projection (its three output
arrays at what its write-backs leave), `W3` after the reshapes, `W4` after the attention region (its output array at
what its write-backs leave). What the run needs of the attention region is taken as a record `AttentionData`. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What the run takes of the attention region, at any entry contents `V` of the core's buffers: its proof data, that
    their arrays are read off `V`, full shares, nothing owed, the body obligation, and that its invariant is made at
    entry from the generator register and the scoped buffers no window stages (the three running buffers among them)
    and gives them back at exit. -/
structure AttentionData (F : FTy → Type) [FloatOps F] where
  dat1 : ((c : Dev nD) → (b : Ref sig .tc) → Buf (Elt F) ((c : Thread nD τ).loc b)) → (c : Dev nD) →
    Dat τ (Elt F) Unit ℕ (UR sig nD τ) ℕ cfg1 c
  A_eq1 : ∀ V c w, (dat1 V c).A w = V c (Pipeline.arrRef spec1 w)
  q_eq1 : ∀ V c w, (dat1 V c).q w = fullShare
  owed_eq1 : ∀ V c t, (dat1 V c).owed t = 0
  recorded_eq1 : ∀ V c t, (dat1 V c).recorded t = Set.univ
  body_obligation1 : ∀ V c, BodyObligation (dat1 V c) (defs₀ (F := F)) Variants.none () Set.univ
  hin1 : ∀ V c, iprop((∃ r, prngReg c r) ∗ Pipeline.scopedRest (Ix := Unit) (Name := ℕ) (U := UR sig nD τ) (Lvl := ℕ) (Val := Elt F) spec1 c)
    ⊢ ((dat1 V c).Φ 0 : sProp (MT nD τ sig Unit (Elt F) ℕ (UR sig nD τ) ℕ))
  hout1 : ∀ V c, ((dat1 V c).Φ (Fin.last cfg1.N) : sProp (MT nD τ sig Unit (Elt F) ℕ (UR sig nD τ) ℕ))
    ⊢ iprop((∃ r, prngReg c r) ∗ Pipeline.scopedRest (Ix := Unit) (Name := ℕ) (U := UR sig nD τ) (Lvl := ℕ) (Val := Elt F) spec1 c)

section Generic
variable (R : AttentionData F) (m : (ℓ : Loc nD τ sig) → Buf (Elt F) ℓ)

/-! ## The buffer contents at each segment boundary -/

/-- Core `c`'s buffers at launch. -/
abbrev W0 (c : Dev nD) : Valuation τ sig (Elt F) := fun b => m (c, b)
/-- After the first host stretch (the projection's entry). -/
abbrev W1 (c : Dev nD) : Valuation τ sig (Elt F) := StableHlo.after hostOps0 (W0 m c)
/-- The same read at the core's references: what the projection's proof data take. -/
abbrev Vin0 : (c : Dev nD) → (b : Ref sig .tc) → Buf (Elt F) ((c : Thread nD τ).loc b) := fun c b => W1 m c b
/-- At the projection's exit: its arrays at what the pipeline leaves (the inputs as entered, each output's write-backs
    folded), every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the projection's exit contents). -/
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the three reshapes (the attention region's entry). -/
abbrev W3 (c : Dev nD) : Valuation τ sig (Elt F) := StableHlo.after hostOps1 (W2 m c)
/-- The same read at the core's references: what the attention region's proof data take. -/
abbrev Vin1 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (R.dat1 (Vin1 m) c).arrAt w cfg1.N
theorem W4_arr (c : Dev nD) (w : Fin cfg1.W) :
    W4 R m c (Proc.devRef .tc (Pipeline.arrRef spec1 w)) = (R.dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R m c (Proc.devRef .tc b) = W3 m c (Proc.devRef .tc b) := by
  unfold W4; exact Pipeline.withArrays_of_ne spec1 c _ _ b hb
/-- The same read at the core's references (the attention region's exit contents). -/
abbrev Vout1 : (c : Dev nD) → (b : Ref sig .tc) → Buf (Elt F) ((c : Thread nD τ).loc b) := fun c b => W4 R m c b
theorem hF1 (c : Dev nD) (w : Fin cfg1.W) : (R.dat1 (Vin1 m) c).arrAt w cfg1.N = Vout1 R m c (Pipeline.arrRef spec1 w) :=
  (W4_arr R m c w).symm
theorem hrest1 (c : Dev nD) : ∀ b, b ∉ Finset.univ.image (Pipeline.arrRef spec1) → Vout1 R m c b = Vin1 m c b :=
  fun b hb => W4_of_ne R m c b fun w e => hb (Finset.mem_image.mpr ⟨w, Finset.mem_univ _, e⟩)

/-! ### A buffer no host operation writes and no region stages ends as launched -/

theorem W4_untouched (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    W4 R m c (Proc.devRef .tc b) = m ((c : Thread nD τ).loc b) :=
  calc W4 R m c (Proc.devRef .tc b)
    _ = W3 m c (Proc.devRef .tc b) := W4_of_ne R m c b hw1
    _ = W2 m c (Proc.devRef .tc b) := StableHlo.after_of_writes_sub hostOps1 _ hostOps1_writes h1
    _ = W1 m c (Proc.devRef .tc b) := W2_of_ne m c b hw0
    _ = W0 m c (Proc.devRef .tc b) := StableHlo.after_of_writes_sub hostOps0 _ hostOps0_writes h0
    _ = m ((c : Thread nD τ).loc b) := rfl

/-- The result array ends at what the attention region's write-backs leave. -/
theorem W4_main_v8 (c : Dev nD) : W4 R m c (Proc.devRef .tc main_v8) = (R.dat1 (Vin1 m) c).arrAt 3 cfg1.N :=
  W4_arr R m c 3

/-- The attention region's three input arrays are the reshapes of the projection's three output arrays: each read
    through the host stretch. -/
theorem W2_main_v4_0 (c : Dev nD) : W2 m c (Proc.devRef .tc main_v4_0) = (dat0 (Vin0 m) c).arrAt 3 cfg0.N := W2_arr m c 3
theorem W2_main_v4_1 (c : Dev nD) : W2 m c (Proc.devRef .tc main_v4_1) = (dat0 (Vin0 m) c).arrAt 4 cfg0.N := W2_arr m c 4
theorem W2_main_v4_2 (c : Dev nD) : W2 m c (Proc.devRef .tc main_v4_2) = (dat0 (Vin0 m) c).arrAt 5 cfg0.N := W2_arr m c 5

/-! ## The attention region's three input arrays are the reshapes of the projection's three output arrays -/

/-- The first (queries): `[16384, 128]` read as `[4, 4096, 128]`. -/
theorem W3_main_v5 (c : Dev nD) : W3 m c (Proc.devRef .tc main_v5)
    = shapeCast S4x4096x128 ((dat0 (Vin0 m) c).arrAt 3 cfg0.N) shapeCasts_S16384x128_S4x4096x128 := by
  rw [← W2_main_v4_0 m c]
  show StableHlo.after hostOps1 (W2 m c) (Proc.devRef .tc main_v5) = _
  unfold hostOps1
  after_results
  rfl
/-- The second (keys). -/
theorem W3_main_v6 (c : Dev nD) : W3 m c (Proc.devRef .tc main_v6)
    = shapeCast S4x4096x128 ((dat0 (Vin0 m) c).arrAt 4 cfg0.N) shapeCasts_S16384x128_S4x4096x128 := by
  rw [← W2_main_v4_1 m c]
  show StableHlo.after hostOps1 (W2 m c) (Proc.devRef .tc main_v6) = _
  unfold hostOps1
  after_results
  rfl
/-- The third (values): `[16384, 1024]` read as `[4, 4096, 1024]`. -/
theorem W3_main_v7 (c : Dev nD) : W3 m c (Proc.devRef .tc main_v7)
    = shapeCast S4x4096x1024 ((dat0 (Vin0 m) c).arrAt 5 cfg0.N) shapeCasts_S16384x1024_S4x4096x1024 := by
  rw [← W2_main_v4_2 m c]
  show StableHlo.after hostOps1 (W2 m c) (Proc.devRef .tc main_v7) = _
  unfold hostOps1
  after_results
  rfl

/-! ## The proof data family and the thread state -/

/-- Every pipeline's proof data, each at its region's entry contents — a literal `match`. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => R.dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W4`, the generator register
    at some state. -/
abbrev Tₙ (c : Dev nD) : sProp 𝕄 := iprop(StableHlo.held (c : Thread nD τ) (Pipeline.ucRefs τ sig) (W4 R m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats R m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats R m) launch0.win launch0.arr_whole c
      ((pdats R m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R m) ((pdats R m 0 c).share_full fun _ => rfl)
      (Vin0 m c) (Vout0 m c) ((pdats R m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its invariant
    is made from the generator register and the scoped rest, and gives them back (`AttentionData.hin1`, `hout1`). -/
def reg1 : Pipeline.RegionSeg (pcfgs (F := F)) adm (pdats R m) () defs₀ 𝒱₀ L lv 1 where
  win := launch1.win.to₀
  block_pos := launch1.block_pos
  stage_whole := launch1.stage_whole
  K := PEmpty
  osem k := k.elim
  ho := Pipeline.OwnSemFacts.none _
  hbody c := (R.body_obligation1 (Vin1 m) c).loose
  hwaits := Pipeline.hwaits_of_owed_zero _ _ _ _ L lv 1 fun c t => R.owed_eq1 (Vin1 m) c t
  pre c := iprop(StableHlo.held (c : Thread nD τ) (Pipeline.ucRefs τ sig) (W3 m c) ∗ Rst c)
  post c := iprop(Tₙ R m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats R m) launch1.win launch1.arr_whole c
      ((pdats R m 1 c).share_full fun w => R.q_eq1 (Vin1 m) c w) (Vin1 m c) fun w => R.A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R m 1 c).owed 0 = 0 from R.owed_eq1 (Vin1 m) c 0]
      icases HO with ⟨%W, HO⟩; iexists W; isplitr
      · ipureintro; intro x _; refine Or.inl ?_
        show x ∈ (R.dat1 (Vin1 m) c).recorded 0
        rw [R.recorded_eq1]; trivial
      iexact HO
    isplitl [Hp]; · iexact Hp
    iexact Hrest
  hin c := by
    rw [show (pdats R m 1 c).Φ 0 = (R.dat1 (Vin1 m) c).Φ 0 from rfl]
    iintro ⟨Hp, -, Hr⟩
    iapply (R.hin1 (Vin1 m) c)
    isplitl [Hp]; · iexact Hp
    iexact Hr
  hout c := by
    rw [Pipeline.ownSems0_none, show (pdats R m 1 c).Φ (Fin.last _) = (R.dat1 (Vin1 m) c).Φ (Fin.last cfg1.N) from rfl]
    iintro H
    ihave H' := (R.hout1 (Vin1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R m) ((pdats R m 1 c).share_full fun w => R.q_eq1 (Vin1 m) c w)
      (Vin1 m c) (Vout1 R m c) ((pdats R m 1 c).arrAt · cfg1.N) (hF1 R m c) (hrest1 R m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R m 1 c).owed (Fin.last _) = 0 from R.owed_eq1 (Vin1 m) c _]
    icases HO with ⟨%W, -, HO⟩; iexists W; iexact HO

/-! ## @main as segments, and the launch -/

/-- @main's four segments in order. -/
abbrev segs : List (Pipeline.Seg (pcfgs (F := F)) adm (pdats R m) () defs₀ 𝒱₀ L lv) :=
  [ .host (hseg hostOps0 hostOps0_sub hostOps0_fresh (W0 m)),
    .region (reg0 R m),
    .host (hseg hostOps1 hostOps1_sub hostOps1_fresh (W2 m)),
    .region (reg1 R m) ]
/-- @main IS the run of the segments. -/
theorem main_run (c : Dev nD) : main (F := F) c = Pipeline.Seg.run (segs R m) := (main_chain c).trans (by chain_rfl)

set_option backward.isDefEq.respectTransparency.types false in
/-- THE RUN. From any memory with zero counters, every weakly fair execution of @main terminates, nothing faulting,
    and in every final state each unscoped buffer of each core holds the last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 R m c b) :=
  Pipeline.θ_run_regions_kit (pcfgs (F := F)) adm (pdats R m) () cellOf_inj emb₁ defs₀ 𝒱₀ L lv m ρ main (segs R m)
    (fun c Q => by rw [main_run R m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ R m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R m c b)
    (hfin := fun c s' => by
      iintro ⟨⟨Hh, -⟩, HSI⟩
      unfold StableHlo.held
      imodintro
      iapply (pointsTo_read_all (Pipeline.ucRefs τ sig) (fun b => (((c : Thread nD τ)).1, b)) (W4 R m c) s')
      isplitl [Hh] <;> iassumption)
    (hQ := fun s h c => h c)

/-- The run with the result named and the arguments read back: the result array ends at what the attention region's
    write-backs leave of it, and every argument array ends as launched. -/
theorem run_result (ρ : Dev nD → PrngReg) : θ_run defs (onTc (τ := τ) (main (F := F))) ⟨m, fun _ => 0, ρ⟩ (fun r => ∀ c : Dev nD,
      r.2.mem ((c.tc : Thread nD τ).loc main_v8) = (R.dat1 (Vin1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (W4_main_v8 R m c),
     (h c _ (mem_uc main_arg0 (by decide))).trans (W4_untouched R m c main_arg0 (by decide) (by decide) (by decide) (by decide)),
     (h c _ (mem_uc main_arg1 (by decide))).trans (W4_untouched R m c main_arg1 (by decide) (by decide) (by decide) (by decide)),
     (h c _ (mem_uc main_arg2 (by decide))).trans (W4_untouched R m c main_arg2 (by decide) (by decide) (by decide) (by decide)),
     (h c _ (mem_uc main_arg3 (by decide))).trans (W4_untouched R m c main_arg3 (by decide) (by decide) (by decide) (by decide)),
     (h c _ (mem_uc main_arg4 (by decide))).trans (W4_untouched R m c main_arg4 (by decide) (by decide) (by decide) (by decide)),
     (h c _ (mem_uc main_arg5 (by decide))).trans (W4_untouched R m c main_arg5 (by decide) (by decide) (by decide) (by decide)),
     (h c _ (mem_uc main_arg6 (by decide))).trans (W4_untouched R m c main_arg6 (by decide) (by decide) (by decide) (by decide))⟩) (run_all R m ρ)

include R in
/-- THE FRAME: every weakly fair execution of @main terminates, nothing faulting, and every argument array ends as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result R m ρ)

end Generic

/-! ## The attention region's record, and the run at it -/

/-- The record of the attention region, from its module: its proof data `dat1`, and its invariant made from, and giving
    back, the scoped rest and the generator register. -/
abbrev attention : AttentionData F where
  dat1 := fun V c => dat1 V c
  A_eq1 := fun V c w => A_eq1 V c w
  q_eq1 := fun V c w => by dsimp only [dat1]
  owed_eq1 := fun V c t => by dsimp only [dat1]
  recorded_eq1 := fun V c t => by dsimp only [dat1]
  body_obligation1 := fun V c => body_obligation1 V c
  hin1 := fun V c => by
    have h := hin1 V c
    unfold Pipeline.ΦA at h
    iintro ⟨Hp, Hr⟩
    iapply h
    isplitl [Hr]; · iexact Hr
    iexact Hp
  hout1 := fun V c => by
    have h := hout1 V c
    unfold Pipeline.ΦA at h
    iintro H
    ihave H' := h $$ H
    icases H' with ⟨Hr, Hp⟩
    isplitl [Hp]; · iexact Hp
    iexact Hr

variable (m : (ℓ : Loc nD τ sig) → Buf (Elt F) ℓ)

/-- THE FRAME of @main: every weakly fair execution terminates, nothing faulting, and every argument array ends as
    launched. -/
theorem frame_main (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame attention m ρ

/-- THE RUN of @main with its result named: the result array ends at what the attention region's write-backs leave of
    it, entered from the contents `Vin1 m` (the reshapes of what the projection's write-backs leave: `W3_main_v5`,
    `W3_main_v6`, `W3_main_v7`), and every argument array ends as launched. -/
theorem result_main (ρ : Dev nD → PrngReg) : θ_run defs (onTc (τ := τ) (main (F := F))) ⟨m, fun _ => 0, ρ⟩ (fun r => ∀ c : Dev nD,
      r.2.mem ((c.tc : Thread nD τ).loc main_v8) = (dat1 (Vin1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_result attention m ρ

/-- info: 'Cert.Kernel.Hand.result_main' depends on axioms: [propext, Classical.choice, Quot.sound] -/
#guard_msgs in #print axioms result_main
/-- info: 'Cert.Kernel.Hand.frame_main' depends on axioms: [propext, Classical.choice, Quot.sound] -/
#guard_msgs in #print axioms frame_main

end Cert.Kernel.Hand

end
-- ==== Proof.ProjectionRegion.lean ====
import proofs.«174010_j37280316129900_2_alg».proof.Proof.Gen.KernelIdeal.Launch
import proofs.«174010_j37280316129900_2_alg».proof.Proof.Gen.KernelIdeal.Skeleton
import proofs.«174010_j37280316129900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused projection (the first kernel region): what its body leaves, and its proof data

The first kernel multiplies a block of 1024 rows of the input (reshaped to 16384 rows of 1024) by the
concatenated weight (1024 by 1280), adds the concatenated bias, and writes the three column ranges
0..127, 128..255 and 256..1279 of the sum into the three output blocks. Everything here is stated at a
parameter `V`: the contents of the core's buffers when the region is entered. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the block of 1024 rows of its point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer, filled at the first point only, holds the whole weight at every point: its block
    index never moves, so what the first fetch left is the block of every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1024x1024 := Rect.unit (s := S1024x1024) ![0, 0] S1024x1024.size inb_S1024x1024_S1024x1024_0_0
abbrev r0_w : Rect S1024x1280 := Rect.unit (s := S1024x1280) ![0, 0] S1024x1280.size inb_S1024x1280_S1024x1280_0_0
abbrev r0_b : Rect S1280 := Rect.unit (s := S1280) ![0] S1280.size inb_S1280_S1280_0
abbrev r0_q : Rect S1024x128 := Rect.unit (s := S1024x128) ![0, 0] S1024x128.size inb_S1024x128_S1024x128_0_0

/-! ## What the body leaves in each output block's buffer -/

/-- The first output block (columns 0..127 of the sum) after the body, from the three input blocks. -/
def out0_3 (x0 : Vec F S1024x1024 .f32) (x1 : Vec F S1024x1280 .bf16) (x2 : Vec F S1280 .f32) : Vec F S1024x128 .bf16 :=
  View.canon [⟨r0_q, k0_pay2 (View.ld x0 r0_x) (View.ld x1 r0_w) (View.ld x2 r0_b)⟩]
/-- The second output block (columns 128..255). -/
def out0_4 (x0 : Vec F S1024x1024 .f32) (x1 : Vec F S1024x1280 .bf16) (x2 : Vec F S1280 .f32) : Vec F S1024x128 .bf16 :=
  View.canon [⟨r0_q, k0_pay3 (View.ld x0 r0_x) (View.ld x1 r0_w) (View.ld x2 r0_b)⟩]
/-- The third output block (columns 256..1279). -/
def out0_5 (x0 : Vec F S1024x1024 .f32) (x1 : Vec F S1024x1280 .bf16) (x2 : Vec F S1280 .f32) : Vec F S1024x1024 .bf16 :=
  View.canon [⟨r0_x, k0_pay4 (View.ld x0 r0_x) (View.ld x1 r0_w) (View.ld x2 r0_b)⟩]

/-- One whole-buffer store covers the buffer. -/
theorem cover0_q (p0 : Vec F S1024x128 .bf16) (y : S1024x128.Idx) :
    ∃ pc ∈ ([⟨r0_q, p0⟩] : List (View.Piece (Elt F) S1024x128 .bf16)), y ∈ pc.1.set :=
  View.cover_of_tiled [⟨r0_q, p0⟩] S1024x128.size (by rfl) y
theorem cover0_x (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-! ## The body's triple -/

/-- The body on whole staging buffers, the three inputs' at read contents `x0 x1 x2` and the three outputs' at
    anything, runs to the continuation holding the inputs' as they were and each output's at `out0_W` of the inputs.
    (The body also reads each output buffer once before its store; the values read are not used.) -/
theorem sound_kernel0 (c : Dev nD) (E : Set ℕ) (i : grid0.Coords)
    (arg1 : Memref sig .tc .vmem S1024x1024 .f32) (harg1 : arg1.IsWhole) (arg2 : Memref sig .tc .vmem S1024x1280 .bf16) (harg2 : arg2.IsWhole)
    (arg3 : Memref sig .tc .vmem S1280 .f32) (harg3 : arg3.IsWhole) (arg4 : Memref sig .tc .vmem S1024x128 .bf16) (harg4 : arg4.IsWhole)
    (arg5 : Memref sig .tc .vmem S1024x128 .bf16) (harg5 : arg5.IsWhole) (arg6 : Memref sig .tc .vmem S1024x1024 .bf16) (harg6 : arg6.IsWhole)
    (x0 : Vec F S1024x1024 .f32) (x1 : Vec F S1024x1280 .bf16) (x2 : Vec F S1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_q _)
  isplitl [H4]
  · iexists _; isplitr
    swap; · iexact H4
    ipureintro
    exact View.read_writes_eq_canon _ _ _ (cover0_q _)
  iexists _; isplitr
  swap; · iexact H5
  ipureintro
  exact View.read_writes_eq_canon _ _ _ (cover0_x _)

/-! ## The region's proof data -/

/-- The proof data of the projection on core `c`: the arrays as the region finds them (`V`); after the body at
    point `t` each input's buffer at its block and each output's at `out0_W` of the three input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the projection, at every point. -/
theorem body_obligation0 (c : Dev nD) : BodyObligation (dat0 (F := F) V c) (defs₀ (F := F)) Variants.none () Set.univ := fun t => by
  rw [bigSep_W0, bigSep_W0]
  exact sound_body0 V c t

end Region0

/-- info: 'Cert.KernelIdeal.Hand.body_obligation0' depends on axioms: [propext, Classical.choice, Quot.sound] -/
#guard_msgs in #print axioms body_obligation0

end Cert.KernelIdeal.Hand

end
-- ==== Proof.AttentionCases.lean ====
/-
  The second pallas_call (attention over a grid of batch × query tile × key tile, 4 × 4 × 8 = 128 points, the key
  tile innermost) — what its three cases are stated over.

  * A window's block at a point is read off its array as the region finds it.
  * Two conditions branch the body: "the key tile is the first" holds exactly at the points ≡ 0 (mod 8), where the
    three scratch buffers are reset; "the key tile is the last" holds exactly at the points ≡ 7 (mod 8), where the
    output block is written. No point meets both, so a point is in one of three cases: first, middle, last.
  * The output window is idle (nothing stored, nothing written back) in the first and middle cases and live in the last.
  * Between two points the region owns, besides the windows' staging buffers, the three scratch buffers (running
    maximum, running sum, accumulator), the staging buffers of the other pallas_call (at contents it never reads),
    and the generator register.
-/
import proofs.«174010_j37280316129900_2_alg».proof.Proof.Gen.KernelIdeal.Launch
import proofs.«174010_j37280316129900_2_alg».proof.Proof.Gen.KernelIdeal.Skeleton
import proofs.«174010_j37280316129900_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions -/

/-- "The key tile is the first", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The key tile is the last". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, the running sum and the accumulator: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1x1024x1024 .f32 := (Memref.whole cc1_stg3_0 : Memref sig .tc .vmem S1x1024x1024 .f32).view

end Cert.KernelIdeal.Hand

end
-- ==== Proof.AttentionRunMiddle.lean ====
/-
  The attention body at a point whose key tile is neither the first nor the last, run once on any staging and
  scratch memrefs: the three inputs' buffers hold the point's query, key and value blocks and end as they were; the
  output's buffer is not touched; each scratch buffer enters at what the point before left and ends with one whole
  store written into it (the new running maximum, the new running sum, the new accumulator). The stored pieces are
  the witness the run finds.
-/
import proofs.«174010_j37280316129900_2_alg».proof.Proof.AttentionCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_mid (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttentionRunFirst.lean ====
/-
  The attention body at a point whose key tile is the first (and not the last), run once on any staging and
  scratch memrefs: the inputs' buffers end as they were; the output's buffer is not touched; each scratch buffer
  enters at anything, is reset (the maximum to minus infinity, the sum and the accumulator to zero) and then
  receives the tile's update, so it ends with two whole stores written into it.
-/
import proofs.«174010_j37280316129900_2_alg».proof.Proof.AttentionRunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_first (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttentionRunLast.lean ====
/-
  The attention body at a point whose key tile is the last (and not the first), run once on any staging and
  scratch memrefs: the inputs' buffers end as they were; each scratch buffer enters at what the point before left
  and ends with one whole store written into it; the output's buffer enters at anything and ends with one whole
  store written into it: the accumulator divided, row by row, by the running sum.
-/
import proofs.«174010_j37280316129900_2_alg».proof.Proof.AttentionRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_last (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttentionRegion.lean ====
/-
  The second pallas_call's proof data and body obligation.

  The grid's 128 points run the key tile innermost, so each run of eight consecutive points is one (batch, query
  tile) pair: at its first point the three scratch buffers are reset and receive the first tile's update, at the
  next six they are updated from what the point before left, and at the eighth they are updated once more and the
  output block — the accumulator divided row by row by the running sum — is stored. What the four buffers hold
  after each point is therefore a recurrence on the point, and the invariant between two points says that the
  scratch buffers hold the recurrence's value at the point before.
-/
import proofs.«174010_j37280316129900_2_alg».proof.Proof.AttentionRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves in each buffer it stores into -/

/-- The pieces the first case writes into the running-maximum buffer cover it. -/
theorem cover1_first_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1.Idx) :
    ∃ pc ∈ (kernelRun1_first c i arg3 harg3 arg4 harg4 arg5 harg5 arg6 harg6 arg7 harg7 arg8 harg8 arg9 harg9 hc0 hc1 x0 x1 x2).1, y ∈ pc.1.set :=
  View.cover_of_tiledL (kernelRun1_first c i arg3 harg3 arg4 harg4 arg5 harg5 arg6 harg6 arg7 harg7 arg8 harg8 arg9 harg9 hc0 hc1 x0 x1 x2).1 S1024x1.size (by sl_kernel_rfl) y

/-- What the first case leaves in the running-maximum buffer: its pieces read back. -/
def out1_first_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1 .f32 :=
  VS1_0.read (Elt F) (VS1_0.writes (Elt F) VS1_0.junk (kernelRun1_first c i arg3 harg3 arg4 harg4 arg5 harg5 arg6 harg6 arg7 harg7 arg8 harg8 arg9 harg9 hc0 hc1 x0 x1 x2).1)

/-- The pieces the first case writes into the running-sum buffer cover it. -/
theorem cover1_first_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1.Idx) :
    ∃ pc ∈ (kernelRun1_first c i arg3 harg3 arg4 harg4 arg5 harg5 arg6 harg6 arg7 harg7 arg8 harg8 arg9 harg9 hc0 hc1 x0 x1 x2).2.1, y ∈ pc.1.set :=
  View.cover_of_tiledL (kernelRun1_first c i arg3 harg3 arg4 harg4 arg5 harg5 arg6 harg6 arg7 harg7 arg8 harg8 arg9 harg9 hc0 hc1 x0 x1 x2).2.1 S1024x1.size (by sl_kernel_rfl) y

/-- What the first case leaves in the running-sum buffer: its pieces read back. -/
def out1_first_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1 .f32 :=
  VS1_1.read (Elt F) (VS1_1.writes (Elt F) VS1_1.junk (kernelRun1_first c i arg3 harg3 arg4 harg4 arg5 harg5 arg6 harg6 arg7 harg7 arg8 harg8 arg9 harg9 hc0 hc1 x0 x1 x2).2.1)

/-- The pieces the first case writes into the accumulator buffer cover it. -/
theorem cover1_first_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) (y : S1024x1024.Idx) :
    ∃ pc ∈ (kernelRun1_first c i arg3 harg3 arg4 harg4 arg5 harg5 arg6 harg6 arg7 harg7 arg8 harg8 arg9 harg9 hc0 hc1 x0 x1 x2).2.2.1, y ∈ pc.1.set :=
  View.cover_of_tiledL (kernelRun1_first c i arg3 harg3 arg4 harg4 arg5 harg5 arg6 harg6 arg7 harg7 arg8 harg8 arg9 harg9 hc0 hc1 x0 x1 x2).2.2.1 S1024x1024.size (by sl_kernel_rfl) y

/-- What the first case leaves in the accumulator buffer: its pieces read back. -/
def out1_first_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) : Vec F S1024x1024 .f32 :=
  VS1_2.read (Elt F) (VS1_2.writes (Elt F) VS1_2.junk (kernelRun1_first c i arg3 harg3 arg4 harg4 arg5 harg5 arg6 harg6 arg7 harg7 arg8 harg8 arg9 harg9 hc0 hc1 x0 x1 x2).2.2.1)

/-- The pieces the mid case writes into the running-maximum buffer cover it. -/
theorem cover1_mid_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_mid c i arg3 harg3 arg4 harg4 arg5 harg5 arg6 harg6 arg7 harg7 arg8 harg8 arg9 harg9 hc0 hc1 x0 x1 x2 xs0 xs1 xs2).1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).1 S1024x1.size (by sl_kernel_rfl) y

/-- What the mid case leaves in the running-maximum buffer: its pieces read back. -/
def out1_mid_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_mid c i arg3 harg3 arg4 harg4 arg5 harg5 arg6 harg6 arg7 harg7 arg8 harg8 arg9 harg9 hc0 hc1 x0 x1 x2 xs0 xs1 xs2).1)

/-- The pieces the mid case writes into the running-sum buffer cover it. -/
theorem cover1_mid_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_mid c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).2.1 S1024x1.size (by sl_kernel_rfl) y

/-- What the mid case leaves in the running-sum buffer: its pieces read back. -/
def out1_mid_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_mid c i arg3 harg3 arg4 harg4 arg5 harg5 arg6 harg6 arg7 harg7 arg8 harg8 arg9 harg9 hc0 hc1 x0 x1 x2 xs0 xs1 xs2).2.1)

/-- The pieces the mid case writes into the accumulator buffer cover it. -/
theorem cover1_mid_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1024.Idx) :
    ∃ pc ∈ (kernelRun1_mid c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_mid c i arg3 harg3 arg4 harg4 arg5 harg5 arg6 harg6 arg7 harg7 arg8 harg8 arg9 harg9 hc0 hc1 x0 x1 x2 xs0 xs1 xs2).2.2.1 S1024x1024.size (by sl_kernel_rfl) y

/-- What the mid case leaves in the accumulator buffer: its pieces read back. -/
def out1_mid_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_mid c i arg3 harg3 arg4 harg4 arg5 harg5 arg6 harg6 arg7 harg7 arg8 harg8 arg9 harg9 hc0 hc1 x0 x1 x2 xs0 xs1 xs2).2.2.1)

/-- The pieces the last case writes into the output window's buffer cover it. -/
theorem cover1_last_o3 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_last c i arg3 harg3 arg4 harg4 arg5 harg5 arg6 harg6 arg7 harg7 arg8 harg8 arg9 harg9 hc0 hc1 x0 x1 x2 xs0 xs1 xs2).1, y ∈ pc.1.set :=
  View.cover_of_tiledL (kernelRun1_last c i arg3 harg3 arg4 harg4 arg5 harg5 arg6 harg6 arg7 harg7 arg8 harg8 arg9 harg9 hc0 hc1 x0 x1 x2 xs0 xs1 xs2).1 S1x1024x1024.size (by sl_kernel_rfl) y

/-- What the last case leaves in the output window's buffer: its pieces read back. -/
def out1_last_o3 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_last c i arg3 harg3 arg4 harg4 arg5 harg5 arg6 harg6 arg7 harg7 arg8 harg8 arg9 harg9 hc0 hc1 x0 x1 x2 xs0 xs1 xs2).1)

/-- The pieces the last case writes into the running-maximum buffer cover it. -/
theorem cover1_last_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_last c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.1 S1024x1.size (by sl_kernel_rfl) y

/-- What the last case leaves in the running-maximum buffer: its pieces read back. -/
def out1_last_s0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_last c i arg3 harg3 arg4 harg4 arg5 harg5 arg6 harg6 arg7 harg7 arg8 harg8 arg9 harg9 hc0 hc1 x0 x1 x2 xs0 xs1 xs2).2.1)

/-- The pieces the last case writes into the running-sum buffer cover it. -/
theorem cover1_last_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1.Idx) :
    ∃ pc ∈ (kernelRun1_last c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.2.1 S1024x1.size (by sl_kernel_rfl) y

/-- What the last case leaves in the running-sum buffer: its pieces read back. -/
def out1_last_s1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_last c i arg3 harg3 arg4 harg4 arg5 harg5 arg6 harg6 arg7 harg7 arg8 harg8 arg9 harg9 hc0 hc1 x0 x1 x2 xs0 xs1 xs2).2.2.1)

/-- The pieces the last case writes into the accumulator buffer cover it. -/
theorem cover1_last_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) (y : S1024x1024.Idx) :
    ∃ pc ∈ (kernelRun1_last c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_last c i arg3 harg3 arg4 harg4 arg5 harg5 arg6 harg6 arg7 harg7 arg8 harg8 arg9 harg9 hc0 hc1 x0 x1 x2 xs0 xs1 xs2).2.2.2.1 S1024x1024.size (by sl_kernel_rfl) y

/-- What the last case leaves in the accumulator buffer: its pieces read back. -/
def out1_last_s2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_last c i arg3 harg3 arg4 harg4 arg5 harg5 arg6 harg6 arg7 harg7 arg8 harg8 arg9 harg9 hc0 hc1 x0 x1 x2 xs0 xs1 xs2).2.2.2.1)

/-! ## What the buffers hold after each point -/

/-- What the output window's buffer is said to hold at a point where nothing is stored into it: a placeholder no
    statement consults (at such a point the window is neither written back nor read again). -/
def idle3 : Vec F S1x1024x1024 .f32 := VO1_3.read (Elt F) VO1_3.junk

/-- THE RECURRENCE. After the body at position `n`: the output window's buffer, then the three scratch buffers
    (maximum, sum, accumulator). A first key tile starts from nothing; a middle or last one continues from what
    position `n - 1` left in the scratch buffers. -/
def outsAt1 (c : Dev nD) : (n : ℕ) → n < cfg1.N → Vec F S1x1024x1024 .f32 × Vec F S1024x1 .f32 × Vec F S1024x1 .f32 × Vec F S1024x1024 .f32
  | 0, hn => (idle3, out1_first_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_first_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_first_s2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idle3, out1_first_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_first_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_first_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_last_o3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_last_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (idle3, out1_mid_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_mid_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, out1_mid_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first key tile. -/
theorem outsAt1_first (c : Dev nD) (t : Fin cfg1.N) (h0 : t.val % 8 = 0) (h1 : ¬t.val % 8 = 7) :
    outsAt1 V c t.val t.isLt = (idle3, out1_first_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), out1_first_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), out1_first_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle key tile: over what the point before left. -/
theorem outsAt1_mid (c : Dev nD) (t : Fin cfg1.N) (h0 : ¬t.val % 8 = 0) (h1 : ¬t.val % 8 = 7) :
    outsAt1 V c t.val t.isLt = (idle3, out1_mid_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_mid_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_mid_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt1_last (c : Dev nD) (t : Fin cfg1.N) (h0 : ¬t.val % 8 = 0) (h1 : t.val % 8 = 7) :
    outsAt1 V c t.val t.isLt = (out1_last_o3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_last_s2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## What the region owns between two points -/

/-- A scoped buffer of the other pallas_call, whole, at contents this region never reads. -/
abbrev oth (c : Dev nD) (b : Ref sig .tc) : sProp 𝕄 :=
  iprop(∃ f : Buf (Elt F) ((c : Thread nD τ).loc b), ((c : Thread nD τ).loc b) ↦{fullShare} f)

/-- Before the first point: the other call's staging buffers, the three scratch buffers at anything, the
    generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before position `n`: as above before the first point; afterwards each scratch buffer at what the point before
    left in it. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1 ∗ oth c cc0_stg5_0 ∗ oth c cc0_stg5_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- Each input window's current staging buffer holds its block at every point, fetched there or not (the query
    block is fetched once per eight points and stays), for any proof data whose array is the entry contents and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The arrays as the region finds them; after the body at a point each input's buffer at its block and the
    output's at the recurrence's first component; the invariant as above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point. The inputs' buffers hold their blocks; the closed forms say which of the three cases the
    point is in; the invariant hands the body the scratch buffers at what the point before left (at anything before
    the very first point) and takes them back at this point's contents, each covered by the stores the case makes;
    the output's buffer is handed back untouched off the last key tile, and covered by its one store at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_first V c t h0 h1]
      unfold out1_first_s0 out1_first_s1 out1_first_s2; (try dsimp only)
      by_cases hz : t.val = 0
      · rw [PhiS1_castSucc V c t, PhiS1_zero V c _ _ hz, PhiA1_eq]
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_first c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_first_s0 c _ _ _ _ _ _ _ _ _ _ _ _ _ _ _ _ _ _ _ _)
            isplitl [HS1]
            · unfold owns; iexists _; isplitr
              swap; · iexact HS1
              ipureintro; exact View.read_writes_of_cover _ _ _ _ _ (cover1_first_s1 c _ _ _ _ _ _ _ _ _ _ _ _ _ _ _ _ _ _ _ _)
            unfold owns; iexists _; isplitr
            swap; · iexact HS2
            ipureintro; exact View.read_writes_of_cover _ _ _ _ _ (cover1_first_s2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_first c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_first_s0 c _ _ _ _ _ _ _ _ _ _ _ _ _ _ _ _ _ _ _ _)
            isplitl [HS1]
            · unfold owns; iexists _; isplitr
              swap; · iexact HS1
              ipureintro; exact View.read_writes_of_cover _ _ _ _ _ (cover1_first_s1 c _ _ _ _ _ _ _ _ _ _ _ _ _ _ _ _ _ _ _ _)
            unfold owns; iexists _; isplitr
            swap; · iexact HS2
            ipureintro; exact View.read_writes_of_cover _ _ _ _ _ (cover1_first_s2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_last V c t h0 h1]
      unfold out1_last_o3 out1_last_s0 out1_last_s1 out1_last_s2; (try dsimp only)
      have hz : t.val ≠ 0 := by omega
      rw [PhiS1_castSucc V c t, PhiS1_pos V c _ _ hz]
      ·
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_last c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_last_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_last_s1 c _ _ _ _ _ _ _ _ _ _ _ _ _ _ _ _ _ _ _ _ _ _ _)
            unfold owns; iexists _; isplitr
            swap; · iexact HS2
            ipureintro; exact View.read_writes_of_cover _ _ _ _ _ (cover1_last_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_last_o3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_mid V c t h0 h1]
      unfold out1_mid_s0 out1_mid_s1 out1_mid_s2; (try dsimp only)
      have hz : t.val ≠ 0 := by omega
      rw [PhiS1_castSucc V c t, PhiS1_pos V c _ _ hz]
      ·
        iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
        iapply ((kernelRun1_mid c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A0 A1 A2 A3 A4 A5 A6 A7 A8 A9 HS0 HS1 HS2 Hg]
        · isplitl [A0 A1 A2 A3 A4 A5 A6 A7 A8 A9 HS0 HS1 HS2]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [HS0]
            · unfold owns; iexists _; isplitr
              swap; · iexact HS0
              ipureintro; exact View.read_writes_of_cover _ _ _ _ _ (cover1_mid_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_mid_s1 c _ _ _ _ _ _ _ _ _ _ _ _ _ _ _ _ _ _ _ _ _ _ _)
            unfold owns; iexists _; isplitr
            swap; · iexact HS2
            ipureintro; exact View.read_writes_of_cover _ _ _ _ _ (cover1_mid_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨A0, A1, A2, A3, A4, A5, A6, A7, A8, A9, HS0, HS1, HS2⟩, Hg⟩
  isplitl [A0 A1 A2 A3 A4 A5 A6 A7 A8 A9 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.ProgramRun.lean ====
import proofs.«174010_j37280316129900_2_alg».proof.Proof.ProjectionRegion
import proofs.«174010_j37280316129900_2_alg».proof.Proof.AttentionRegion
import proofs.«174010_j37280316129900_2_alg».proof.Proof.Gen.KernelIdeal.Regions

/-! # The run of the whole program over its two kernel regions

@main is: four host operations (the two concatenations, the weight's change of format, the reshape of the input), the
projection region, three reshapes, the attention region. The run threads the contents of every unscoped buffer through
these four segments: `W0` at launch, `W1` after the first host stretch, `W2` after the projection (its three output
arrays at what its write-backs leave), `W3` after the reshapes, `W4` after the attention region (its output array at
what its write-backs leave). What the run needs of the attention region is taken as a record `AttentionData`. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the run takes of the attention region, at any entry contents `V` of the core's buffers: its proof data, that
    their arrays are read off `V`, full shares, nothing owed, the body obligation, and that its invariant is made at
    entry from the generator register and the scoped buffers no window stages (the three running buffers among them)
    and gives them back at exit. -/
structure AttentionData (F : FTy → Type) [FloatOps F] [Named F] where
  dat1 : ((c : Dev nD) → (b : Ref sig .tc) → Buf (Elt F) ((c : Thread nD τ).loc b)) → (c : Dev nD) →
    Dat τ (Elt F) Unit ℕ (UR sig nD τ) ℕ cfg1 c
  A_eq1 : ∀ V c w, (dat1 V c).A w = V c (Pipeline.arrRef spec1 w)
  q_eq1 : ∀ V c w, (dat1 V c).q w = fullShare
  owed_eq1 : ∀ V c t, (dat1 V c).owed t = 0
  recorded_eq1 : ∀ V c t, (dat1 V c).recorded t = Set.univ
  body_obligation1 : ∀ V c, BodyObligation (dat1 V c) (defs₀ (F := F)) Variants.none () Set.univ
  hin1 : ∀ V c, iprop((∃ r, prngReg c r) ∗ Pipeline.scopedRest (Ix := Unit) (Name := ℕ) (U := UR sig nD τ) (Lvl := ℕ) (Val := Elt F) spec1 c)
    ⊢ ((dat1 V c).Φ 0 : sProp (MT nD τ sig Unit (Elt F) ℕ (UR sig nD τ) ℕ))
  hout1 : ∀ V c, ((dat1 V c).Φ (Fin.last cfg1.N) : sProp (MT nD τ sig Unit (Elt F) ℕ (UR sig nD τ) ℕ))
    ⊢ iprop((∃ r, prngReg c r) ∗ Pipeline.scopedRest (Ix := Unit) (Name := ℕ) (U := UR sig nD τ) (Lvl := ℕ) (Val := Elt F) spec1 c)

section Generic
variable (R : AttentionData F) (m : (ℓ : Loc nD τ sig) → Buf (Elt F) ℓ)

/-! ## The buffer contents at each segment boundary -/

/-- Core `c`'s buffers at launch. -/
abbrev W0 (c : Dev nD) : Valuation τ sig (Elt F) := fun b => m (c, b)
/-- After the first host stretch (the projection's entry). -/
abbrev W1 (c : Dev nD) : Valuation τ sig (Elt F) := StableHlo.after hostOps0 (W0 m c)
/-- The same read at the core's references: what the projection's proof data take. -/
abbrev Vin0 : (c : Dev nD) → (b : Ref sig .tc) → Buf (Elt F) ((c : Thread nD τ).loc b) := fun c b => W1 m c b
/-- At the projection's exit: its arrays at what the pipeline leaves (the inputs as entered, each output's write-backs
    folded), every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the projection's exit contents). -/
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the three reshapes (the attention region's entry). -/
abbrev W3 (c : Dev nD) : Valuation τ sig (Elt F) := StableHlo.after hostOps1 (W2 m c)
/-- The same read at the core's references: what the attention region's proof data take. -/
abbrev Vin1 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (R.dat1 (Vin1 m) c).arrAt w cfg1.N
theorem W4_arr (c : Dev nD) (w : Fin cfg1.W) :
    W4 R m c (Proc.devRef .tc (Pipeline.arrRef spec1 w)) = (R.dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R m c (Proc.devRef .tc b) = W3 m c (Proc.devRef .tc b) := by
  unfold W4; exact Pipeline.withArrays_of_ne spec1 c _ _ b hb
/-- The same read at the core's references (the attention region's exit contents). -/
abbrev Vout1 : (c : Dev nD) → (b : Ref sig .tc) → Buf (Elt F) ((c : Thread nD τ).loc b) := fun c b => W4 R m c b
theorem hF1 (c : Dev nD) (w : Fin cfg1.W) : (R.dat1 (Vin1 m) c).arrAt w cfg1.N = Vout1 R m c (Pipeline.arrRef spec1 w) :=
  (W4_arr R m c w).symm
theorem hrest1 (c : Dev nD) : ∀ b, b ∉ Finset.univ.image (Pipeline.arrRef spec1) → Vout1 R m c b = Vin1 m c b :=
  fun b hb => W4_of_ne R m c b fun w e => hb (Finset.mem_image.mpr ⟨w, Finset.mem_univ _, e⟩)

/-! ### A buffer no host operation writes and no region stages ends as launched -/

theorem W4_untouched (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    W4 R m c (Proc.devRef .tc b) = m ((c : Thread nD τ).loc b) :=
  calc W4 R m c (Proc.devRef .tc b)
    _ = W3 m c (Proc.devRef .tc b) := W4_of_ne R m c b hw1
    _ = W2 m c (Proc.devRef .tc b) := StableHlo.after_of_writes_sub hostOps1 _ hostOps1_writes h1
    _ = W1 m c (Proc.devRef .tc b) := W2_of_ne m c b hw0
    _ = W0 m c (Proc.devRef .tc b) := StableHlo.after_of_writes_sub hostOps0 _ hostOps0_writes h0
    _ = m ((c : Thread nD τ).loc b) := rfl

/-- The result array ends at what the attention region's write-backs leave. -/
theorem W4_main_v8 (c : Dev nD) : W4 R m c (Proc.devRef .tc main_v8) = (R.dat1 (Vin1 m) c).arrAt 3 cfg1.N :=
  W4_arr R m c 3

/-- The attention region's three input arrays are the reshapes of the projection's three output arrays: each read
    through the host stretch. -/
theorem W2_main_v4_0 (c : Dev nD) : W2 m c (Proc.devRef .tc main_v4_0) = (dat0 (Vin0 m) c).arrAt 3 cfg0.N := W2_arr m c 3
theorem W2_main_v4_1 (c : Dev nD) : W2 m c (Proc.devRef .tc main_v4_1) = (dat0 (Vin0 m) c).arrAt 4 cfg0.N := W2_arr m c 4
theorem W2_main_v4_2 (c : Dev nD) : W2 m c (Proc.devRef .tc main_v4_2) = (dat0 (Vin0 m) c).arrAt 5 cfg0.N := W2_arr m c 5

/-! ## The attention region's three input arrays are the reshapes of the projection's three output arrays -/

/-- The first (queries): `[16384, 128]` read as `[4, 4096, 128]`. -/
theorem W3_main_v5 (c : Dev nD) : W3 m c (Proc.devRef .tc main_v5)
    = shapeCast S4x4096x128 ((dat0 (Vin0 m) c).arrAt 3 cfg0.N) shapeCasts_S16384x128_S4x4096x128 := by
  rw [← W2_main_v4_0 m c]
  show StableHlo.after hostOps1 (W2 m c) (Proc.devRef .tc main_v5) = _
  unfold hostOps1
  after_results
  rfl
/-- The second (keys). -/
theorem W3_main_v6 (c : Dev nD) : W3 m c (Proc.devRef .tc main_v6)
    = shapeCast S4x4096x128 ((dat0 (Vin0 m) c).arrAt 4 cfg0.N) shapeCasts_S16384x128_S4x4096x128 := by
  rw [← W2_main_v4_1 m c]
  show StableHlo.after hostOps1 (W2 m c) (Proc.devRef .tc main_v6) = _
  unfold hostOps1
  after_results
  rfl
/-- The third (values): `[16384, 1024]` read as `[4, 4096, 1024]`. -/
theorem W3_main_v7 (c : Dev nD) : W3 m c (Proc.devRef .tc main_v7)
    = shapeCast S4x4096x1024 ((dat0 (Vin0 m) c).arrAt 5 cfg0.N) shapeCasts_S16384x1024_S4x4096x1024 := by
  rw [← W2_main_v4_2 m c]
  show StableHlo.after hostOps1 (W2 m c) (Proc.devRef .tc main_v7) = _
  unfold hostOps1
  after_results
  rfl

/-! ## The proof data family and the thread state -/

/-- Every pipeline's proof data, each at its region's entry contents — a literal `match`. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => R.dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W4`, the generator register
    at some state. -/
abbrev Tₙ (c : Dev nD) : sProp 𝕄 := iprop(StableHlo.held (c : Thread nD τ) (Pipeline.ucRefs τ sig) (W4 R m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats R m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats R m) launch0.win launch0.arr_whole c
      ((pdats R m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R m) ((pdats R m 0 c).share_full fun _ => rfl)
      (Vin0 m c) (Vout0 m c) ((pdats R m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its invariant
    is made from the generator register and the scoped rest, and gives them back (`AttentionData.hin1`, `hout1`). -/
def reg1 : Pipeline.RegionSeg (pcfgs (F := F)) adm (pdats R m) () defs₀ 𝒱₀ L lv 1 where
  win := launch1.win.to₀
  block_pos := launch1.block_pos
  stage_whole := launch1.stage_whole
  K := PEmpty
  osem k := k.elim
  ho := Pipeline.OwnSemFacts.none _
  hbody c := (R.body_obligation1 (Vin1 m) c).loose
  hwaits := Pipeline.hwaits_of_owed_zero _ _ _ _ L lv 1 fun c t => R.owed_eq1 (Vin1 m) c t
  pre c := iprop(StableHlo.held (c : Thread nD τ) (Pipeline.ucRefs τ sig) (W3 m c) ∗ Rst c)
  post c := iprop(Tₙ R m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats R m) launch1.win launch1.arr_whole c
      ((pdats R m 1 c).share_full fun w => R.q_eq1 (Vin1 m) c w) (Vin1 m c) fun w => R.A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R m 1 c).owed 0 = 0 from R.owed_eq1 (Vin1 m) c 0]
      icases HO with ⟨%W, HO⟩; iexists W; isplitr
      · ipureintro; intro x _; refine Or.inl ?_
        show x ∈ (R.dat1 (Vin1 m) c).recorded 0
        rw [R.recorded_eq1]; trivial
      iexact HO
    isplitl [Hp]; · iexact Hp
    iexact Hrest
  hin c := by
    rw [show (pdats R m 1 c).Φ 0 = (R.dat1 (Vin1 m) c).Φ 0 from rfl]
    iintro ⟨Hp, -, Hr⟩
    iapply (R.hin1 (Vin1 m) c)
    isplitl [Hp]; · iexact Hp
    iexact Hr
  hout c := by
    rw [Pipeline.ownSems0_none, show (pdats R m 1 c).Φ (Fin.last _) = (R.dat1 (Vin1 m) c).Φ (Fin.last cfg1.N) from rfl]
    iintro H
    ihave H' := (R.hout1 (Vin1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R m) ((pdats R m 1 c).share_full fun w => R.q_eq1 (Vin1 m) c w)
      (Vin1 m c) (Vout1 R m c) ((pdats R m 1 c).arrAt · cfg1.N) (hF1 R m c) (hrest1 R m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R m 1 c).owed (Fin.last _) = 0 from R.owed_eq1 (Vin1 m) c _]
    icases HO with ⟨%W, -, HO⟩; iexists W; iexact HO

/-! ## @main as segments, and the launch -/

/-- @main's four segments in order. -/
abbrev segs : List (Pipeline.Seg (pcfgs (F := F)) adm (pdats R m) () defs₀ 𝒱₀ L lv) :=
  [ .host (hseg hostOps0 hostOps0_sub hostOps0_fresh (W0 m)),
    .region (reg0 R m),
    .host (hseg hostOps1 hostOps1_sub hostOps1_fresh (W2 m)),
    .region (reg1 R m) ]
/-- @main IS the run of the segments. -/
theorem main_run (c : Dev nD) : main (F := F) c = Pipeline.Seg.run (segs R m) := (main_chain c).trans (by chain_rfl)

set_option backward.isDefEq.respectTransparency.types false in
/-- THE RUN. From any memory with zero counters, every weakly fair execution of @main terminates, nothing faulting,
    and in every final state each unscoped buffer of each core holds the last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 R m c b) :=
  Pipeline.θ_run_regions_kit (pcfgs (F := F)) adm (pdats R m) () cellOf_inj emb₁ defs₀ 𝒱₀ L lv m ρ main (segs R m)
    (fun c Q => by rw [main_run R m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ R m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R m c b)
    (hfin := fun c s' => by
      iintro ⟨⟨Hh, -⟩, HSI⟩
      unfold StableHlo.held
      imodintro
      iapply (pointsTo_read_all (Pipeline.ucRefs τ sig) (fun b => (((c : Thread nD τ)).1, b)) (W4 R m c) s')
      isplitl [Hh] <;> iassumption)
    (hQ := fun s h c => h c)

/-- The run with the result named and the arguments read back: the result array ends at what the attention region's
    write-backs leave of it, and every argument array ends as launched. -/
theorem run_result (ρ : Dev nD → PrngReg) : θ_run defs (onTc (τ := τ) (main (F := F))) ⟨m, fun _ => 0, ρ⟩ (fun r => ∀ c : Dev nD,
      r.2.mem ((c.tc : Thread nD τ).loc main_v8) = (R.dat1 (Vin1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (W4_main_v8 R m c),
     (h c _ (mem_uc main_arg0 (by decide))).trans (W4_untouched R m c main_arg0 (by decide) (by decide) (by decide) (by decide)),
     (h c _ (mem_uc main_arg1 (by decide))).trans (W4_untouched R m c main_arg1 (by decide) (by decide) (by decide) (by decide)),
     (h c _ (mem_uc main_arg2 (by decide))).trans (W4_untouched R m c main_arg2 (by decide) (by decide) (by decide) (by decide)),
     (h c _ (mem_uc main_arg3 (by decide))).trans (W4_untouched R m c main_arg3 (by decide) (by decide) (by decide) (by decide)),
     (h c _ (mem_uc main_arg4 (by decide))).trans (W4_untouched R m c main_arg4 (by decide) (by decide) (by decide) (by decide)),
     (h c _ (mem_uc main_arg5 (by decide))).trans (W4_untouched R m c main_arg5 (by decide) (by decide) (by decide) (by decide)),
     (h c _ (mem_uc main_arg6 (by decide))).trans (W4_untouched R m c main_arg6 (by decide) (by decide) (by decide) (by decide))⟩) (run_all R m ρ)

include R in
/-- THE FRAME: every weakly fair execution of @main terminates, nothing faulting, and every argument array ends as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result R m ρ)

end Generic

/-! ## The attention region's record, and the run at it -/

/-- The record of the attention region, from its module: its proof data `dat1`, and its invariant made from, and giving
    back, the scoped rest and the generator register. -/
abbrev attention : AttentionData F where
  dat1 := fun V c => dat1 V c
  A_eq1 := fun V c w => A_eq1 V c w
  q_eq1 := fun V c w => by dsimp only [dat1]
  owed_eq1 := fun V c t => by dsimp only [dat1]
  recorded_eq1 := fun V c t => by dsimp only [dat1]
  body_obligation1 := fun V c => body_obligation1 V c
  hin1 := fun V c => by
    have h := hin1 V c
    unfold Pipeline.ΦA at h
    iintro ⟨Hp, Hr⟩
    iapply h
    isplitl [Hr]; · iexact Hr
    iexact Hp
  hout1 := fun V c => by
    have h := hout1 V c
    unfold Pipeline.ΦA at h
    iintro H
    ihave H' := h $$ H
    icases H' with ⟨Hr, Hp⟩
    isplitl [Hp]; · iexact Hp
    iexact Hr

variable (m : (ℓ : Loc nD τ sig) → Buf (Elt F) ℓ)

/-- THE FRAME of @main: every weakly fair execution terminates, nothing faulting, and every argument array ends as
    launched. -/
theorem frame_main (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame attention m ρ

/-- THE RUN of @main with its result named: the result array ends at what the attention region's write-backs leave of
    it, entered from the contents `Vin1 m` (the reshapes of what the projection's write-backs leave: `W3_main_v5`,
    `W3_main_v6`, `W3_main_v7`), and every argument array ends as launched. -/
theorem result_main (ρ : Dev nD → PrngReg) : θ_run defs (onTc (τ := τ) (main (F := F))) ⟨m, fun _ => 0, ρ⟩ (fun r => ∀ c : Dev nD,
      r.2.mem ((c.tc : Thread nD τ).loc main_v8) = (dat1 (Vin1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_result attention m ρ

/-- info: 'Cert.KernelIdeal.Hand.result_main' depends on axioms: [propext, Classical.choice, Quot.sound] -/
#guard_msgs in #print axioms result_main
/-- info: 'Cert.KernelIdeal.Hand.frame_main' depends on axioms: [propext, Classical.choice, Quot.sound] -/
#guard_msgs in #print axioms frame_main

end Cert.KernelIdeal.Hand

end
-- ==== Proof.ProjectionArrays.lean ====
import proofs.«174010_j37280316129900_2_alg».proof.Proof.ProjectionRegion
import Idealize.ShloMosaic.Lib.Pipeline.Value
import Idealize.ShloMosaic.Lib.ValueIdx

/-! # The projection's three output arrays after the region, as functions of their whole index

The projection writes block `t` (rows `1024 t .. 1024 t + 1023`, every column) of each output array at grid point `t`,
`t = 0 .. 15`; the sixteen blocks tile the 16384 rows. So after the region, row `r` of an output array is row `r % 1024` of
what the body left in the output's buffer at point `r / 1024`. -/

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen

variable {F : FTy → Type} [FloatOps F] [Named F]

section
variable (V : (c : Dev nD) → (b : Ref sig .tc) → Buf (Elt F) ((c : Thread nD τ).loc b))

/-- The grid point whose block holds row `r`. -/
def rowPoint (r : ℕ) (h : r < 16384) : Fin cfg0.N := ⟨r / 1024, by rw [show cfg0.N = 16 from N_0]; omega⟩

theorem rowPoint_val (r : ℕ) (h : r < 16384) : (rowPoint r h).val = r / 1024 := rfl

/-- Each output window's block index at point `t` is `(t, 0)`: decided over the grid. -/
theorem index0_out : ∀ t : Fin cfg0.N, win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first output array (queries, 128 columns) after the region. -/
def projQ (c : Dev nD) : S16384x128.Idx → Elt F .bf16 := fun i =>
  out0_3 (iblk0 V c 0 (rowPoint (i 0).val (i 0).isLt)) (iblk0 V c 1 (rowPoint (i 0).val (i 0).isLt)) (iblk0 V c 2 (rowPoint (i 0).val (i 0).isLt))
    (ix2 (⟨(i 0).val % 1024, Nat.mod_lt _ (by decide)⟩ : Fin 1024) (i 1))
/-- The second output array (keys, 128 columns). -/
def projK (c : Dev nD) : S16384x128.Idx → Elt F .bf16 := fun i =>
  out0_4 (iblk0 V c 0 (rowPoint (i 0).val (i 0).isLt)) (iblk0 V c 1 (rowPoint (i 0).val (i 0).isLt)) (iblk0 V c 2 (rowPoint (i 0).val (i 0).isLt))
    (ix2 (⟨(i 0).val % 1024, Nat.mod_lt _ (by decide)⟩ : Fin 1024) (i 1))
/-- The third output array (values, 1024 columns). -/
def projV (c : Dev nD) : S16384x1024.Idx → Elt F .bf16 := fun i =>
  out0_5 (iblk0 V c 0 (rowPoint (i 0).val (i 0).isLt)) (iblk0 V c 1 (rowPoint (i 0).val (i 0).isLt)) (iblk0 V c 2 (rowPoint (i 0).val (i 0).isLt))
    (ix2 (⟨(i 0).val % 1024, Nat.mod_lt _ (by decide)⟩ : Fin 1024) (i 1))

/-! ## The first output (queries) -/

/-- `projQ` at an index of point `t`'s block: row `1024 t + a`, column `b`, is the body's output at `(a, b)`. -/
theorem projQ_at (c : Dev nD) (t : Fin cfg0.N) (i : S16384x128.Idx) (j : S1024x128.Idx)
    (h0 : (i 0).val = t.val * 1024 + (j 0).val) (h1 : (i 1).val = (j 1).val) :
    projQ V c i = out0_3 (iblk0 V c 0 t) (iblk0 V c 1 t) (iblk0 V c 2 t) j := by
  have hj0 : (j 0).val < 1024 := (j 0).isLt
  have hp : rowPoint (i 0).val (i 0).isLt = t := Fin.ext (by show (i 0).val / 1024 = t.val; omega)
  have hidx : (ix2 (⟨(i 0).val % 1024, Nat.mod_lt _ (by decide)⟩ : Fin 1024) (i 1) : S1024x128.Idx) = j := by
    funext a
    match a with
    | ⟨0, _⟩ => exact Fin.ext (by show (i 0).val % 1024 = (j 0).val; omega)
    | ⟨1, _⟩ => exact Fin.ext h1
  unfold projQ
  rw [hp, hidx]

/-- The window's blocks are whole (never cut at the array's edge): what is written back is what the body left. -/
theorem cut0_3 (t : Fin cfg0.N) (f : (cfg0.win 3).block.Idx → Elt F (cfg0.win 3).elt) :
    (cfg0.win 3).cut (grid0.coords t) f = f := rfl

/-- What point `t` writes back is block `t` of `projQ`. -/
theorem flushed0_3 (c : Dev nD) (t : Fin cfg0.N) :
    (dat0 V c).flushed 3 t = ((cfg0.win 3).blk t).view.read (Elt F) (projQ V c) := by
  show (cfg0.win 3).cut (grid0.coords t) ((dat0 V c).after 3 t) = _
  rw [after0_3]
  obtain ⟨e0, e1, -, -, -, -⟩ := index0_out t
  funext j
  refine (congrFun (cut0_3 t _) j).trans ?_
  rw [View.read_apply]
  have h0 : ((((cfg0.win 3).blk t).view.emb j : S16384x128.Idx) 0).val = t.val * 1024 + ((j : S1024x128.Idx) 0).val := by
    show win0_3.index t (0 : Fin 2) * 1024 + 1 * (j 0).val = _; rw [e0]; omega
  have h1 : ((((cfg0.win 3).blk t).view.emb j : S16384x128.Idx) 1).val = ((j : S1024x128.Idx) 1).val := by
    show win0_3.index t (1 : Fin 2) * 128 + 1 * (j 1).val = _; rw [e1]; omega
  have key := projQ_at V c t _ j h0 h1
  rw [key]
  first | exact (cast_eq _ _).symm | rfl

/-- An index of the array is in point `t`'s block iff each coordinate is in the block's range on its axis. -/
theorem mem_blk0_3 (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v4_0).slice (win0_3.rect t)).set ↔ _
  rw [View.set_slice_whole, Rect.mem_set_unit]
  exact Iff.rfl

/-- Every index of the array is in the block of the point its row belongs to. -/
theorem cover0_3 (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  refine ⟨rowPoint (i 0).val hi0, flush0_3 _, ?_⟩
  obtain ⟨e0, e1, -, -, -, -⟩ := index0_out (rowPoint (i 0).val hi0)
  have hv : (rowPoint (i 0).val hi0).val = (i 0).val / 1024 := rfl
  rw [mem_blk0_3]
  intro a
  match a with
  | ⟨0, _⟩ => show win0_3.index (rowPoint (i 0).val hi0) (0 : Fin 2) * 1024 ≤ (i 0).val ∧ (i 0).val < win0_3.index (rowPoint (i 0).val hi0) (0 : Fin 2) * 1024 + 1024; omega
  | ⟨1, _⟩ => show win0_3.index (rowPoint (i 0).val hi0) (1 : Fin 2) * 128 ≤ (i 1).val ∧ (i 1).val < win0_3.index (rowPoint (i 0).val hi0) (1 : Fin 2) * 128 + 128; omega

/-- THE ARRAY after the region: `projQ`. -/
theorem arrAt0_3 (c : Dev nD) : (dat0 V c).arrAt 3 cfg0.N = projQ V c :=
  (dat0 V c).arrAt_eq_of_cover 3 (projQ V c) (fun t _ => flushed0_3 V c t) (cover0_3)

/-! ## The second output (keys) -/

/-- `projK` at an index of point `t`'s block: row `1024 t + a`, column `b`, is the body's output at `(a, b)`. -/
theorem projK_at (c : Dev nD) (t : Fin cfg0.N) (i : S16384x128.Idx) (j : S1024x128.Idx)
    (h0 : (i 0).val = t.val * 1024 + (j 0).val) (h1 : (i 1).val = (j 1).val) :
    projK V c i = out0_4 (iblk0 V c 0 t) (iblk0 V c 1 t) (iblk0 V c 2 t) j := by
  have hj0 : (j 0).val < 1024 := (j 0).isLt
  have hp : rowPoint (i 0).val (i 0).isLt = t := Fin.ext (by show (i 0).val / 1024 = t.val; omega)
  have hidx : (ix2 (⟨(i 0).val % 1024, Nat.mod_lt _ (by decide)⟩ : Fin 1024) (i 1) : S1024x128.Idx) = j := by
    funext a
    match a with
    | ⟨0, _⟩ => exact Fin.ext (by show (i 0).val % 1024 = (j 0).val; omega)
    | ⟨1, _⟩ => exact Fin.ext h1
  unfold projK
  rw [hp, hidx]

/-- The window's blocks are whole (never cut at the array's edge): what is written back is what the body left. -/
theorem cut0_4 (t : Fin cfg0.N) (f : (cfg0.win 4).block.Idx → Elt F (cfg0.win 4).elt) :
    (cfg0.win 4).cut (grid0.coords t) f = f := rfl

/-- What point `t` writes back is block `t` of `projK`. -/
theorem flushed0_4 (c : Dev nD) (t : Fin cfg0.N) :
    (dat0 V c).flushed 4 t = ((cfg0.win 4).blk t).view.read (Elt F) (projK V c) := by
  show (cfg0.win 4).cut (grid0.coords t) ((dat0 V c).after 4 t) = _
  rw [after0_4]
  obtain ⟨-, -, e0, e1, -, -⟩ := index0_out t
  funext j
  refine (congrFun (cut0_4 t _) j).trans ?_
  rw [View.read_apply]
  have h0 : ((((cfg0.win 4).blk t).view.emb j : S16384x128.Idx) 0).val = t.val * 1024 + ((j : S1024x128.Idx) 0).val := by
    show win0_4.index t (0 : Fin 2) * 1024 + 1 * (j 0).val = _; rw [e0]; omega
  have h1 : ((((cfg0.win 4).blk t).view.emb j : S16384x128.Idx) 1).val = ((j : S1024x128.Idx) 1).val := by
    show win0_4.index t (1 : Fin 2) * 128 + 1 * (j 1).val = _; rw [e1]; omega
  have key := projK_at V c t _ j h0 h1
  rw [key]
  first | exact (cast_eq _ _).symm | rfl

/-- An index of the array is in point `t`'s block iff each coordinate is in the block's range on its axis. -/
theorem mem_blk0_4 (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v4_1).slice (win0_4.rect t)).set ↔ _
  rw [View.set_slice_whole, Rect.mem_set_unit]
  exact Iff.rfl

/-- Every index of the array is in the block of the point its row belongs to. -/
theorem cover0_4 (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  refine ⟨rowPoint (i 0).val hi0, flush0_4 _, ?_⟩
  obtain ⟨-, -, e0, e1, -, -⟩ := index0_out (rowPoint (i 0).val hi0)
  have hv : (rowPoint (i 0).val hi0).val = (i 0).val / 1024 := rfl
  rw [mem_blk0_4]
  intro a
  match a with
  | ⟨0, _⟩ => show win0_4.index (rowPoint (i 0).val hi0) (0 : Fin 2) * 1024 ≤ (i 0).val ∧ (i 0).val < win0_4.index (rowPoint (i 0).val hi0) (0 : Fin 2) * 1024 + 1024; omega
  | ⟨1, _⟩ => show win0_4.index (rowPoint (i 0).val hi0) (1 : Fin 2) * 128 ≤ (i 1).val ∧ (i 1).val < win0_4.index (rowPoint (i 0).val hi0) (1 : Fin 2) * 128 + 128; omega

/-- THE ARRAY after the region: `projK`. -/
theorem arrAt0_4 (c : Dev nD) : (dat0 V c).arrAt 4 cfg0.N = projK V c :=
  (dat0 V c).arrAt_eq_of_cover 4 (projK V c) (fun t _ => flushed0_4 V c t) (cover0_4)

/-! ## The third output (values) -/

/-- `projV` at an index of point `t`'s block: row `1024 t + a`, column `b`, is the body's output at `(a, b)`. -/
theorem projV_at (c : Dev nD) (t : Fin cfg0.N) (i : S16384x1024.Idx) (j : S1024x1024.Idx)
    (h0 : (i 0).val = t.val * 1024 + (j 0).val) (h1 : (i 1).val = (j 1).val) :
    projV V c i = out0_5 (iblk0 V c 0 t) (iblk0 V c 1 t) (iblk0 V c 2 t) j := by
  have hj0 : (j 0).val < 1024 := (j 0).isLt
  have hp : rowPoint (i 0).val (i 0).isLt = t := Fin.ext (by show (i 0).val / 1024 = t.val; omega)
  have hidx : (ix2 (⟨(i 0).val % 1024, Nat.mod_lt _ (by decide)⟩ : Fin 1024) (i 1) : S1024x1024.Idx) = j := by
    funext a
    match a with
    | ⟨0, _⟩ => exact Fin.ext (by show (i 0).val % 1024 = (j 0).val; omega)
    | ⟨1, _⟩ => exact Fin.ext h1
  unfold projV
  rw [hp, hidx]

/-- The window's blocks are whole (never cut at the array's edge): what is written back is what the body left. -/
theorem cut0_5 (t : Fin cfg0.N) (f : (cfg0.win 5).block.Idx → Elt F (cfg0.win 5).elt) :
    (cfg0.win 5).cut (grid0.coords t) f = f := rfl

/-- What point `t` writes back is block `t` of `projV`. -/
theorem flushed0_5 (c : Dev nD) (t : Fin cfg0.N) :
    (dat0 V c).flushed 5 t = ((cfg0.win 5).blk t).view.read (Elt F) (projV V c) := by
  show (cfg0.win 5).cut (grid0.coords t) ((dat0 V c).after 5 t) = _
  rw [after0_5]
  obtain ⟨-, -, -, -, e0, e1⟩ := index0_out t
  funext j
  refine (congrFun (cut0_5 t _) j).trans ?_
  rw [View.read_apply]
  have h0 : ((((cfg0.win 5).blk t).view.emb j : S16384x1024.Idx) 0).val = t.val * 1024 + ((j : S1024x1024.Idx) 0).val := by
    show win0_5.index t (0 : Fin 2) * 1024 + 1 * (j 0).val = _; rw [e0]; omega
  have h1 : ((((cfg0.win 5).blk t).view.emb j : S16384x1024.Idx) 1).val = ((j : S1024x1024.Idx) 1).val := by
    show win0_5.index t (1 : Fin 2) * 1024 + 1 * (j 1).val = _; rw [e1]; omega
  have key := projV_at V c t _ j h0 h1
  rw [key]
  first | exact (cast_eq _ _).symm | rfl

/-- An index of the array is in point `t`'s block iff each coordinate is in the block's range on its axis. -/
theorem mem_blk0_5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_2).slice (win0_5.rect t)).set ↔ _
  rw [View.set_slice_whole, Rect.mem_set_unit]
  exact Iff.rfl

/-- Every index of the array is in the block of the point its row belongs to. -/
theorem cover0_5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  refine ⟨rowPoint (i 0).val hi0, flush0_5 _, ?_⟩
  obtain ⟨-, -, -, -, e0, e1⟩ := index0_out (rowPoint (i 0).val hi0)
  have hv : (rowPoint (i 0).val hi0).val = (i 0).val / 1024 := rfl
  rw [mem_blk0_5]
  intro a
  match a with
  | ⟨0, _⟩ => show win0_5.index (rowPoint (i 0).val hi0) (0 : Fin 2) * 1024 ≤ (i 0).val ∧ (i 0).val < win0_5.index (rowPoint (i 0).val hi0) (0 : Fin 2) * 1024 + 1024; omega
  | ⟨1, _⟩ => show win0_5.index (rowPoint (i 0).val hi0) (1 : Fin 2) * 1024 ≤ (i 1).val ∧ (i 1).val < win0_5.index (rowPoint (i 0).val hi0) (1 : Fin 2) * 1024 + 1024; omega

/-- THE ARRAY after the region: `projV`. -/
theorem arrAt0_5 (c : Dev nD) : (dat0 V c).arrAt 5 cfg0.N = projV V c :=
  (dat0 V c).arrAt_eq_of_cover 5 (projV V c) (fun t _ => flushed0_5 V c t) (cover0_5)

end

/-- info: 'Cert.KernelIdeal.Hand.arrAt0_5' depends on axioms: [propext, Classical.choice, Quot.sound] -/
#guard_msgs in #print axioms arrAt0_5

end Cert.KernelIdeal.Hand

end
-- ==== Proof.ProjectionBlocks.lean ====
/-
  The first pallas_call (the fused projection over 16 blocks of 1024 rows), block by block.

  The body makes one whole-block store into each of its three output buffers, so what it leaves there is that
  store's value: the first 128 columns, the next 128, and the last 1024 of (block of x) · W + β. The row block of x
  at point t is rows 1024·t .. 1024·t + 1023 of the [16384, 1024] array; the weight and the bias have one block,
  the whole array, at every point.
-/
import proofs.«174010_j37280316129900_2_alg».proof.Proof.ProjectionRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F] [Named F]

theorem zeros2 : (![0, 0] : Fin 2 → Nat) = fun _ => 0 := funext fun a => by fin_cases a <;> rfl
theorem zeros1 : (![0] : Fin 1 → Nat) = fun _ => 0 := funext fun a => by fin_cases a; rfl

/-- Each output block is the body's value for it. -/
theorem out0_3_eq (x0 : Vec F S1024x1024 .f32) (x1 : Vec F S1024x1280 .bf16) (x2 : Vec F S1280 .f32) :
    out0_3 x0 x1 x2 = k0_pay2 x0 x1 x2 := by
  unfold out0_3
  rw [View.canon_unit_zero zeros2]
  simp only [View.ld_unit_zero (S := S1024x1024) zeros2, View.ld_unit_zero (S := S1024x1280) zeros2, View.ld_unit_zero (S := S1280) zeros1]

theorem out0_4_eq (x0 : Vec F S1024x1024 .f32) (x1 : Vec F S1024x1280 .bf16) (x2 : Vec F S1280 .f32) :
    out0_4 x0 x1 x2 = k0_pay3 x0 x1 x2 := by
  unfold out0_4
  rw [View.canon_unit_zero zeros2]
  simp only [View.ld_unit_zero (S := S1024x1024) zeros2, View.ld_unit_zero (S := S1024x1280) zeros2, View.ld_unit_zero (S := S1280) zeros1]

theorem out0_5_eq (x0 : Vec F S1024x1024 .f32) (x1 : Vec F S1024x1280 .bf16) (x2 : Vec F S1280 .f32) :
    out0_5 x0 x1 x2 = k0_pay4 x0 x1 x2 := by
  unfold out0_5
  rw [View.canon_unit_zero zeros2]
  simp only [View.ld_unit_zero (S := S1024x1024) zeros2, View.ld_unit_zero (S := S1024x1280) zeros2, View.ld_unit_zero (S := S1280) zeros1]

variable (V : (c : Dev nD) → (b : Ref sig .tc) → Buf (Elt F) ((c : Thread nD τ).loc b))

/-- The input windows' block indices at every point. -/
theorem idx_in0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

theorem lt16 (t : Fin cfg0.N) : t.val < 16 := lt_of_lt_of_eq t.isLt (show cfg0.N = 16 from N_0)

/-- The row block of x at point t. -/
theorem xblk_apply (c : Dev nD) (t : Fin cfg0.N) (r : Fin 1024) (e : Fin 1024) :
    (iblk0 V c 0 t : Vec F S1024x1024 .f32) (ix2 r e)
      = (V c (Pipeline.arrRef spec0 0) : S16384x1024.Idx → Elt F .f32)
          (ix2 (⟨1024 * t.val + r.val, by have := lt16 t; have := r.isLt; omega⟩ : Fin 16384) e) := by
  obtain ⟨e0, e1, -⟩ := idx_in0 t
  show (V c (Pipeline.arrRef spec0 0) : S16384x1024.Idx → Elt F .f32) (((cfg0.win 0).blk t).view.emb (ix2 r e)) = _
  refine congrArg _ ?_
  funext a; apply Fin.ext
  match a with
  | ⟨0, _⟩ => show win0_0.index t (0 : Fin 2) * 1024 + 1 * r.val = 1024 * t.val + r.val; omega
  | ⟨1, _⟩ => show win0_0.index t (1 : Fin 2) * 1024 + 1 * e.val = e.val; omega

/-- The weight's one block is the weight. -/
theorem wblk_apply (c : Dev nD) (t : Fin cfg0.N) (e : Fin 1024) (j : Fin 1280) :
    (iblk0 V c 1 t : Vec F S1024x1280 .bf16) (ix2 e j)
      = (V c (Pipeline.arrRef spec0 1) : S1024x1280.Idx → Elt F .bf16) (ix2 e j) := by
  obtain ⟨-, -, e0, e1, -⟩ := idx_in0 t
  show (V c (Pipeline.arrRef spec0 1) : S1024x1280.Idx → Elt F .bf16) (((cfg0.win 1).blk t).view.emb (ix2 e j)) = _
  refine congrArg _ ?_
  funext a; apply Fin.ext
  match a with
  | ⟨0, _⟩ => show win0_1.index t (0 : Fin 2) * 1024 + 1 * e.val = e.val; omega
  | ⟨1, _⟩ => show win0_1.index t (1 : Fin 2) * 1280 + 1 * j.val = j.val; omega

/-- The bias's one block is the bias. -/
theorem bblk_apply (c : Dev nD) (t : Fin cfg0.N) (j : Fin 1280) :
    (iblk0 V c 2 t : Vec F S1280 .f32) (ix1 j)
      = (V c (Pipeline.arrRef spec0 2) : S1280.Idx → Elt F .f32) (ix1 j) := by
  obtain ⟨-, -, -, -, e0⟩ := idx_in0 t
  show (V c (Pipeline.arrRef spec0 2) : S1280.Idx → Elt F .f32) (((cfg0.win 2).blk t).view.emb (ix1 j)) = _
  refine congrArg _ ?_
  funext a; apply Fin.ext
  match a with
  | ⟨0, _⟩ => show win0_2.index t (0 : Fin 1) * 1280 + 1 * j.val = j.val; omega

end Cert.KernelIdeal.Hand

end
-- ==== Proof.MatmulAtIndex.lean ====
/-
  The kernel's three matrix products read at an index.

  Each contracts the one inner axis of a row-major pair [a, k] × [k, b] into a zero accumulator, so at row `r` and
  column `c` it is the plain sum over `e < k` of the left operand at `(r, e)` times the right operand at `(e, c)`.
  The proof re-indexes the contraction's sum through its one coordinate: the contraction index has one axis, and the
  operand indices at output index (r, c) and contraction coordinate e are (r, e) and (e, c).
-/
import proofs.«174010_j37280316129900_2_alg».proof.Proof.Gen.KernelIdeal.Skeleton
import Idealize.ShloMosaic.Lib.ValueIdx
import Idealize.ShloMosaic.PureOps.Ideal.Laws

noncomputable section

namespace Cert.Proof.MatmulAtIndex

open Cert.KernelIdeal Cert.KernelIdeal.Gen Idealize.ShloMosaic Idealize.ShloMosaic.ValueIdx

/-! ## The projection: a block of 1024 rows against the concatenated weight -/

theorem proj_matmul_lhs0 (i : S1024x1280.Idx) (q : dot_S1024x1024_S1024x1280_S1024x1280_1_0_0_1_n_n.contr.Idx) : (dot_S1024x1024_S1024x1280_S1024x1280_1_0_0_1_n_n.lhsIdx i q 0).val = (i 0).val := by
  unfold DotDims.lhsIdx
  rw [dif_neg (show ¬(0 : Fin S1024x1024.rank) ∈ dot_S1024x1024_S1024x1280_S1024x1280_1_0_0_1_n_n.lhsBatch by decide), dif_pos (show (0 : Fin S1024x1024.rank) ∈ dot_S1024x1024_S1024x1280_S1024x1280_1_0_0_1_n_n.lhsNonContracting by decide)]
  rfl
theorem proj_matmul_lhs1 (i : S1024x1280.Idx) (q : dot_S1024x1024_S1024x1280_S1024x1280_1_0_0_1_n_n.contr.Idx) : (dot_S1024x1024_S1024x1280_S1024x1280_1_0_0_1_n_n.lhsIdx i q 1).val = (q ⟨0, by decide⟩).val :=
  dot_S1024x1024_S1024x1280_S1024x1280_1_0_0_1_n_n.lhsIdx_val_of_single rfl i q
theorem proj_matmul_rhs0 (i : S1024x1280.Idx) (q : dot_S1024x1024_S1024x1280_S1024x1280_1_0_0_1_n_n.contr.Idx) : (dot_S1024x1024_S1024x1280_S1024x1280_1_0_0_1_n_n.rhsIdx i q 0).val = (q ⟨0, by decide⟩).val :=
  dot_S1024x1024_S1024x1280_S1024x1280_1_0_0_1_n_n.rhsIdx_val_of_single rfl i q
theorem proj_matmul_rhs1 (i : S1024x1280.Idx) (q : dot_S1024x1024_S1024x1280_S1024x1280_1_0_0_1_n_n.contr.Idx) : (dot_S1024x1024_S1024x1280_S1024x1280_1_0_0_1_n_n.rhsIdx i q 1).val = (i 1).val := by
  unfold DotDims.rhsIdx
  rw [dif_neg (show ¬(1 : Fin S1024x1280.rank) ∈ dot_S1024x1024_S1024x1280_S1024x1280_1_0_0_1_n_n.rhsBatch by decide), dif_pos (show (1 : Fin S1024x1280.rank) ∈ dot_S1024x1024_S1024x1280_S1024x1280_1_0_0_1_n_n.rhsNonContracting by decide)]
  rfl

/-- The matrix product into a zero accumulator, read at row `r` and column `c`: the sum over the contracted axis. -/
theorem proj_matmul (A : FVec Ideal S1024x1024 .bf16) (B : FVec Ideal S1024x1280 .bf16) (r : Fin 1024) (c : Fin 1280) :
    matmul dot_S1024x1024_S1024x1280_S1024x1280_1_0_0_1_n_n none A B (constant (F := Ideal) S1024x1280 .f32 0x00000000#32) (ix2 r c)
      = ∑ e : Fin 1024, A (ix2 r e) * B (ix2 e c) := by
  show FloatOps.matmul _ _ _ _ _ _ = _
  rw [Ideal.matmul_constant_zero_apply, ← Equiv.sum_comp (contrEquiv1 dot_S1024x1024_S1024x1280_S1024x1280_1_0_0_1_n_n 1024 rfl rfl).symm]
  refine Finset.sum_congr rfl fun k _ => ?_
  have hk := contrEquiv1_symm_val dot_S1024x1024_S1024x1280_S1024x1280_1_0_0_1_n_n 1024 rfl rfl k
  have el : dot_S1024x1024_S1024x1280_S1024x1280_1_0_0_1_n_n.lhsIdx (ix2 r c) ((contrEquiv1 dot_S1024x1024_S1024x1280_S1024x1280_1_0_0_1_n_n 1024 rfl rfl).symm k) = ix2 r k := funext fun x => Fin.ext (by
    match x with
    | ⟨0, _⟩ => exact proj_matmul_lhs0 _ _
    | ⟨1, _⟩ => exact (proj_matmul_lhs1 _ _).trans hk)
  have er : dot_S1024x1024_S1024x1280_S1024x1280_1_0_0_1_n_n.rhsIdx (ix2 r c) ((contrEquiv1 dot_S1024x1024_S1024x1280_S1024x1280_1_0_0_1_n_n 1024 rfl rfl).symm k) = ix2 k c := funext fun x => Fin.ext (by
    match x with
    | ⟨0, _⟩ => exact (proj_matmul_rhs0 _ _).trans hk
    | ⟨1, _⟩ => exact proj_matmul_rhs1 _ _)
  rw [el, er]

/-! ## The scores: a query tile against a transposed key tile -/

theorem scores_matmul_lhs0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem scores_matmul_lhs1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem scores_matmul_rhs0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem scores_matmul_rhs1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The matrix product into a zero accumulator, read at row `r` and column `c`: the sum over the contracted axis. -/
theorem scores_matmul (A : FVec Ideal S1024x128 .bf16) (B : FVec Ideal S128x512 .bf16) (r : Fin 1024) (c : Fin 512) :
    matmul dot_S1024x128_S128x512_S1024x512_1_0_0_1_n_n none A B (constant (F := Ideal) S1024x512 .f32 0x00000000#32) (ix2 r c)
      = ∑ e : Fin 128, A (ix2 r e) * B (ix2 e c) := by
  show FloatOps.matmul _ _ _ _ _ _ = _
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r c) ((contrEquiv1 dot_S1024x128_S128x512_S1024x512_1_0_0_1_n_n 128 rfl rfl).symm k) = ix2 r k := funext fun x => Fin.ext (by
    match x with
    | ⟨0, _⟩ => exact scores_matmul_lhs0 _ _
    | ⟨1, _⟩ => exact (scores_matmul_lhs1 _ _).trans hk)
  have er : dot_S1024x128_S128x512_S1024x512_1_0_0_1_n_n.rhsIdx (ix2 r c) ((contrEquiv1 dot_S1024x128_S128x512_S1024x512_1_0_0_1_n_n 128 rfl rfl).symm k) = ix2 k c := funext fun x => Fin.ext (by
    match x with
    | ⟨0, _⟩ => exact (scores_matmul_rhs0 _ _).trans hk
    | ⟨1, _⟩ => exact scores_matmul_rhs1 _ _)
  rw [el, er]

/-! ## The weighted values: a tile of weights against a value tile -/

theorem weighted_matmul_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem weighted_matmul_lhs1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem weighted_matmul_rhs0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem weighted_matmul_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix product into a zero accumulator, read at row `r` and column `c`: the sum over the contracted axis. -/
theorem weighted_matmul (A : FVec Ideal S1024x512 .bf16) (B : FVec Ideal S512x1024 .bf16) (r : Fin 1024) (c : Fin 1024) :
    matmul dot_S1024x512_S512x1024_S1024x1024_1_0_0_1_n_n none A B (constant (F := Ideal) S1024x1024 .f32 0x00000000#32) (ix2 r c)
      = ∑ e : Fin 512, A (ix2 r e) * B (ix2 e c) := by
  show FloatOps.matmul _ _ _ _ _ _ = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r c) ((contrEquiv1 dot_S1024x512_S512x1024_S1024x1024_1_0_0_1_n_n 512 rfl rfl).symm k) = ix2 r k := funext fun x => Fin.ext (by
    match x with
    | ⟨0, _⟩ => exact weighted_matmul_lhs0 _ _
    | ⟨1, _⟩ => exact (weighted_matmul_lhs1 _ _).trans hk)
  have er : dot_S1024x512_S512x1024_S1024x1024_1_0_0_1_n_n.rhsIdx (ix2 r c) ((contrEquiv1 dot_S1024x512_S512x1024_S1024x1024_1_0_0_1_n_n 512 rfl rfl).symm k) = ix2 k c := funext fun x => Fin.ext (by
    match x with
    | ⟨0, _⟩ => exact (weighted_matmul_rhs0 _ _).trans hk
    | ⟨1, _⟩ => exact weighted_matmul_rhs1 _ _)
  rw [el, er]

end Cert.Proof.MatmulAtIndex

end
-- ==== Proof.ProjectionPayload.lean ====
/-
  The projection body read entry by entry.

  One block of 1024 rows of the input is multiplied by the concatenated weight [1024, 1280] into a zero accumulator and
  the concatenated bias is added along the rows; the three stored results are the column ranges 0..127, 128..255 and
  256..1279 of that block. A change of float format is the identity on the extended reals.
-/
import proofs.«174010_j37280316129900_2_alg».proof.Proof.Gen.KernelIdeal.Skeleton
import proofs.«174010_j37280316129900_2_alg».proof.Proof.MatmulAtIndex
import Idealize.ShloMosaic.Lib.Pipeline.Value
import Idealize.ShloMosaic.Lib.ValueIdx
import Idealize.ShloMosaic.Lib.ValueLayout
import Idealize.ShloMosaic.PureOps.Ideal.Laws

noncomputable section

namespace Cert.Proof.ProjectionPayload

open Cert.KernelIdeal Cert.KernelIdeal.Gen Idealize.ShloMosaic Idealize.ShloMosaic.ValueIdx Cert.Proof.MatmulAtIndex

/-- The fused affine layer at row `r` of the block and column `j` of the concatenated weight. -/
theorem proj_apply (x0 : Vec Ideal S1024x1024 .f32) (w : Vec Ideal S1024x1280 .bf16) (β : Vec Ideal S1280 .f32)
    (r : Fin 1024) (j : Fin 1280) :
    k0_pay1 (F := Ideal) x0 w β (ix2 r j) = (∑ e : Fin 1024, x0 (ix2 r e) * w (ix2 e j)) + β (ix1 j) := by
  unfold k0_pay1
  show matmul dot_S1024x1024_S1024x1280_S1024x1280_1_0_0_1_n_n none
        (truncf .bf16 (shapeCast S1024x1024 x0 shapeCasts_S1024x1024_S1024x1024) bitsLt_bf16_f32)
        (shapeCast S1024x1280 w shapeCasts_S1024x1280_S1024x1280)
        (constant (F := Ideal) S1024x1280 .f32 0x00000000#32) (ix2 r j)
      + broadcastTo S1024x1280 (shapeCast S1x1280 (shapeCast S1280 β shapeCasts_S1280_S1280) shapeCasts_S1280_S1x1280)
          broadcasts_S1x1280_S1024x1280 (ix2 r j) = _
  rw [shapeCast_self, shapeCast_self, shapeCast_self, proj_matmul, broadcastTo_1b_ab_apply, shapeCast_a_1a_apply]
  rfl

/-- The query columns: columns 0..127 of the fused layer. -/
theorem projQ_apply (x0 : Vec Ideal S1024x1024 .f32) (w : Vec Ideal S1024x1280 .bf16) (β : Vec Ideal S1280 .f32)
    (r : Fin 1024) (p : Fin 128) :
    k0_pay2 (F := Ideal) x0 w β (ix2 r p) = k0_pay1 (F := Ideal) x0 w β (ix2 r ⟨p.val, by have := p.isLt; omega⟩) := by
  unfold k0_pay2
  show extractStridedSlice S1024x128 ![0, 0] (k0_pay1 (F := Ideal) x0 w β) slices_S1024x1280_o0_0_S1024x128 (ix2 r p) = _
  exact slice2_axis1_apply 0 _ _ r p ⟨p.val, by have := p.isLt; omega⟩ (Nat.zero_add _).symm

/-- The key columns: columns 128..255 of the fused layer. -/
theorem projK_apply (x0 : Vec Ideal S1024x1024 .f32) (w : Vec Ideal S1024x1280 .bf16) (β : Vec Ideal S1280 .f32)
    (r : Fin 1024) (p : Fin 128) :
    k0_pay3 (F := Ideal) x0 w β (ix2 r p) = k0_pay1 (F := Ideal) x0 w β (ix2 r ⟨128 + p.val, by have := p.isLt; omega⟩) := by
  unfold k0_pay3
  show extractStridedSlice S1024x128 ![0, 128] (k0_pay1 (F := Ideal) x0 w β) slices_S1024x1280_o0_128_S1024x128 (ix2 r p) = _
  exact slice2_axis1_apply 128 _ _ r p ⟨128 + p.val, by have := p.isLt; omega⟩ rfl

/-- The value columns: columns 256..1279 of the fused layer. -/
theorem projV_apply (x0 : Vec Ideal S1024x1024 .f32) (w : Vec Ideal S1024x1280 .bf16) (β : Vec Ideal S1280 .f32)
    (r : Fin 1024) (d : Fin 1024) :
    k0_pay4 (F := Ideal) x0 w β (ix2 r d) = k0_pay1 (F := Ideal) x0 w β (ix2 r ⟨256 + d.val, by have := d.isLt; omega⟩) := by
  unfold k0_pay4
  show extractStridedSlice S1024x1024 ![0, 256] (k0_pay1 (F := Ideal) x0 w β) slices_S1024x1280_o0_256_S1024x1024 (ix2 r d) = _
  exact slice2_axis1_apply 256 _ _ r d ⟨256 + d.val, by have := d.isLt; omega⟩ rfl

end Cert.Proof.ProjectionPayload

end
-- ==== Proof.KernelHostReads.lean ====
/-
  What the host operations in front of the first kernel region leave, read at an index.

  Four operations run before the fused projection: the three weights are laid side by side along the column axis
  into one [1024, 1280] matrix (columns 0..127 the query weight, 128..255 the key weight, 256..1279 the value
  weight) and converted to the narrower format, which on exact values changes nothing; the three biases are laid
  end to end into one vector of 1280 entries in the same order; and the input [4, 4096, 1024] is reshaped to
  [16384, 1024], row r of the result being row r mod 4096 of batch r div 4096. No operation writes an argument.
-/
import proofs.«174010_j37280316129900_2_alg».proof.Proof.Gen.KernelIdeal.Regions
import Idealize.ShloMosaic.Lib.Pipeline.Value
import Idealize.ShloMosaic.Lib.ValueIdx
import Idealize.ShloMosaic.Lib.StableHlo.Run

noncomputable section

namespace Cert.Proof.KernelHostReads

open Idealize.ShloMosaic Idealize.ShloMosaic.TcCoe Idealize.ShloMosaic.ValueIdx Idealize.ShloMosaic.StableHlo Idealize.SL.Sem
open Cert.KernelIdeal Cert.KernelIdeal.Gen

/-! ## Three arrays side by side, read at an index -/

/-- Three matrices laid side by side along the columns: a column below 128 is the first's, one below 256 the
    second's 128 columns further left, any other the third's 256 columns further left. -/
theorem concat_columns_apply {α : Type} (x₁ x₂ : S1024x128.Idx → α) (x₃ : S1024x1024.Idx → α) (e : Fin 1024) (j : Fin 1280) :
    concatenate S1024x1280 1 [⟨S1024x128, x₁⟩, ⟨S1024x128, x₂⟩, ⟨S1024x1024, x₃⟩]
        concatenates_S1024x128_S1024x128_S1024x1024_S1024x1280_d1 (ix2 e j)
      = if h : j.val < 128 then x₁ (ix2 e ⟨j.val, h⟩)
        else if h2 : j.val < 256 then x₂ (ix2 e ⟨j.val - 128, by omega⟩)
        else x₃ (ix2 e ⟨j.val - 256, by have := j.isLt; omega⟩) := by
  have hj := j.isLt
  split_ifs with h h2
  · exact concatenate_apply_piece (t := S1024x1280) 1 [⟨S1024x128, x₁⟩, ⟨S1024x128, x₂⟩, ⟨S1024x1024, x₃⟩] concatenates_S1024x128_S1024x128_S1024x1024_S1024x1280_d1 (ix2 e j) 0 (by show (0 : ℕ) < 3; omega) S1024x128 x₁ rfl rfl 0 (by rfl)
      (ix2 e ⟨j.val, h⟩) (fun b hb => by match b with | ⟨0, _⟩ => rfl | ⟨1, _⟩ => exact absurd rfl hb) (by show 0 + j.val = j.val; omega)
  · exact concatenate_apply_piece (t := S1024x1280) 1 [⟨S1024x128, x₁⟩, ⟨S1024x128, x₂⟩, ⟨S1024x1024, x₃⟩] concatenates_S1024x128_S1024x128_S1024x1024_S1024x1280_d1 (ix2 e j) 1 (by show (1 : ℕ) < 3; omega) S1024x128 x₂ rfl rfl 128 (by rfl)
      (ix2 e ⟨j.val - 128, by omega⟩) (fun b hb => by match b with | ⟨0, _⟩ => rfl | ⟨1, _⟩ => exact absurd rfl hb) (by show 128 + (j.val - 128) = j.val; omega)
  · exact concatenate_apply_piece (t := S1024x1280) 1 [⟨S1024x128, x₁⟩, ⟨S1024x128, x₂⟩, ⟨S1024x1024, x₃⟩] concatenates_S1024x128_S1024x128_S1024x1024_S1024x1280_d1 (ix2 e j) 2 (by show (2 : ℕ) < 3; omega) S1024x1024 x₃ rfl rfl 256 (by rfl)
      (ix2 e ⟨j.val - 256, by omega⟩) (fun b hb => by match b with | ⟨0, _⟩ => rfl | ⟨1, _⟩ => exact absurd rfl hb) (by show 256 + (j.val - 256) = j.val; omega)

/-- Three vectors laid end to end: an entry below 128 is the first's, one below 256 the second's, any other the
    third's. -/
theorem concat_entries_apply {α : Type} (x₁ x₂ : S128.Idx → α) (x₃ : S1024.Idx → α) (j : Fin 1280) :
    concatenate S1280 0 [⟨S128, x₁⟩, ⟨S128, x₂⟩, ⟨S1024, x₃⟩] concatenates_S128_S128_S1024_S1280_d0 (ix1 j)
      = if h : j.val < 128 then x₁ (ix1 ⟨j.val, h⟩)
        else if h2 : j.val < 256 then x₂ (ix1 ⟨j.val - 128, by omega⟩)
        else x₃ (ix1 ⟨j.val - 256, by have := j.isLt; omega⟩) := by
  have hj := j.isLt
  split_ifs with h h2
  · exact concatenate_apply_piece (t := S1280) 0 [⟨S128, x₁⟩, ⟨S128, x₂⟩, ⟨S1024, x₃⟩] concatenates_S128_S128_S1024_S1280_d0 (ix1 j) 0 (by show (0 : ℕ) < 3; omega) S128 x₁ rfl rfl 0 (by rfl)
      (ix1 ⟨j.val, h⟩) (fun b hb => by match b with | ⟨0, _⟩ => exact absurd rfl hb) (by show 0 + j.val = j.val; omega)
  · exact concatenate_apply_piece (t := S1280) 0 [⟨S128, x₁⟩, ⟨S128, x₂⟩, ⟨S1024, x₃⟩] concatenates_S128_S128_S1024_S1280_d0 (ix1 j) 1 (by show (1 : ℕ) < 3; omega) S128 x₂ rfl rfl 128 (by rfl)
      (ix1 ⟨j.val - 128, by omega⟩) (fun b hb => by match b with | ⟨0, _⟩ => exact absurd rfl hb) (by show 128 + (j.val - 128) = j.val; omega)
  · exact concatenate_apply_piece (t := S1280) 0 [⟨S128, x₁⟩, ⟨S128, x₂⟩, ⟨S1024, x₃⟩] concatenates_S128_S128_S1024_S1280_d0 (ix1 j) 2 (by show (2 : ℕ) < 3; omega) S1024 x₃ rfl rfl 256 (by rfl)
      (ix1 ⟨j.val - 256, by omega⟩) (fun b hb => by match b with | ⟨0, _⟩ => exact absurd rfl hb) (by show 256 + (j.val - 256) = j.val; omega)

/-- The input with batch and row merged: row r is row r mod 4096 of batch r div 4096. -/
theorem merge_rows_apply {α : Type} (x : S4x4096x1024.Idx → α) (r : Fin 16384) (e : Fin 1024) :
    shapeCast S16384x1024 x shapeCasts_S4x4096x1024_S16384x1024 (ix2 r e)
      = x (ix3 ⟨r.val / 4096, by have := r.isLt; omega⟩ ⟨r.val % 4096, Nat.mod_lt _ (by decide)⟩ e) := by
  refine shapeCast_apply _ _ _ _ ?_
  rw [Shape.rowMajor_val_two, Shape.rowMajor_val_three]
  show (r.val / 4096 * 4096 + r.val % 4096) * 1024 + e.val = r.val * 1024 + e.val
  have := Nat.div_add_mod r.val 4096
  omega

/-! ## The buffers when the first region is entered -/

variable (m : (ℓ : Loc nD τ sig) → Buf (Elt Ideal) ℓ) (c : Dev nD)

/-- The region's input rows are the reshaped input. -/
theorem rows_at (r : Fin 16384) (e : Fin 1024) :
    StableHlo.after (hostOps0 (F := Ideal)) (fun b => m (c, b)) (Proc.devRef .tc main_v3) (ix2 r e)
      = m ((c : Thread nD τ).loc main_arg0) (ix3 ⟨r.val / 4096, by have := r.isLt; omega⟩ ⟨r.val % 4096, Nat.mod_lt _ (by decide)⟩ e) := by
  have t : (StableHlo.after (hostOps0 (F := Ideal)) (fun b => m (c, b)) (Proc.devRef .tc main_v3) : S16384x1024.Idx → EReal)
      = shapeCast S16384x1024 (m ((c : Thread nD τ).loc main_arg0)) shapeCasts_S4x4096x1024_S16384x1024 := by
    after_results; rfl
  rw [t]
  exact merge_rows_apply _ r e

/-- The region's weight is the three weights side by side. -/
theorem weight_at (e : Fin 1024) (j : Fin 1280) :
    StableHlo.after (hostOps0 (F := Ideal)) (fun b => m (c, b)) (Proc.devRef .tc main_v1) (ix2 e j)
      = if h : j.val < 128 then m ((c : Thread nD τ).loc main_arg1) (ix2 e ⟨j.val, h⟩)
        else if h2 : j.val < 256 then m ((c : Thread nD τ).loc main_arg3) (ix2 e ⟨j.val - 128, by omega⟩)
        else m ((c : Thread nD τ).loc main_arg5) (ix2 e ⟨j.val - 256, by have := j.isLt; omega⟩) := by
  have t : (StableHlo.after (hostOps0 (F := Ideal)) (fun b => m (c, b)) (Proc.devRef .tc main_v1) : S1024x1280.Idx → EReal)
      = truncf (F := Ideal) .bf16 (concatenate S1024x1280 1 [⟨S1024x128, (m ((c : Thread nD τ).loc main_arg1) : S1024x128.Idx → EReal)⟩,
          ⟨S1024x128, (m ((c : Thread nD τ).loc main_arg3) : S1024x128.Idx → EReal)⟩, ⟨S1024x1024, (m ((c : Thread nD τ).loc main_arg5) : S1024x1024.Idx → EReal)⟩]
          concatenates_S1024x128_S1024x128_S1024x1024_S1024x1280_d1) bitsLt_bf16_f32 := by
    after_results; rfl
  rw [t, truncf_apply]
  exact concat_columns_apply _ _ _ e j

/-- The region's bias is the three biases end to end. -/
theorem bias_at (j : Fin 1280) :
    StableHlo.after (hostOps0 (F := Ideal)) (fun b => m (c, b)) (Proc.devRef .tc main_v2) (ix1 j)
      = if h : j.val < 128 then m ((c : Thread nD τ).loc main_arg2) (ix1 ⟨j.val, h⟩)
        else if h2 : j.val < 256 then m ((c : Thread nD τ).loc main_arg4) (ix1 ⟨j.val - 128, by omega⟩)
        else m ((c : Thread nD τ).loc main_arg6) (ix1 ⟨j.val - 256, by have := j.isLt; omega⟩) := by
  have t : (StableHlo.after (hostOps0 (F := Ideal)) (fun b => m (c, b)) (Proc.devRef .tc main_v2) : S1280.Idx → EReal)
      = concatenate S1280 0 [⟨S128, (m ((c : Thread nD τ).loc main_arg2) : S128.Idx → EReal)⟩, ⟨S128, (m ((c : Thread nD τ).loc main_arg4) : S128.Idx → EReal)⟩,
          ⟨S1024, (m ((c : Thread nD τ).loc main_arg6) : S1024.Idx → EReal)⟩] concatenates_S128_S128_S1024_S1280_d0 := by
    after_results; rfl
  rw [t]
  exact concat_entries_apply _ _ _ j

/-! ## No host operation writes an argument -/

theorem arg0_kept : StableHlo.after (hostOps0 (F := Ideal)) (fun b => m (c, b)) (Proc.devRef .tc main_arg0) = m ((c : Thread nD τ).loc main_arg0) := by after_results
theorem arg1_kept : StableHlo.after (hostOps0 (F := Ideal)) (fun b => m (c, b)) (Proc.devRef .tc main_arg1) = m ((c : Thread nD τ).loc main_arg1) := by after_results
theorem arg2_kept : StableHlo.after (hostOps0 (F := Ideal)) (fun b => m (c, b)) (Proc.devRef .tc main_arg2) = m ((c : Thread nD τ).loc main_arg2) := by after_results
theorem arg3_kept : StableHlo.after (hostOps0 (F := Ideal)) (fun b => m (c, b)) (Proc.devRef .tc main_arg3) = m ((c : Thread nD τ).loc main_arg3) := by after_results
theorem arg4_kept : StableHlo.after (hostOps0 (F := Ideal)) (fun b => m (c, b)) (Proc.devRef .tc main_arg4) = m ((c : Thread nD τ).loc main_arg4) := by after_results
theorem arg5_kept : StableHlo.after (hostOps0 (F := Ideal)) (fun b => m (c, b)) (Proc.devRef .tc main_arg5) = m ((c : Thread nD τ).loc main_arg5) := by after_results
theorem arg6_kept : StableHlo.after (hostOps0 (F := Ideal)) (fun b => m (c, b)) (Proc.devRef .tc main_arg6) = m ((c : Thread nD τ).loc main_arg6) := by after_results

end Cert.Proof.KernelHostReads

end
-- ==== Proof.QueryKeyValueArrays.lean ====
/-
  The fused projection's columns are the three affine layers.

  The first kernel multiplies the input rows by ONE matrix, the three weights side by side (columns 0..127 the query
  weight, 128..255 the key weight, 256..1279 the value weight), and adds ONE vector, the three biases end to end.
  Column p of the fused product is therefore column p of the query layer, column 128 + p column p of the key layer,
  and column 256 + d column d of the value layer: in each case the sum over the 1024 input features only meets the
  one weight whose columns hold that index, and the bias entry is that layer's.

  Also here: an affine layer, a score and a row's largest score of real arrays are real numbers.
-/
import proofs.«174010_j37280316129900_2_alg».proof.Proof.AttentionSpec
import proofs.«174010_j37280316129900_2_alg».proof.Proof.LibIsReal

noncomputable section

namespace Cert.Proof.QueryKeyValueArrays

open Idealize.ShloMosaic Idealize.ShloMosaic.ValueIdx Cert.AttentionSpec

/-- The three weights side by side: entry (e, j) of the [1024, 1280] matrix. -/
def wcat (a1 a3 : (⟨2, ![1024, 128]⟩ : Shape).Idx → EReal) (a5 : (⟨2, ![1024, 1024]⟩ : Shape).Idx → EReal) (e : Fin 1024) (j : Fin 1280) : EReal :=
  if h : j.val < 128 then a1 (ix2 e ⟨j.val, h⟩)
  else if h2 : j.val < 256 then a3 (ix2 e ⟨j.val - 128, by omega⟩)
  else a5 (ix2 e ⟨j.val - 256, by have := j.isLt; omega⟩)

/-- The three biases end to end: entry j of the vector of 1280. -/
def bcat (a2 a4 : (⟨1, ![128]⟩ : Shape).Idx → EReal) (a6 : (⟨1, ![1024]⟩ : Shape).Idx → EReal) (j : Fin 1280) : EReal :=
  if h : j.val < 128 then a2 (ix1 ⟨j.val, h⟩)
  else if h2 : j.val < 256 then a4 (ix1 ⟨j.val - 128, by omega⟩)
  else a6 (ix1 ⟨j.val - 256, by have := j.isLt; omega⟩)

section Columns

variable (a1 a3 : (⟨2, ![1024, 128]⟩ : Shape).Idx → EReal) (a5 : (⟨2, ![1024, 1024]⟩ : Shape).Idx → EReal)
variable (a2 a4 : (⟨1, ![128]⟩ : Shape).Idx → EReal) (a6 : (⟨1, ![1024]⟩ : Shape).Idx → EReal)

/-- A column below 128 of the side-by-side weight is the query weight's. -/
theorem wcat_query (e : Fin 1024) (p : Fin 128) (h : p.val < 1280) : wcat a1 a3 a5 e ⟨p.val, h⟩ = a1 (ix2 e p) := by
  unfold wcat
  rw [dif_pos (show (⟨p.val, h⟩ : Fin 1280).val < 128 from p.isLt)]

/-- Column 128 + p is the key weight's column p. -/
theorem wcat_key (e : Fin 1024) (p : Fin 128) (h : 128 + p.val < 1280) : wcat a1 a3 a5 e ⟨128 + p.val, h⟩ = a3 (ix2 e p) := by
  have hp := p.isLt
  unfold wcat
  rw [dif_neg (show ¬ (⟨128 + p.val, h⟩ : Fin 1280).val < 128 from by show ¬ 128 + p.val < 128; omega),
    dif_pos (show (⟨128 + p.val, h⟩ : Fin 1280).val < 256 from by show 128 + p.val < 256; omega)]
  exact congrArg a3 (congrArg (ix2 e) (Fin.ext (by show 128 + p.val - 128 = p.val; omega)))

/-- Column 256 + d is the value weight's column d. -/
theorem wcat_value (e : Fin 1024) (d : Fin 1024) (h : 256 + d.val < 1280) : wcat a1 a3 a5 e ⟨256 + d.val, h⟩ = a5 (ix2 e d) := by
  have hd := d.isLt
  unfold wcat
  rw [dif_neg (show ¬ (⟨256 + d.val, h⟩ : Fin 1280).val < 128 from by show ¬ 256 + d.val < 128; omega),
    dif_neg (show ¬ (⟨256 + d.val, h⟩ : Fin 1280).val < 256 from by show ¬ 256 + d.val < 256; omega)]
  exact congrArg a5 (congrArg (ix2 e) (Fin.ext (by show 256 + d.val - 256 = d.val; omega)))

/-- An entry below 128 of the end-to-end bias is the query bias's. -/
theorem bcat_query (p : Fin 128) (h : p.val < 1280) : bcat a2 a4 a6 ⟨p.val, h⟩ = a2 (ix1 p) := by
  unfold bcat
  rw [dif_pos (show (⟨p.val, h⟩ : Fin 1280).val < 128 from p.isLt)]

/-- Entry 128 + p is the key bias's entry p. -/
theorem bcat_key (p : Fin 128) (h : 128 + p.val < 1280) : bcat a2 a4 a6 ⟨128 + p.val, h⟩ = a4 (ix1 p) := by
  have hp := p.isLt
  unfold bcat
  rw [dif_neg (show ¬ (⟨128 + p.val, h⟩ : Fin 1280).val < 128 from by show ¬ 128 + p.val < 128; omega),
    dif_pos (show (⟨128 + p.val, h⟩ : Fin 1280).val < 256 from by show 128 + p.val < 256; omega)]
  exact congrArg a4 (congrArg ix1 (Fin.ext (by show 128 + p.val - 128 = p.val; omega)))

/-- Entry 256 + d is the value bias's entry d. -/
theorem bcat_value (d : Fin 1024) (h : 256 + d.val < 1280) : bcat a2 a4 a6 ⟨256 + d.val, h⟩ = a6 (ix1 d) := by
  have hd := d.isLt
  unfold bcat
  rw [dif_neg (show ¬ (⟨256 + d.val, h⟩ : Fin 1280).val < 128 from by show ¬ 256 + d.val < 128; omega),
    dif_neg (show ¬ (⟨256 + d.val, h⟩ : Fin 1280).val < 256 from by show ¬ 256 + d.val < 256; omega)]
  exact congrArg a6 (congrArg ix1 (Fin.ext (by show 256 + d.val - 256 = d.val; omega)))

end Columns

/-! ## The fused product's columns as the three layers -/

/-- Column p of the fused product is the query layer. -/
theorem fused_query_eq_lin (a0 : (⟨3, ![4, 4096, 1024]⟩ : Shape).Idx → EReal) (a1 : (⟨2, ![1024, 128]⟩ : Shape).Idx → EReal) (a2 : (⟨1, ![128]⟩ : Shape).Idx → EReal)
    (a3 : (⟨2, ![1024, 128]⟩ : Shape).Idx → EReal) (a4 : (⟨1, ![128]⟩ : Shape).Idx → EReal) (a5 : (⟨2, ![1024, 1024]⟩ : Shape).Idx → EReal) (a6 : (⟨1, ![1024]⟩ : Shape).Idx → EReal)
    (b : Fin 4) (s : Fin 4096) (p : Fin 128) (h : p.val < 1280) :
    (∑ e : Fin 1024, a0 (ix3 b s e) * wcat a1 a3 a5 e ⟨p.val, h⟩) + bcat a2 a4 a6 ⟨p.val, h⟩
      = lin (fun b s e => a0 (ix3 b s e)) (fun e p => a1 (ix2 e p)) (fun p => a2 (ix1 p)) b s p := by
  show _ = (∑ e : Fin 1024, a0 (ix3 b s e) * a1 (ix2 e p)) + a2 (ix1 p)
  rw [bcat_query]
  exact congrArg (· + a2 (ix1 p)) (Finset.sum_congr rfl fun e _ => by rw [wcat_query])

/-- Column 128 + p of the fused product is the key layer. -/
theorem fused_key_eq_lin (a0 : (⟨3, ![4, 4096, 1024]⟩ : Shape).Idx → EReal) (a1 : (⟨2, ![1024, 128]⟩ : Shape).Idx → EReal) (a2 : (⟨1, ![128]⟩ : Shape).Idx → EReal)
    (a3 : (⟨2, ![1024, 128]⟩ : Shape).Idx → EReal) (a4 : (⟨1, ![128]⟩ : Shape).Idx → EReal) (a5 : (⟨2, ![1024, 1024]⟩ : Shape).Idx → EReal) (a6 : (⟨1, ![1024]⟩ : Shape).Idx → EReal)
    (b : Fin 4) (s : Fin 4096) (p : Fin 128) (h : 128 + p.val < 1280) :
    (∑ e : Fin 1024, a0 (ix3 b s e) * wcat a1 a3 a5 e ⟨128 + p.val, h⟩) + bcat a2 a4 a6 ⟨128 + p.val, h⟩
      = lin (fun b s e => a0 (ix3 b s e)) (fun e p => a3 (ix2 e p)) (fun p => a4 (ix1 p)) b s p := by
  show _ = (∑ e : Fin 1024, a0 (ix3 b s e) * a3 (ix2 e p)) + a4 (ix1 p)
  rw [bcat_key]
  exact congrArg (· + a4 (ix1 p)) (Finset.sum_congr rfl fun e _ => by rw [wcat_key])

/-- Column 256 + d of the fused product is the value layer. -/
theorem fused_value_eq_lin (a0 : (⟨3, ![4, 4096, 1024]⟩ : Shape).Idx → EReal) (a1 : (⟨2, ![1024, 128]⟩ : Shape).Idx → EReal) (a2 : (⟨1, ![128]⟩ : Shape).Idx → EReal)
    (a3 : (⟨2, ![1024, 128]⟩ : Shape).Idx → EReal) (a4 : (⟨1, ![128]⟩ : Shape).Idx → EReal) (a5 : (⟨2, ![1024, 1024]⟩ : Shape).Idx → EReal) (a6 : (⟨1, ![1024]⟩ : Shape).Idx → EReal)
    (b : Fin 4) (s : Fin 4096) (d : Fin 1024) (h : 256 + d.val < 1280) :
    (∑ e : Fin 1024, a0 (ix3 b s e) * wcat a1 a3 a5 e ⟨256 + d.val, h⟩) + bcat a2 a4 a6 ⟨256 + d.val, h⟩
      = lin (fun b s e => a0 (ix3 b s e)) (fun e p => a5 (ix2 e p)) (fun p => a6 (ix1 p)) b s d := by
  show _ = (∑ e : Fin 1024, a0 (ix3 b s e) * a5 (ix2 e d)) + a6 (ix1 d)
  rw [bcat_value]
  exact congrArg (· + a6 (ix1 d)) (Finset.sum_congr rfl fun e _ => by rw [wcat_value])

/-! ## Real arrays give real layers, scores and row maxima -/

/-- An affine layer of real arrays has real entries. -/
theorem lin_isReal {n : ℕ} (a0 : (⟨3, ![4, 4096, 1024]⟩ : Shape).Idx → EReal) (W : (⟨2, ![1024, n]⟩ : Shape).Idx → EReal)
    (β : (⟨1, ![n]⟩ : Shape).Idx → EReal) (h0 : ∀ i, IsReal (a0 i)) (hW : ∀ i, IsReal (W i)) (hβ : ∀ i, IsReal (β i))
    (b : Fin 4) (s : Fin 4096) (j : Fin n) :
    IsReal (lin (fun b s e => a0 (ix3 b s e)) (fun e p => W (ix2 e p)) (fun p => β (ix1 p)) b s j) :=
  (IsReal.sum_mul (fun e => h0 (ix3 b s e)) (fun e => hW (ix2 e j))).add (hβ (ix1 j))

/-- A score of queries and keys with real entries is a real number. -/
theorem score_isReal {Q K : Fin 4 → Fin 4096 → Fin 128 → EReal} (hQ : ∀ b s p, IsReal (Q b s p))
    (hK : ∀ b s p, IsReal (K b s p)) (b : Fin 4) (q k : Fin 4096) : IsReal (score Q K b q k) :=
  (IsReal.sum_mul (fun p => hQ b q p) (fun p => hK b k p)).mul (IsReal.coe _)

/-- The scores of the layers of real argument arrays are real numbers. -/
theorem score_lin_isReal (a0 : (⟨3, ![4, 4096, 1024]⟩ : Shape).Idx → EReal) (a1 : (⟨2, ![1024, 128]⟩ : Shape).Idx → EReal) (a2 : (⟨1, ![128]⟩ : Shape).Idx → EReal)
    (a3 : (⟨2, ![1024, 128]⟩ : Shape).Idx → EReal) (a4 : (⟨1, ![128]⟩ : Shape).Idx → EReal)
    (h0 : ∀ i, IsReal (a0 i)) (h1 : ∀ i, IsReal (a1 i)) (h2 : ∀ i, IsReal (a2 i)) (h3 : ∀ i, IsReal (a3 i))
    (h4 : ∀ i, IsReal (a4 i)) (b : Fin 4) (q k : Fin 4096) :
    IsReal (score (lin (fun b s e => a0 (ix3 b s e)) (fun e p => a1 (ix2 e p)) (fun p => a2 (ix1 p))) (lin (fun b s e => a0 (ix3 b s e)) (fun e p => a3 (ix2 e p)) (fun p => a4 (ix1 p))) b q k) :=
  score_isReal (lin_isReal a0 a1 a2 h0 h1 h2) (lin_isReal a0 a3 a4 h0 h3 h4) b q k

/-- The largest of a row of real scores is a real number. -/
theorem top_isReal {S : Fin 4096 → EReal} (hS : ∀ k, IsReal (S k)) : IsReal (top S) :=
  IsReal.sup Finset.univ_nonempty fun k _ => hS k

end Cert.Proof.QueryKeyValueArrays

end
-- ==== Proof.LibRowsMerged.lean ====
/-
  Merging and splitting the two leading axes of an array, read at an index.

  A reshape keeps the row-major order of the entries. So the [a·b, n] reshape of an [a, b, n] array has at row p·b + q,
  column e, the entry (p, q, e); and the [a, b, n] reshape of an [a·b, n] array has at (p, q, e) the entry at row
  p·b + q, column e. Stated for any entry type and any extents; the merged row count is its own variable, so the lemmas
  apply whether a shape spells it as a product or as a numeral.
-/
import Idealize.ShloMosaic.Lib.Pipeline.Value
import Idealize.ShloMosaic.Lib.ValueIdx

noncomputable section

namespace Cert.LibRowsMerged

open Idealize.ShloMosaic Idealize.ShloMosaic.ValueIdx

/-- The two leading axes merged: row `p·b + q` of the reshape is row `q` of plane `p`. -/
theorem merge_rows_apply {α : Type} {a b n ab : Nat} (x : (⟨3, ![a, b, n]⟩ : Shape).Idx → α)
    (h : (⟨3, ![a, b, n]⟩ : Shape).ShapeCasts ⟨2, ![ab, n]⟩) (p : Fin a) (q : Fin b) (e : Fin n) (r : Fin ab)
    (hr : r.val = p.val * b + q.val) :
    shapeCast ⟨2, ![ab, n]⟩ x h (ix2 r e) = x (ix3 p q e) :=
  shapeCast_apply x h _ _ (by
    rw [Shape.rowMajor_val_three, Shape.rowMajor_val_two]
    show (p.val * b + q.val) * n + e.val = r.val * n + e.val
    rw [hr])

/-- The leading axis split in two: entry `(p, q, e)` of the reshape is row `p·b + q`, column `e`. -/
theorem split_rows_apply {α : Type} {a b n ab : Nat} (x : (⟨2, ![ab, n]⟩ : Shape).Idx → α)
    (h : (⟨2, ![ab, n]⟩ : Shape).ShapeCasts ⟨3, ![a, b, n]⟩) (p : Fin a) (q : Fin b) (e : Fin n) (r : Fin ab)
    (hr : r.val = p.val * b + q.val) :
    shapeCast ⟨3, ![a, b, n]⟩ x h (ix3 p q e) = x (ix2 r e) :=
  shapeCast_apply x h _ _ (by
    rw [Shape.rowMajor_val_three, Shape.rowMajor_val_two]
    show r.val * n + e.val = (p.val * b + q.val) * n + e.val
    rw [hr])

end Cert.LibRowsMerged

end
-- ==== Proof.AttentionPieces.lean ====
/-
  What each case of the attention body leaves in each buffer it stores into, as the body's own arithmetic applied
  to what the buffers held: the new running maximum, the new running sum, the new accumulator — from the three input
  blocks and the old maximum, sum and accumulator (or, at a first key tile, from minus infinity, zero and zero) — and,
  at a last key tile, the output block: the new accumulator divided by the new sum.
-/
import proofs.«174010_j37280316129900_2_alg».proof.Proof.AttentionRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle key tile -/

theorem mid_max (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_mid_s0 c i arg3 harg3 arg4 harg4 arg5 harg5 arg6 harg6 arg7 harg7 arg8 harg8 arg9 harg9 hc0 hc1 x0 x1 x2 xs0 xs1 xs2 = k1_pay2 (k1_pay9 x0 x1 xs0) := by
  unfold out1_mid_s0
  rw [View.read_writes_eq_canon _ _ _ (cover1_mid_s0 c i arg3 harg3 arg4 harg4 arg5 harg5 arg6 harg6 arg7 harg7 arg8 harg8 arg9 harg9 hc0 hc1 x0 x1 x2 xs0 xs1 xs2)]
  unfold kernelRun1_mid
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem mid_sum (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_mid_s1 c i arg3 harg3 arg4 harg4 arg5 harg5 arg6 harg6 arg7 harg7 arg8 harg8 arg9 harg9 hc0 hc1 x0 x1 x2 xs0 xs1 xs2 = k1_pay12 x0 x1 xs0 xs0 xs1 := by
  unfold out1_mid_s1
  rw [View.read_writes_eq_canon _ _ _ (cover1_mid_s1 c i arg3 harg3 arg4 harg4 arg5 harg5 arg6 harg6 arg7 harg7 arg8 harg8 arg9 harg9 hc0 hc1 x0 x1 x2 xs0 xs1 xs2)]
  unfold kernelRun1_mid
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem mid_acc (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_mid_s2 c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold out1_mid_s2
  rw [View.read_writes_eq_canon _ _ _ (cover1_mid_s2 c i arg3 harg3 arg4 harg4 arg5 harg5 arg6 harg6 arg7 harg7 arg8 harg8 arg9 harg9 hc0 hc1 x0 x1 x2 xs0 xs1 xs2)]
  unfold kernelRun1_mid
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

/-! ## A last key tile -/

theorem last_max (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_last_s0 c i arg3 harg3 arg4 harg4 arg5 harg5 arg6 harg6 arg7 harg7 arg8 harg8 arg9 harg9 hc0 hc1 x0 x1 x2 xs0 xs1 xs2 = k1_pay2 (k1_pay9 x0 x1 xs0) := by
  unfold out1_last_s0
  rw [View.read_writes_eq_canon _ _ _ (cover1_last_s0 c i arg3 harg3 arg4 harg4 arg5 harg5 arg6 harg6 arg7 harg7 arg8 harg8 arg9 harg9 hc0 hc1 x0 x1 x2 xs0 xs1 xs2)]
  unfold kernelRun1_last
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem last_sum (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_last_s1 c i arg3 harg3 arg4 harg4 arg5 harg5 arg6 harg6 arg7 harg7 arg8 harg8 arg9 harg9 hc0 hc1 x0 x1 x2 xs0 xs1 xs2 = k1_pay12 x0 x1 xs0 xs0 xs1 := by
  unfold out1_last_s1
  rw [View.read_writes_eq_canon _ _ _ (cover1_last_s1 c i arg3 harg3 arg4 harg4 arg5 harg5 arg6 harg6 arg7 harg7 arg8 harg8 arg9 harg9 hc0 hc1 x0 x1 x2 xs0 xs1 xs2)]
  unfold kernelRun1_last
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem last_acc (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_last_s2 c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold out1_last_s2
  rw [View.read_writes_eq_canon _ _ _ (cover1_last_s2 c i arg3 harg3 arg4 harg4 arg5 harg5 arg6 harg6 arg7 harg7 arg8 harg8 arg9 harg9 hc0 hc1 x0 x1 x2 xs0 xs1 xs2)]
  unfold kernelRun1_last
  dsimp only
  sl_unfold_words
  rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem last_out (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x128 .bf16) (x1 : Vec F S1x512x128 .bf16) (x2 : Vec F S1x512x1024 .bf16)
    (xs0 : Vec F S1024x1 .f32) (xs1 : Vec F S1024x1 .f32) (xs2 : Vec F S1024x1024 .f32) :
    out1_last_o3 c i arg3 harg3 arg4 harg4 arg5 harg5 arg6 harg6 arg7 harg7 arg8 harg8 arg9 harg9 hc0 hc1 x0 x1 x2 xs0 xs1 xs2 = k1_pay3 (k1_pay1 (k1_pay7 x2) (k1_pay10 x0 x1 xs0 xs0) (k1_pay11 x0 x1 xs0) xs2) (k1_pay12 x0 x1 xs0 xs0 xs1) := by
  unfold out1_last_o3
  rw [View.read_writes_eq_canon _ _ _ (cover1_last_o3 c i arg3 harg3 arg4 harg4 arg5 harg5 arg6 harg6 arg7 harg7 arg8 harg8 arg9 harg9 hc0 hc1 x0 x1 x2 xs0 xs1 xs2)]
  unfold kernelRun1_last
  dsimp only
  sl_unfold_words
  rw [View.canon_unit_zero hz3]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

/-! ## A first key tile: from minus infinity, zero and zero -/

theorem first_max (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) :
    out1_first_s0 c i arg3 harg3 arg4 harg4 arg5 harg5 arg6 harg6 arg7 harg7 arg8 harg8 arg9 harg9 hc0 hc1 x0 x1 x2 = k1_pay2 (k1_pay9 x0 x1 k1_pay4) := by
  unfold out1_first_s0
  rw [View.read_writes_eq_canon _ _ _ (cover1_first_s0 c i arg3 harg3 arg4 harg4 arg5 harg5 arg6 harg6 arg7 harg7 arg8 harg8 arg9 harg9 hc0 hc1 x0 x1 x2)]
  unfold kernelRun1_first
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem first_sum (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) :
    out1_first_s1 c i arg3 harg3 arg4 harg4 arg5 harg5 arg6 harg6 arg7 harg7 arg8 harg8 arg9 harg9 hc0 hc1 x0 x1 x2 = k1_pay12 x0 x1 k1_pay4 k1_pay4 k1_pay5 := by
  unfold out1_first_s1
  rw [View.read_writes_eq_canon _ _ _ (cover1_first_s1 c i arg3 harg3 arg4 harg4 arg5 harg5 arg6 harg6 arg7 harg7 arg8 harg8 arg9 harg9 hc0 hc1 x0 x1 x2)]
  unfold kernelRun1_first
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

theorem first_acc (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x128 .bf16) (x1 : Vec F S1x512x128 .bf16) (x2 : Vec F S1x512x1024 .bf16) :
    out1_first_s2 c i arg3 harg3 arg4 harg4 arg5 harg5 arg6 harg6 arg7 harg7 arg8 harg8 arg9 harg9 hc0 hc1 x0 x1 x2 = k1_pay1 (k1_pay7 x2) (k1_pay10 x0 x1 k1_pay4 k1_pay4) (k1_pay11 x0 x1 k1_pay4) k1_pay6 := by
  unfold out1_first_s2
  rw [View.read_writes_eq_canon _ _ _ (cover1_first_s2 c i arg3 harg3 arg4 harg4 arg5 harg5 arg6 harg6 arg7 harg7 arg8 harg8 arg9 harg9 hc0 hc1 x0 x1 x2)]
  unfold kernelRun1_first
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread,
    View.ld_unit_zero (S := S1024x1) hz2, View.ld_unit_zero (S := S1024x1024) hz2, View.ld_unit_zero (S := S1x1024x128) hz3, View.ld_unit_zero (S := S1x512x128) hz3, View.ld_unit_zero (S := S1x512x1024) hz3, View.ld_unit_zero (S := S1x1024x1024) hz3]

end Cert.KernelIdeal.Hand

end
-- ==== Proof.AttentionArray.lean ====
/-
  The second pallas_call, from blocks to arrays.

  A grid point is 32·b + 8·qt + kt (batch b, query tile qt, key tile kt). The query window and the output window sit
  at block (b, qt) — rows 1024·qt .. 1024·qt + 1023 of batch b —, the key and value windows at block (b, kt) — rows
  512·kt .. 512·kt + 511. So each input block, read at a position inside the block, is its array read at the block's
  offset plus the position; and the one point that writes output row s of batch b back is the last key tile of query
  tile s / 1024, the point 32·b + 8·(s / 1024) + 7. Every output index is covered by exactly that point's block, so
  the result array is one function: at (b, s, d), what that point left in the output window's buffer at row s mod 1024.
-/
import proofs.«174010_j37280316129900_2_alg».proof.Proof.AttentionPieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The four windows' block indices at every point. -/
theorem idx_facts1 : ∀ t : Fin cfg1.N,
    win1_0.index t (0 : Fin 3) = t.val / 32 ∧ win1_0.index t (1 : Fin 3) = t.val / 8 % 4 ∧ win1_0.index t (2 : Fin 3) = 0
    ∧ win1_1.index t (0 : Fin 3) = t.val / 32 ∧ win1_1.index t (1 : Fin 3) = t.val % 8 ∧ win1_1.index t (2 : Fin 3) = 0
    ∧ win1_2.index t (0 : Fin 3) = t.val / 32 ∧ win1_2.index t (1 : Fin 3) = t.val % 8 ∧ win1_2.index t (2 : Fin 3) = 0
    ∧ win1_3.index t (0 : Fin 3) = t.val / 32 ∧ win1_3.index t (1 : Fin 3) = t.val / 8 % 4 ∧ win1_3.index t (2 : Fin 3) = 0 :=
  (by decide +kernel : ∀ t : Fin grid1.N, _)

theorem lt128 (t : Fin cfg1.N) : t.val < 128 := lt_of_lt_of_eq t.isLt (show cfg1.N = 128 from N_1)

/-! ## The input blocks, read off their arrays -/

/-- The query block at a point: rows 1024·qt + r of batch b of the query array. -/
theorem qblk_apply (c : Dev nD) (t : Fin cfg1.N) (r : Fin 1024) (p : Fin 128) :
    (iblk1 V c 0 t : Vec F S1x1024x128 .bf16) (ix3 (0 : Fin 1) r p)
      = (V c (Pipeline.arrRef spec1 0) : S4x4096x128.Idx → Elt F .bf16)
          (ix3 (⟨t.val / 32, by have := lt128 t; omega⟩ : Fin 4) (⟨1024 * (t.val / 8 % 4) + r.val, by have := r.isLt; omega⟩ : Fin 4096) p) := by
  obtain ⟨e0, e1, e2, -⟩ := idx_facts1 t
  show (V c (Pipeline.arrRef spec1 0) : S4x4096x128.Idx → Elt F .bf16) (((cfg1.win 0).blk t).view.emb (ix3 (0 : Fin 1) r p)) = _
  refine congrArg _ ?_
  funext a; apply Fin.ext
  match a with
  | ⟨0, _⟩ => show win1_0.index t (0 : Fin 3) * 1 + 1 * 0 = t.val / 32; omega
  | ⟨1, _⟩ => show win1_0.index t (1 : Fin 3) * 1024 + 1 * r.val = 1024 * (t.val / 8 % 4) + r.val; omega
  | ⟨2, _⟩ => show win1_0.index t (2 : Fin 3) * 128 + 1 * p.val = p.val; omega

/-- The key block at a point: rows 512·kt + j of batch b of the key array. -/
theorem kblk_apply (c : Dev nD) (t : Fin cfg1.N) (j : Fin 512) (p : Fin 128) :
    (iblk1 V c 1 t : Vec F S1x512x128 .bf16) (ix3 (0 : Fin 1) j p)
      = (V c (Pipeline.arrRef spec1 1) : S4x4096x128.Idx → Elt F .bf16)
          (ix3 (⟨t.val / 32, by have := lt128 t; omega⟩ : Fin 4) (⟨512 * (t.val % 8) + j.val, by have := j.isLt; omega⟩ : Fin 4096) p) := by
  obtain ⟨-, -, -, e0, e1, e2, -⟩ := idx_facts1 t
  show (V c (Pipeline.arrRef spec1 1) : S4x4096x128.Idx → Elt F .bf16) (((cfg1.win 1).blk t).view.emb (ix3 (0 : Fin 1) j p)) = _
  refine congrArg _ ?_
  funext a; apply Fin.ext
  match a with
  | ⟨0, _⟩ => show win1_1.index t (0 : Fin 3) * 1 + 1 * 0 = t.val / 32; omega
  | ⟨1, _⟩ => show win1_1.index t (1 : Fin 3) * 512 + 1 * j.val = 512 * (t.val % 8) + j.val; omega
  | ⟨2, _⟩ => show win1_1.index t (2 : Fin 3) * 128 + 1 * p.val = p.val; omega

/-- The value block at a point: rows 512·kt + j of batch b of the value array. -/
theorem vblk_apply (c : Dev nD) (t : Fin cfg1.N) (j : Fin 512) (d : Fin 1024) :
    (iblk1 V c 2 t : Vec F S1x512x1024 .bf16) (ix3 (0 : Fin 1) j d)
      = (V c (Pipeline.arrRef spec1 2) : S4x4096x1024.Idx → Elt F .bf16)
          (ix3 (⟨t.val / 32, by have := lt128 t; omega⟩ : Fin 4) (⟨512 * (t.val % 8) + j.val, by have := j.isLt; omega⟩ : Fin 4096) d) := by
  obtain ⟨-, -, -, -, -, -, e0, e1, e2, -⟩ := idx_facts1 t
  show (V c (Pipeline.arrRef spec1 2) : S4x4096x1024.Idx → Elt F .bf16) (((cfg1.win 2).blk t).view.emb (ix3 (0 : Fin 1) j d)) = _
  refine congrArg _ ?_
  funext a; apply Fin.ext
  match a with
  | ⟨0, _⟩ => show win1_2.index t (0 : Fin 3) * 1 + 1 * 0 = t.val / 32; omega
  | ⟨1, _⟩ => show win1_2.index t (1 : Fin 3) * 512 + 1 * j.val = 512 * (t.val % 8) + j.val; omega
  | ⟨2, _⟩ => show win1_2.index t (2 : Fin 3) * 1024 + 1 * d.val = d.val; omega

/-! ## The result array -/

/-- What the output window's buffer holds after position `n` (a placeholder beyond the grid). -/
def outAt (c : Dev nD) (n : ℕ) : Vec F S1x1024x1024 .f32 := if h : n < cfg1.N then (outsAt1 V c n h).1 else idle3

theorem outAt_eq (c : Dev nD) (t : Fin cfg1.N) (n : ℕ) (e : n = t.val) : outAt V c n = (outsAt1 V c t.val t.isLt).1 := by
  subst e; exact dif_pos t.isLt

/-- The result array as one function: at (b, s, d), what the last key tile of query tile s / 1024 left at row s mod 1024. -/
def resultArr (c : Dev nD) : S4x4096x1024.Idx → Elt F .f32 := fun i =>
  outAt V c (32 * (i 0).val + 8 * ((i 1).val / 1024) + 7)
    (ix3 (0 : Fin 1) (⟨(i 1).val % 1024, Nat.mod_lt _ (by decide)⟩ : Fin 1024) (⟨(i 2).val, (i 2).isLt⟩ : Fin 1024))

/-- What a last-key-tile point writes back is its block of that function. -/
theorem flushed1_eq (c : Dev nD) (t : Fin cfg1.N) (hf : (cfg1.win 3).flush t = true) :
    (dat1 V c).flushed 3 t = ((cfg1.win 3).blk t).view.read (Elt F) (resultArr V c) := by
  have h7 : t.val % 8 = 7 := (flush1_3 t).mp hf
  have hN := lt128 t
  obtain ⟨-, -, -, -, -, -, -, -, -, e0, e1, e2⟩ := idx_facts1 t
  show (cfg1.win 3).cut (grid1.coords t) ((dat1 V c).after 3 t) = _
  rw [after1_3]
  funext j
  show (outsAt1 V c t.val t.isLt).1 j = resultArr V c (((cfg1.win 3).blk t).view.emb j)
  have hj0 : (j 0).val < 1 := (j 0).isLt
  have hj1 : (j 1).val < 1024 := (j 1).isLt
  have hj2 : (j 2).val < 1024 := (j 2).isLt
  have c0 : ((((cfg1.win 3).blk t).view.emb j) 0).val = t.val / 32 := by
    show win1_3.index t (0 : Fin 3) * 1 + 1 * (j 0).val = _; omega
  have c1 : ((((cfg1.win 3).blk t).view.emb j) 1).val = 1024 * (t.val / 8 % 4) + (j 1).val := by
    show win1_3.index t (1 : Fin 3) * 1024 + 1 * (j 1).val = _; omega
  have c2 : ((((cfg1.win 3).blk t).view.emb j) 2).val = (j 2).val := by
    show win1_3.index t (2 : Fin 3) * 1024 + 1 * (j 2).val = _; omega
  unfold resultArr
  rw [outAt_eq V c t _ (by rw [c0, c1]; omega)]
  refine congrArg _ ?_
  funext a; apply Fin.ext
  match a with
  | ⟨0, _⟩ => show (j 0).val = 0; omega
  | ⟨1, _⟩ => show (j 1).val = ((((cfg1.win 3).blk t).view.emb j) 1).val % 1024; rw [c1]; omega
  | ⟨2, _⟩ => show (j 2).val = ((((cfg1.win 3).blk t).view.emb j) 2).val; rw [c2]

/-- An index of the result array is in a point's block iff each coordinate is in the block's range. -/
theorem mem_blk1 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v8).slice (win1_3.rect t)).set ↔ _
  rw [View.set_slice_whole, Rect.mem_set_unit]
  exact Iff.rfl

/-- The result array after the region: every index is covered by the last key tile of its query tile. -/
theorem final1 (c : Dev nD) : (dat1 V c).arrAt 3 cfg1.N = resultArr V c :=
  (dat1 V c).arrAt_eq_of_cover 3 (resultArr V c) (fun t hf => flushed1_eq V c t hf) fun i => by
    have h0 : (i 0).val < 4 := (i 0).isLt
    have h1 : (i 1).val < 4096 := (i 1).isLt
    have h2 : (i 2).val < 1024 := (i 2).isLt
    have hlt : 32 * (i 0).val + 8 * ((i 1).val / 1024) + 7 < cfg1.N := by rw [show cfg1.N = 128 from N_1]; omega
    refine ⟨⟨32 * (i 0).val + 8 * ((i 1).val / 1024) + 7, hlt⟩, (flush1_3 _).mpr (by show (32 * (i 0).val + 8 * ((i 1).val / 1024) + 7) % 8 = 7; omega), ?_⟩
    rw [mem_blk1]
    obtain ⟨-, -, -, -, -, -, -, -, -, e0, e1, e2⟩ := idx_facts1 ⟨32 * (i 0).val + 8 * ((i 1).val / 1024) + 7, hlt⟩
    have e0' : win1_3.index ⟨32 * (i 0).val + 8 * ((i 1).val / 1024) + 7, hlt⟩ (0 : Fin 3) = (i 0).val := by rw [e0]; show (32 * (i 0).val + 8 * ((i 1).val / 1024) + 7) / 32 = _; omega
    have e1' : win1_3.index ⟨32 * (i 0).val + 8 * ((i 1).val / 1024) + 7, hlt⟩ (1 : Fin 3) = (i 1).val / 1024 := by rw [e1]; show (32 * (i 0).val + 8 * ((i 1).val / 1024) + 7) / 8 % 4 = _; omega
    intro a
    match a with
    | ⟨0, _⟩ => show win1_3.index _ (0 : Fin 3) * 1 ≤ (i 0).val ∧ (i 0).val < win1_3.index _ (0 : Fin 3) * 1 + 1; rw [e0']; omega
    | ⟨1, _⟩ => show win1_3.index _ (1 : Fin 3) * 1024 ≤ (i 1).val ∧ (i 1).val < win1_3.index _ (1 : Fin 3) * 1024 + 1024; rw [e1']; omega
    | ⟨2, _⟩ => show win1_3.index _ (2 : Fin 3) * 1024 ≤ (i 2).val ∧ (i 2).val < win1_3.index _ (2 : Fin 3) * 1024 + 1024; rw [e2]; omega

end Cert.KernelIdeal.Hand

end
-- ==== Proof.LibStreamingSoftmax.lean ====
/-
  The streaming ("online") form of the two statistics a softmax needs, over the extended reals.

  A row of logits is met one tile at a time. The state is a pair `(m, l)`, started at `(⊥, 0)`; a tile `v` (a finite
  family of extended reals, none of them `⊤`; an entry `⊥` is a column that does not count) moves it to

      m' = max m (sup v),      l' = l * exp (m - m') + ∑ j, exp (v j - m').

  If the first tile has a real entry, then after all the tiles `m` is the supremum `M` of every entry met, `M` is a
  real number, and `l = ∑ tiles, ∑ j, exp (v j - M)`: the running sum, rescaled by `exp (m - m')` each time the
  maximum moves, is the sum of the exponentials shifted by the FINAL maximum. An entry `⊥` adds `exp ⊥ = 0` and
  never moves the maximum, so masked columns are neutral for both statistics.

  The proof goes through the reals: for `x ≠ ⊤` and a real `a`, `exp (x - a)` is the real `w x a` (zero at `⊥`,
  `Real.exp (x - a)` otherwise), and `w x a * Real.exp (a - a') = w x a'` is `Real.exp_add`; the sums are finite
  sums of reals, where multiplication distributes.
-/
import Idealize.ShloMosaic.PureOps.Ideal

noncomputable section

namespace Idealize.ShloMosaic.StreamingSoftmax

open Idealize.ShloMosaic

variable {ι : Type} [Fintype ι]

/-- One tile's move of the state `(m, l)`. -/
def step (s : EReal × EReal) (v : ι → EReal) : EReal × EReal :=
  (max s.1 (Finset.univ.sup v),
    s.2 * Ideal.exp (s.1 - max s.1 (Finset.univ.sup v)) + ∑ j, Ideal.exp (v j - max s.1 (Finset.univ.sup v)))

/-- The supremum of every entry of the tiles of `P`. -/
def supAll (P : List (ι → EReal)) : EReal := (P.map fun v => Finset.univ.sup v).foldl max ⊥

/-- The sum over the tiles of `P` of the exponentials shifted by `M`. -/
def sumAll (P : List (ι → EReal)) (M : EReal) : EReal := (P.map fun v => ∑ j, Ideal.exp (v j - M)).sum

/-- `exp (x - a)` as a real number, for `x` a real or `⊥`. -/
def w (x : EReal) (a : ℝ) : ℝ := if x = ⊥ then 0 else Real.exp (x.toReal - a)

theorem exp_sub_coe {x : EReal} (hx : x ≠ ⊤) (a : ℝ) : Ideal.exp (x - (a : EReal)) = ((w x a : ℝ) : EReal) := by
  induction x using EReal.rec with
  | bot => simp [w]
  | coe r =>
    have h : ((r : ℝ) : EReal) ≠ ⊥ := EReal.coe_ne_bot r
    rw [← EReal.coe_sub, Ideal.exp_coe, w, if_neg h, EReal.toReal_coe]
  | top => exact absurd rfl hx

theorem w_mul_exp (x : EReal) (a a' : ℝ) : w x a * Real.exp (a - a') = w x a' := by
  unfold w
  split
  · simp
  · rw [← Real.exp_add]; congr 1; ring

theorem w_nonneg (x : EReal) (a : ℝ) : 0 ≤ w x a := by
  unfold w; split
  · exact le_rfl
  · exact (Real.exp_pos _).le

/-! ## Finite sums of coerced reals -/

theorem coe_finset_sum {α : Type} (s : Finset α) (f : α → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A tile's shifted sum is a real number. -/
theorem tile_sum_coe {v : ι → EReal} (hv : ∀ j, v j ≠ ⊤) (a : ℝ) :
    ∑ j, Ideal.exp (v j - (a : EReal)) = ((∑ j, w (v j) a : ℝ) : EReal) := by
  rw [coe_finset_sum]
  exact Finset.sum_congr rfl fun j _ => exp_sub_coe (hv j) a

/-- The sum over the tiles of `P` of the shifted exponentials, in the reals. -/
def sumR (P : List (ι → EReal)) (a : ℝ) : ℝ := (P.map fun v => ∑ j, w (v j) a).sum

theorem sumAll_coe (P : List (ι → EReal)) (hP : ∀ v ∈ P, ∀ j, v j ≠ ⊤) (a : ℝ) :
    sumAll P (a : EReal) = ((sumR P a : ℝ) : EReal) := by
  induction P with
  | nil => simp [sumAll, sumR]
  | cons v P ih =>
    have h1 := tile_sum_coe (hP v (List.mem_cons.mpr (Or.inl rfl))) a
    have h2 := ih fun u hu => hP u (List.mem_cons.mpr (Or.inr hu))
    simp only [sumAll, sumR, List.map_cons, List.sum_cons] at h2 ⊢
    rw [h1, h2, EReal.coe_add]

/-- Moving the shift from `a` to `a'` multiplies every term, hence the sum, by `exp (a - a')`. -/
theorem sumR_mul (P : List (ι → EReal)) (a a' : ℝ) : sumR P a * Real.exp (a - a') = sumR P a' := by
  induction P with
  | nil => simp [sumR]
  | cons v P ih =>
    simp only [sumR, List.map_cons, List.sum_cons] at ih ⊢
    rw [add_mul, ih, Finset.sum_mul]
    congr 1
    exact Finset.sum_congr rfl fun j _ => w_mul_exp (v j) a a'

/-! ## The maximum -/

theorem sup_ne_top {v : ι → EReal} (hv : ∀ j, v j ≠ ⊤) : Finset.univ.sup v ≠ ⊤ := by
  have h : Finset.univ.sup v < ⊤ :=
    (Finset.sup_lt_iff bot_lt_top).mpr fun j _ => lt_top_iff_ne_top.mpr (hv j)
  exact h.ne

theorem max_coe_real (a : ℝ) {y : EReal} (hy : y ≠ ⊤) : ∃ a' : ℝ, max (a : EReal) y = a' := by
  induction y using EReal.rec with
  | bot => exact ⟨a, max_eq_left bot_le⟩
  | coe r => exact ⟨max a r, (EReal.coe_strictMono.monotone.map_max (a := a) (b := r)).symm⟩
  | top => exact absurd rfl hy

theorem supAll_append_singleton (P : List (ι → EReal)) (v : ι → EReal) :
    supAll (P ++ [v]) = max (supAll P) (Finset.univ.sup v) := by
  simp [supAll, List.foldl_append]

theorem sumAll_append_singleton (P : List (ι → EReal)) (v : ι → EReal) (M : EReal) :
    sumAll (P ++ [v]) M = sumAll P M + ∑ j, Ideal.exp (v j - M) := by
  simp [sumAll, List.sum_append]

/-! ## One tile, then all of them -/

/-- One tile keeps the invariant: from the supremum and the shifted sum of the tiles met so far (the supremum a
    real) to those of the tiles with the new one. -/
theorem step_eq (P : List (ι → EReal)) (v : ι → EReal) (a : ℝ) (hPa : supAll P = (a : EReal))
    (hP : ∀ u ∈ P, ∀ j, u j ≠ ⊤) (hv : ∀ j, v j ≠ ⊤) :
    step (supAll P, sumAll P (supAll P)) v = (supAll (P ++ [v]), sumAll (P ++ [v]) (supAll (P ++ [v]))) := by
  obtain ⟨a', ha'⟩ := max_coe_real a (sup_ne_top hv)
  rw [supAll_append_singleton, sumAll_append_singleton, hPa]
  unfold step
  simp only
  rw [ha', sumAll_coe P hP a, sumAll_coe P hP a', ← EReal.coe_sub, Ideal.exp_coe, ← EReal.coe_mul, sumR_mul]

theorem foldl_step (L : List (ι → EReal)) : ∀ (P : List (ι → EReal)) (a : ℝ), supAll P = (a : EReal) →
    (∀ u ∈ P, ∀ j, u j ≠ ⊤) → (∀ u ∈ L, ∀ j, u j ≠ ⊤) →
    L.foldl step (supAll P, sumAll P (supAll P)) = (supAll (P ++ L), sumAll (P ++ L) (supAll (P ++ L)))
      ∧ ∃ a' : ℝ, supAll (P ++ L) = a' := by
  induction L with
  | nil => intro P a hPa _ _; simpa using ⟨a, hPa⟩
  | cons v L ih =>
    intro P a hPa hP hL
    have hv := hL v (List.mem_cons.mpr (Or.inl rfl))
    have hL' : ∀ u ∈ L, ∀ j, u j ≠ ⊤ := fun u hu => hL u (List.mem_cons.mpr (Or.inr hu))
    obtain ⟨a', ha'⟩ := max_coe_real a (sup_ne_top hv)
    have hPv : supAll (P ++ [v]) = (a' : EReal) := by rw [supAll_append_singleton, hPa, ha']
    have hP' : ∀ u ∈ P ++ [v], ∀ j, u j ≠ ⊤ := by
      intro u hu
      rcases List.mem_append.mp hu with h | h
      · exact hP u h
      · rw [List.mem_singleton.mp h]; exact hv
    have key := ih (P ++ [v]) a' hPv hP' hL'
    rw [List.foldl_cons, step_eq P v a hPa hP hv]
    simpa [List.append_assoc] using key

/-- THE STREAMING FORM. From `(⊥, 0)`, over tiles none of whose entries is `⊤` and the first of which has an entry
    that is not `⊥`: the state ends at the supremum `M` of every entry, which is a real number, and at the sum over
    every entry of `exp (entry - M)`. -/
theorem foldl_step_init (v₀ : ι → EReal) (L : List (ι → EReal)) (h₀ : ∃ j, v₀ j ≠ ⊥)
    (hv : ∀ u ∈ v₀ :: L, ∀ j, u j ≠ ⊤) :
    (v₀ :: L).foldl step (⊥, 0) = (supAll (v₀ :: L), sumAll (v₀ :: L) (supAll (v₀ :: L)))
      ∧ ∃ a : ℝ, supAll (v₀ :: L) = a := by
  have hv₀ := hv v₀ (List.mem_cons.mpr (Or.inl rfl))
  have hL : ∀ u ∈ L, ∀ j, u j ≠ ⊤ := fun u hu => hv u (List.mem_cons.mpr (Or.inr hu))
  obtain ⟨j₀, hj₀⟩ := h₀
  have hne_bot : Finset.univ.sup v₀ ≠ ⊥ := fun h =>
    hj₀ (le_bot_iff.mp (h ▸ Finset.le_sup (f := v₀) (Finset.mem_univ j₀)))
  obtain ⟨a, ha⟩ : ∃ a : ℝ, Finset.univ.sup v₀ = a :=
    ⟨_, (EReal.coe_toReal (sup_ne_top hv₀) hne_bot).symm⟩
  have hs : supAll [v₀] = (a : EReal) := by simp [supAll, ha]
  have h1 : step ((⊥ : EReal), (0 : EReal)) v₀ = (supAll [v₀], sumAll [v₀] (supAll [v₀])) := by
    simp [step, supAll, sumAll]
  have key := foldl_step L [v₀] a hs (by intro u hu; rw [List.mem_singleton.mp hu]; exact hv₀) hL
  rw [List.foldl_cons, h1]
  simpa using key

/-! ## The same over a sequence of tiles indexed by the naturals

The form an induction over the points of a grid meets: the state after `k` tiles, by recursion on `k`. -/

/-- The state after the first `k` tiles of the sequence `x`. -/
def run (x : ℕ → ι → EReal) : ℕ → EReal × EReal
  | 0 => (⊥, 0)
  | k + 1 => step (run x k) (x k)

theorem run_eq_foldl (x : ℕ → ι → EReal) (k : ℕ) :
    run x k = ((List.range k).map x).foldl step (⊥, 0) := by
  induction k with
  | zero => rfl
  | succ k ih => rw [run, ih, List.range_succ, List.map_append, List.foldl_append]; rfl

theorem supAll_range (x : ℕ → ι → EReal) (k : ℕ) :
    supAll ((List.range k).map x) = (Finset.range k).sup fun i => Finset.univ.sup (x i) := by
  induction k with
  | zero => simp [supAll]
  | succ k ih =>
    rw [List.range_succ, List.map_append, List.map_singleton, supAll_append_singleton, ih, Finset.range_add_one,
      Finset.sup_insert]
    exact max_comm _ _

theorem sumAll_range (x : ℕ → ι → EReal) (k : ℕ) (M : EReal) :
    sumAll ((List.range k).map x) M = ∑ i ∈ Finset.range k, ∑ j, Ideal.exp (x i j - M) := by
  induction k with
  | zero => simp [sumAll]
  | succ k ih =>
    rw [List.range_succ, List.map_append, List.map_singleton, sumAll_append_singleton, ih, Finset.sum_range_succ]

/-- After `k + 1` tiles, none of whose entries is `⊤` and the first of which has an entry that is not `⊥`: the
    supremum of every entry met is a real `a`, and the state is `a` beside the sum of every `exp (entry - a)`. -/
theorem run_succ (x : ℕ → ι → EReal) (k : ℕ) (h₀ : ∃ j, x 0 j ≠ ⊥) (hx : ∀ i, i ≤ k → ∀ j, x i j ≠ ⊤) :
    ∃ a : ℝ, ((Finset.range (k + 1)).sup fun i => Finset.univ.sup (x i)) = (a : EReal) ∧
      run x (k + 1) = ((a : EReal), ∑ i ∈ Finset.range (k + 1), ∑ j, Ideal.exp (x i j - (a : EReal))) := by
  have hr : (List.range (k + 1)).map x = x 0 :: (List.range k).map (fun i => x (i + 1)) := by
    rw [List.range_succ_eq_map, List.map_cons, List.map_map]; rfl
  have hall : ∀ u ∈ (List.range (k + 1)).map x, ∀ j, u j ≠ ⊤ := by
    intro u hu
    obtain ⟨i, hi, rfl⟩ := List.mem_map.mp hu
    exact hx i (Nat.lt_succ_iff.mp (List.mem_range.mp hi))
  have key := foldl_step_init (x 0) ((List.range k).map fun i => x (i + 1)) h₀ (hr ▸ hall)
  rw [← hr] at key
  obtain ⟨hfold, a, ha⟩ := key
  refine ⟨a, by rw [← supAll_range, ha], ?_⟩
  rw [run_eq_foldl, hfold, ha, sumAll_range]

end Idealize.ShloMosaic.StreamingSoftmax

end
-- ==== Proof.LibStreamingWeighted.lean ====
/-
  A weighted accumulator that rides on a streaming maximum, over the extended reals.

  Beside the running maximum `m` of the tiles met so far, the state carries `A`, and a tile `v` with weights `c`
  moves it to

      m' = max m (sup v),      A' = exp (m - m') * A + ∑ j, c j * exp (v j - m').

  If the weights are real numbers, no entry is `⊤` and the first tile has an entry that is not `⊥`, then after all
  the tiles `A = ∑ tiles, ∑ j, c j * exp (v j - M)` with `M` the overall supremum, a real number: each time the
  maximum moves, everything accumulated so far is rescaled by `exp (m - m')`, and on the reals
  `exp (x - m) * exp (m - m') = exp (x - m')` and multiplication distributes over the finite sums.
  With every weight `1` this is the running sum of exponentials of the streaming softmax.
-/
import proofs.«174010_j37280316129900_2_alg».proof.Proof.LibStreamingSoftmax
import proofs.«174010_j37280316129900_2_alg».proof.Proof.LibIsReal

noncomputable section

namespace Idealize.ShloMosaic.StreamingSoftmax

open Idealize.ShloMosaic

variable {ι : Type} [Fintype ι]

/-- One tile's move of the state `(m, A)`. -/
def stepW (s : EReal × EReal) (v c : ι → EReal) : EReal × EReal :=
  (max s.1 (Finset.univ.sup v),
    Ideal.exp (s.1 - max s.1 (Finset.univ.sup v)) * s.2 + ∑ j, c j * Ideal.exp (v j - max s.1 (Finset.univ.sup v)))

/-- The state after the first `k` tiles of the sequence `x` with weights `c`. -/
def runW (x c : ℕ → ι → EReal) : ℕ → EReal × EReal
  | 0 => (⊥, 0)
  | k + 1 => stepW (runW x c k) (x k) (c k)

/-- The maximum of the weighted state is the streaming softmax's. -/
theorem runW_fst (x c : ℕ → ι → EReal) (k : ℕ) : (runW x c k).1 = (run x k).1 := by
  induction k with
  | zero => rfl
  | succ k ih =>
    show max (runW x c k).1 (Finset.univ.sup (x k)) = max (run x k).1 (Finset.univ.sup (x k))
    rw [ih]

/-! ## The weighted sums, in the reals

With real weights, no entry `⊤` and a real shift `a`, every term `c i j * exp (x i j - a)` is the real number
`(c i j).toReal * w (x i j) a`, so the double sum over a finite set of tiles is the coercion of a real double sum;
and moving the shift from `a` to `a'` multiplies that real sum by `exp (a - a')`. -/

/-- The weighted sum over the tiles of `s`, shifted by a real `a`, is a real number. -/
theorem wsum_coe (x c : ℕ → ι → EReal) (s : Finset ℕ) (hx : ∀ i ∈ s, ∀ j, x i j ≠ ⊤)
    (hc : ∀ i ∈ s, ∀ j, IsReal (c i j)) (a : ℝ) :
    ∑ i ∈ s, ∑ j, c i j * Ideal.exp (x i j - (a : EReal))
      = ((∑ i ∈ s, ∑ j, (c i j).toReal * w (x i j) a : ℝ) : EReal) := by
  rw [coe_finset_sum]
  refine Finset.sum_congr rfl fun i hi => ?_
  rw [coe_finset_sum]
  refine Finset.sum_congr rfl fun j _ => ?_
  obtain ⟨r, hr⟩ := hc i hi j
  rw [exp_sub_coe (hx i hi j) a, hr, EReal.toReal_coe, EReal.coe_mul]

/-- Moving the shift from `a` to `a'` multiplies every term, hence the weighted sum, by `exp (a - a')`. -/
theorem wsum_mul (x c : ℕ → ι → EReal) (s : Finset ℕ) (a a' : ℝ) :
    Real.exp (a - a') * ∑ i ∈ s, ∑ j, (c i j).toReal * w (x i j) a
      = ∑ i ∈ s, ∑ j, (c i j).toReal * w (x i j) a' := by
  rw [Finset.mul_sum]
  refine Finset.sum_congr rfl fun i _ => ?_
  rw [Finset.mul_sum]
  refine Finset.sum_congr rfl fun j _ => ?_
  rw [← w_mul_exp (x i j) a a']
  ring

/-- After `k + 1` tiles with real weights, none of whose entries is `⊤` and the first of which has an entry that is
    not `⊥`: the supremum of every entry met is a real `a`, and the state is `a` beside the sum of every
    `c · exp (entry - a)`. -/
theorem runW_succ (x c : ℕ → ι → EReal) (k : ℕ) (h₀ : ∃ j, x 0 j ≠ ⊥) (hx : ∀ i, i ≤ k → ∀ j, x i j ≠ ⊤)
    (hc : ∀ i, i ≤ k → ∀ j, IsReal (c i j)) :
    ∃ a : ℝ, ((Finset.range (k + 1)).sup fun i => Finset.univ.sup (x i)) = (a : EReal) ∧
      runW x c (k + 1) = ((a : EReal), ∑ i ∈ Finset.range (k + 1), ∑ j, c i j * Ideal.exp (x i j - (a : EReal))) := by
  induction k with
  | zero =>
    -- one tile: the maximum is the tile's supremum, a real, and nothing has been accumulated before it
    obtain ⟨a, ha, -⟩ := run_succ x 0 h₀ hx
    have ha0 : Finset.univ.sup (x 0) = (a : EReal) := by simpa using ha
    refine ⟨a, ha, ?_⟩
    show stepW ((⊥ : EReal), (0 : EReal)) (x 0) (c 0) = _
    unfold stepW
    simp [ha0]
  | succ k ih =>
    obtain ⟨a, ha, hrun⟩ := ih (fun i hi => hx i (Nat.le_succ_of_le hi)) (fun i hi => hc i (Nat.le_succ_of_le hi))
    have hv : ∀ j, x (k + 1) j ≠ ⊤ := hx (k + 1) le_rfl
    obtain ⟨a', ha'⟩ := max_coe_real a (sup_ne_top hv)
    have hxs : ∀ i ∈ Finset.range (k + 1), ∀ j, x i j ≠ ⊤ := fun i hi =>
      hx i (Nat.le_succ_of_le (Nat.lt_succ_iff.mp (Finset.mem_range.mp hi)))
    have hcs : ∀ i ∈ Finset.range (k + 1), ∀ j, IsReal (c i j) := fun i hi =>
      hc i (Nat.le_succ_of_le (Nat.lt_succ_iff.mp (Finset.mem_range.mp hi)))
    refine ⟨a', ?_, ?_⟩
    · rw [Finset.range_add_one, Finset.sup_insert, ha, ← ha']
      exact max_comm _ _
    · -- the new maximum is `a'`; what was accumulated against `a` is rescaled by `exp (a - a')`
      rw [show runW x c (k + 1 + 1) = stepW (runW x c (k + 1)) (x (k + 1)) (c (k + 1)) from rfl, hrun]
      unfold stepW
      simp only
      rw [ha', Finset.sum_range_succ (fun i => ∑ j, c i j * Ideal.exp (x i j - (a' : EReal))) (k + 1),
        wsum_coe x c _ hxs hcs a, wsum_coe x c _ hxs hcs a', ← EReal.coe_sub, Ideal.exp_coe, ← EReal.coe_mul,
        wsum_mul]

end Idealize.ShloMosaic.StreamingSoftmax

end
-- ==== Proof.ColumnLayout.lean ====
/-
  Column layouts read at an index, and the two constants a row maximum starts from.

  A vector of `a` entries viewed as a column `[a, 1]` reads its entry at the row; a column `[a, 1]` broadcast along the
  rows of `[a, b]` reads the column's entry at the row. The binary32 word of minus infinity denotes the bottom of the
  extended reals, so a fold of `max` started there is the supremum.
-/
import Idealize.ShloMosaic.Lib.Pipeline.Value
import Idealize.ShloMosaic.Lib.ValueIdx
import Idealize.ShloMosaic.PureOps.Ideal.Laws

noncomputable section

namespace Cert.Proof.ColumnLayout

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The binary32 word of minus infinity is the bottom of the extended reals. -/
theorem ofBits_neg_inf_f32 : Ideal.ofBits .f32 0xFF800000#32 = (⊥ : EReal) := by simp [Ideal.ofBits, Ideal.ieee]

/-- A fold of `max` from the bottom is the supremum. -/
theorem fold_max_bot {ι : Type} (s : Finset ι) (f : ι → EReal) : s.fold max (⊥ : EReal) f = s.sup f := rfl

end Cert.Proof.ColumnLayout

end
-- ==== Proof.AttentionStepPayload.lean ====
/-
  One tile's move of the attention body, read entry by entry.

  For query row `r` of the tile, the 512 scores against the key tile are
      tileScore q kk r j = (Σ_p q(0,r,p) · kk(0,j,p)) · scale.
  The body's new running maximum is the old one against the largest of them; its new running sum and its new
  accumulator are the old ones rescaled by exp(old maximum − new maximum) plus the tile's sum of exp(score − new
  maximum), resp. of those weights against the value tile: the streaming softmax's step and its weighted companion.
  At the last tile the output is the accumulator over the running sum, and at the first tile the three carried
  buffers start at −∞, 0 and 0.
-/
import proofs.«174010_j37280316129900_2_alg».proof.Proof.Gen.KernelIdeal.Skeleton
import proofs.«174010_j37280316129900_2_alg».proof.Proof.AttentionSpec
import proofs.«174010_j37280316129900_2_alg».proof.Proof.LibStreamingWeighted
import proofs.«174010_j37280316129900_2_alg».proof.Proof.ColumnLayout
import proofs.«174010_j37280316129900_2_alg».proof.Proof.MatmulAtIndex
import Idealize.ShloMosaic.Lib.Pipeline.Value
import Idealize.ShloMosaic.Lib.ValueIdx
import Idealize.ShloMosaic.Lib.ValueLayout
import Idealize.ShloMosaic.PureOps.Ideal.Laws

noncomputable section

namespace Cert.Proof.AttentionStepPayload

open Cert.KernelIdeal Cert.KernelIdeal.Gen Idealize.ShloMosaic Idealize.ShloMosaic.ValueIdx
open Idealize.ShloMosaic.StreamingSoftmax Cert.Proof.ColumnLayout Cert.Proof.MatmulAtIndex

/-- The kernel's named multiplier of the scores denotes one over the other program's divisor. -/
theorem inv_ref_divisor :
    Named.named (F := Ideal) Cert.KernelIdeal.κ "inv_ref_divisor" (φ := .f32) 0x3DB504F3#32 = Cert.AttentionSpec.scale :=
  IdealRules.named_const.ideal_named_scalar _ _ _ _ rfl

/-- The score of query row `r` of the tile against key row `j` of the tile. -/
def tileScore (q : Vec Ideal S1x1024x128 .bf16) (kk : Vec Ideal S1x512x128 .bf16) (r : Fin 1024) (j : Fin 512) : EReal :=
  (∑ p : Fin 128, q (ix3 (0 : Fin 1) r p) * kk (ix3 (0 : Fin 1) j p)) * Cert.AttentionSpec.scale

/-- The scores the body computes are the scaled inner products. -/
theorem scores_apply (q : Vec Ideal S1x1024x128 .bf16) (kk : Vec Ideal S1x512x128 .bf16) (r : Fin 1024) (j : Fin 512) :
    k1_pay8 (F := Ideal) q kk (ix2 r j) = tileScore q kk r j := by
  unfold k1_pay8 tileScore
  show (matmul dot_S1024x128_S128x512_S1024x512_1_0_0_1_n_n none (shapeCast S1024x128 q shapeCasts_S1x1024x128_S1024x128)
        (transpose S128x512 [1, 0] (shapeCast S512x128 kk shapeCasts_S1x512x128_S512x128) transposes_S512x128_p1_0_S128x512)
        (constant (F := Ideal) S1024x512 .f32 0x00000000#32) (ix2 r j))
      * Named.named (F := Ideal) κ "inv_ref_divisor" (φ := .f32) 0x3DB504F3#32 = _
  rw [scores_matmul, inv_ref_divisor]
  refine congrArg (· * Cert.AttentionSpec.scale) (Finset.sum_congr rfl fun p _ => ?_)
  rw [shapeCast_1ab_ab_apply, transpose_ix2_apply, shapeCast_1ab_ab_apply]

/-- A row maximum of a [1024, 512] tile, started at −∞, is the supremum of the row. -/
theorem rowMax_apply (src : FVec Ideal S1024x512 .f32) (r : Fin 1024) :
    multiReduction .maximumf [1] S1024 src 0xFF800000#32 reduces_S1024x512_S1024 (.inl rfl) rfl (ix1 r)
      = Finset.univ.sup fun j : Fin 512 => src (ix2 r j) := by
  refine (Ideal.multiReduction_maximumf_single src 0xFF800000#32 reduces_S1024x512_S1024 (.inl rfl) rfl (ix1 r)).trans ?_
  rw [Ideal.ofBits_def, ofBits_neg_inf_f32, fold_max_bot]
  refine Finset.sup_congr rfl fun j _ => congrArg src (funext fun a => Fin.ext ?_)
  match a with
  | ⟨0, _⟩ => rfl
  | ⟨1, _⟩ => rfl

/-- A row sum of a [1024, 512] tile is the sum over the row. -/
theorem rowSum_apply (src : FVec Ideal S1024x512 .f32) (r : Fin 1024) :
    multiReduction .add [1] S1024 src 0x00000000#32 reduces_S1024x512_S1024 (.inl rfl) rfl (ix1 r)
      = ∑ j : Fin 512, src (ix2 r j) := by
  refine (Ideal.multiReduction_add_single src 0x00000000#32 reduces_S1024x512_S1024 (.inl rfl) rfl (ix1 r)).trans ?_
  refine Finset.sum_congr rfl fun j _ => congrArg src (funext fun a => Fin.ext ?_)
  match a with
  | ⟨0, _⟩ => rfl
  | ⟨1, _⟩ => rfl

/-- The body's new running maximum: the old one against the largest score of the row. -/
theorem runMax_apply (q : Vec Ideal S1x1024x128 .bf16) (kk : Vec Ideal S1x512x128 .bf16) (m : Vec Ideal S1024x1 .f32)
    (r : Fin 1024) :
    k1_pay9 (F := Ideal) q kk m (ix2 r (0 : Fin 1)) = max (m (ix2 r (0 : Fin 1))) (Finset.univ.sup fun j => tileScore q kk r j) := by
  unfold k1_pay9
  refine (maximumf_apply _ _ _).trans (congrArg (max (m (ix2 r (0 : Fin 1)))) ?_)
  refine (shapeCast_a_a1_apply _ _ r 0).trans ((rowMax_apply _ r).trans ?_)
  exact Finset.sup_congr rfl fun j _ => scores_apply q kk r j

/-- The running maximum is the first component of the streaming step. -/
theorem runMax_eq_step (q : Vec Ideal S1x1024x128 .bf16) (kk : Vec Ideal S1x512x128 .bf16) (m l : Vec Ideal S1024x1 .f32)
    (r : Fin 1024) :
    k1_pay9 (F := Ideal) q kk m (ix2 r (0 : Fin 1))
      = (step (m (ix2 r (0 : Fin 1)), l (ix2 r (0 : Fin 1))) (tileScore q kk r)).1 := runMax_apply q kk m r

/-- The body's rescaling factor: exp(old maximum − new maximum), the old maximum read from `m'`. -/
theorem rescale_apply (q : Vec Ideal S1x1024x128 .bf16) (kk : Vec Ideal S1x512x128 .bf16) (m m' : Vec Ideal S1024x1 .f32)
    (r : Fin 1024) :
    k1_pay10 (F := Ideal) q kk m m' (ix2 r (0 : Fin 1))
      = Ideal.exp (m' (ix2 r (0 : Fin 1)) - k1_pay9 (F := Ideal) q kk m (ix2 r (0 : Fin 1))) := rfl

/-- The body's weights: exp(score − new maximum). -/
theorem weight_apply (q : Vec Ideal S1x1024x128 .bf16) (kk : Vec Ideal S1x512x128 .bf16) (m : Vec Ideal S1024x1 .f32)
    (r : Fin 1024) (j : Fin 512) :
    k1_pay11 (F := Ideal) q kk m (ix2 r j)
      = Ideal.exp (tileScore q kk r j - k1_pay9 (F := Ideal) q kk m (ix2 r (0 : Fin 1))) := by
  unfold k1_pay11
  show Ideal.exp (k1_pay8 (F := Ideal) q kk (ix2 r j)
      - broadcastTo S1024x512 (k1_pay9 (F := Ideal) q kk m) broadcasts_S1024x1_S1024x512 (ix2 r j)) = _
  rw [scores_apply, broadcastTo_a1_ab_apply]

/-- The body's new running sum is the second component of the streaming step. -/
theorem runSum_apply (q : Vec Ideal S1x1024x128 .bf16) (kk : Vec Ideal S1x512x128 .bf16) (m l : Vec Ideal S1024x1 .f32)
    (r : Fin 1024) :
    k1_pay12 (F := Ideal) q kk m m l (ix2 r (0 : Fin 1))
      = (step (m (ix2 r (0 : Fin 1)), l (ix2 r (0 : Fin 1))) (tileScore q kk r)).2 := by
  unfold k1_pay12
  rw [shapeCast_self]
  show k1_pay10 (F := Ideal) q kk m m (ix2 r (0 : Fin 1)) * l (ix2 r (0 : Fin 1))
      + shapeCast S1024x1 (multiReduction .add [1] S1024 (k1_pay11 (F := Ideal) q kk m) 0x00000000#32
          reduces_S1024x512_S1024 (.inl rfl) rfl) shapeCasts_S1024_S1024x1 (ix2 r (0 : Fin 1)) = _
  rw [rescale_apply, (shapeCast_a_a1_apply _ _ r 0).trans (rowSum_apply _ r), runMax_apply, mul_comm]
  simp only [weight_apply, runMax_apply]
  rfl

/-- The value tile viewed as a matrix reads the tile at its one leading coordinate. -/
theorem values_apply (v : Vec Ideal S1x512x1024 .bf16) (j : Fin 512) (d : Fin 1024) :
    k1_pay7 (F := Ideal) v (ix2 j d) = v (ix3 (0 : Fin 1) j d) := by
  unfold k1_pay7
  exact shapeCast_1ab_ab_apply _ _ j d

/-- The body's new accumulator is the second component of the weighted streaming step against the value tile. -/
theorem acc_apply (q : Vec Ideal S1x1024x128 .bf16) (kk : Vec Ideal S1x512x128 .bf16) (v : Vec Ideal S1x512x1024 .bf16)
    (m : Vec Ideal S1024x1 .f32) (acc : Vec Ideal S1024x1024 .f32) (r : Fin 1024) (d : Fin 1024) :
    k1_pay1 (F := Ideal) (k1_pay7 (F := Ideal) v) (k1_pay10 (F := Ideal) q kk m m) (k1_pay11 (F := Ideal) q kk m) acc (ix2 r d)
      = (stepW (m (ix2 r (0 : Fin 1)), acc (ix2 r d)) (tileScore q kk r) (fun j => v (ix3 (0 : Fin 1) j d))).2 := by
  unfold k1_pay1
  rw [shapeCast_self]
  show broadcastTo S1024x1024 (k1_pay10 (F := Ideal) q kk m m) broadcasts_S1024x1_S1024x1024 (ix2 r d) * acc (ix2 r d)
      + matmul dot_S1024x512_S512x1024_S1024x1024_1_0_0_1_n_n none
          (truncf .bf16 (k1_pay11 (F := Ideal) q kk m) bitsLt_bf16_f32) (k1_pay7 (F := Ideal) v)
          (constant (F := Ideal) S1024x1024 .f32 0x00000000#32) (ix2 r d) = _
  rw [broadcastTo_a1_ab_apply, weighted_matmul, rescale_apply, runMax_apply]
  simp only [truncf_apply, weight_apply, runMax_apply, values_apply]
  refine congrArg (_ + ·) (Finset.sum_congr rfl fun j _ => mul_comm _ _)

/-- At the last tile the output entry is the accumulator over the running sum. -/
theorem out_apply (acc : Vec Ideal S1024x1024 .f32) (l : Vec Ideal S1024x1 .f32) (r : Fin 1024) (d : Fin 1024) :
    k1_pay3 (F := Ideal) acc l (ix3 (0 : Fin 1) r d) = Ideal.div (acc (ix2 r d)) (l (ix2 r (0 : Fin 1))) := by
  unfold k1_pay3
  refine (shapeCast_ab_1ab_apply _ _ 0 r d).trans ?_
  show Ideal.div (acc (ix2 r d)) (broadcastTo S1024x1024 l broadcasts_S1024x1_S1024x1024 (ix2 r d)) = _
  rw [broadcastTo_a1_ab_apply]

/-- At the first tile the running maximum starts at −∞ … -/
theorem initMax_apply (r : Fin 1024) : k1_pay4 (F := Ideal) (ix2 r (0 : Fin 1)) = (⊥ : EReal) := by
  unfold k1_pay4
  rw [shapeCast_self]
  exact ofBits_neg_inf_f32

/-- … the running sum at zero … -/
theorem initSum_apply (r : Fin 1024) : k1_pay5 (F := Ideal) (ix2 r (0 : Fin 1)) = (0 : EReal) := by
  unfold k1_pay5
  rw [shapeCast_self]
  exact Ideal.ofBits_zero_f32

/-- … and the accumulator at zero. -/
theorem initAcc_apply (r : Fin 1024) (d : Fin 1024) : k1_pay6 (F := Ideal) (ix2 r d) = (0 : EReal) := by
  unfold k1_pay6
  rw [shapeCast_self]
  exact Ideal.ofBits_zero_f32

/-- The new running maximum is stored as it is. -/
theorem carryMax_eq (y : FVec Ideal S1024x1 .f32) : k1_pay2 (F := Ideal) y = y := by
  unfold k1_pay2
  exact shapeCast_self _ _

end Cert.Proof.AttentionStepPayload

end
-- ==== Proof.StreamingToSpec.lean ====
/-
  The streaming recurrence over eight tiles of 512 brought to the attention specification.

  A row of 4096 scores `S` and 4096 values `V` is met as eight tiles of 512: tile `i` holds the entries
  `512 * i + j`, `j < 512`. A supremum over the row is the supremum over the tiles of the tile suprema, and a sum
  over the row is the sum over the tiles of the tile sums. With every score and value a real number, the streaming
  state after the eight tiles is the row's largest score beside the sum of the shifted exponentials, and the weighted
  state is the sum of the values weighted by them: their quotient is the attention output of the row.
-/
import proofs.«174010_j37280316129900_2_alg».proof.Proof.AttentionSpec
import proofs.«174010_j37280316129900_2_alg».proof.Proof.LibStreamingWeighted

noncomputable section

namespace Cert.Proof.StreamingToSpec

open Idealize.ShloMosaic Idealize.ShloMosaic.StreamingSoftmax

/-- Tile `i` of a row of 4096 entries: the entries `512 * i + j`, `j < 512` (zero past the eighth tile). -/
def tile (G : Fin 4096 → EReal) (i : ℕ) (j : Fin 512) : EReal :=
  if h : i < 8 then G ⟨512 * i + j.val, by have := j.isLt; omega⟩ else 0

theorem tile_eq (G : Fin 4096 → EReal) (i : ℕ) (hi : i < 8) (j : Fin 512) :
    tile G i j = G ⟨512 * i + j.val, by have := j.isLt; omega⟩ := dif_pos hi

/-- A sum over the row is the sum over the eight tiles of the sums over each tile. -/
theorem sum_tiles (G : Fin 4096 → EReal) (g : ℕ → Fin 512 → EReal)
    (hg : ∀ (i : ℕ) (hi : i < 8) (j : Fin 512), g i j = G ⟨512 * i + j.val, by have := j.isLt; omega⟩) :
    ∑ i ∈ Finset.range 8, ∑ j, g i j = ∑ k, G k := by
  rw [Finset.sum_range, ← Equiv.sum_comp (finProdFinEquiv (m := 8) (n := 512)) G, Fintype.sum_prod_type]
  refine Finset.sum_congr rfl fun i _ => Finset.sum_congr rfl fun j _ => ?_
  rw [hg i.val i.isLt j]
  refine congrArg G (Fin.ext ?_)
  show 512 * i.val + j.val = j.val + 512 * i.val
  omega

/-- The supremum over the row is the supremum over the eight tiles of the tile suprema. -/
theorem sup_tiles (G : Fin 4096 → EReal) :
    ((Finset.range 8).sup fun i => Finset.univ.sup (tile G i)) = Finset.univ.sup G := by
  refine le_antisymm ?_ ?_
  · refine Finset.sup_le fun i hi => Finset.sup_le fun j _ => ?_
    rw [tile_eq G i (Finset.mem_range.mp hi) j]
    exact Finset.le_sup (Finset.mem_univ _)
  · refine Finset.sup_le fun k _ => ?_
    have hk := k.isLt
    have h8 : k.val / 512 < 8 := by omega
    have e : G k = tile G (k.val / 512) ⟨k.val % 512, Nat.mod_lt _ (by decide)⟩ := by
      rw [tile_eq G _ h8]
      refine congrArg G (Fin.ext ?_)
      show k.val = 512 * (k.val / 512) + k.val % 512
      omega
    rw [e]
    exact (Finset.le_sup (f := tile G (k.val / 512)) (Finset.mem_univ _)).trans
      (Finset.le_sup (f := fun i => Finset.univ.sup (tile G i)) (Finset.mem_range.mpr h8))

section Row
variable (S V : Fin 4096 → EReal) (hS : ∀ k, IsReal (S k)) (hV : ∀ k, IsReal (V k))
include hS

theorem first_tile_ne_bot : ∃ j, tile S 0 j ≠ ⊥ :=
  ⟨⟨0, by decide⟩, by rw [tile_eq S 0 (by decide)]; exact (hS _).ne_bot⟩

theorem tile_ne_top (i : ℕ) (hi : i ≤ 7) (j : Fin 512) : tile S i j ≠ ⊤ := by
  rw [tile_eq S i (by omega)]; exact (hS _).ne_top

/-- After the eight tiles the running maximum is the row's largest score, a real number, and the running sum is the
    sum of the exponentials shifted by it. -/
theorem run_tiles : run (tile S) 8 = (Cert.AttentionSpec.top S, Cert.AttentionSpec.denom S) := by
  obtain ⟨a, ha, hrun⟩ := run_succ (tile S) 7 (first_tile_ne_bot S hS) (tile_ne_top S hS)
  have hat : Cert.AttentionSpec.top S = (a : EReal) := by
    unfold Cert.AttentionSpec.top; rw [← sup_tiles S]; exact ha
  rw [hrun, Cert.AttentionSpec.denom, hat]
  refine congrArg (Prod.mk (a : EReal)) ?_
  exact sum_tiles (fun k => Ideal.exp (S k - (a : EReal))) _ fun i hi j => by rw [tile_eq S i hi j]

/-- The running maximum after the eight tiles is the row's largest score. -/
theorem run_tiles_fst : (run (tile S) 8).1 = Cert.AttentionSpec.top S := by rw [run_tiles S hS]

include hV

/-- After the eight tiles the weighted accumulator is the sum of the values weighted by the shifted exponentials. -/
theorem runW_tiles : runW (tile S) (tile V) 8 = (Cert.AttentionSpec.top S, Cert.AttentionSpec.numer S V) := by
  obtain ⟨a, ha, hrun⟩ := runW_succ (tile S) (tile V) 7 (first_tile_ne_bot S hS) (tile_ne_top S hS)
    (fun i hi j => by rw [tile_eq V i (by omega)]; exact hV _)
  have hat : Cert.AttentionSpec.top S = (a : EReal) := by
    unfold Cert.AttentionSpec.top; rw [← sup_tiles S]; exact ha
  rw [hrun, Cert.AttentionSpec.numer, hat]
  refine congrArg (Prod.mk (a : EReal)) ?_
  exact sum_tiles (fun k => V k * Ideal.exp (S k - (a : EReal))) _ fun i hi j => by
    rw [tile_eq S i hi j, tile_eq V i hi j]

/-- The quotient of the two streaming states after the eight tiles is the attention output of the row. -/
theorem attend_tiles :
    Ideal.div (runW (tile S) (tile V) 8).2 (run (tile S) 8).2 = Cert.AttentionSpec.attend S V := by
  rw [runW_tiles S V hS hV, run_tiles S hS]; rfl

end Row

end Cert.Proof.StreamingToSpec

end
-- ==== Proof.AttentionRecurrence.lean ====
/-
  The second pallas_call's recurrence is the streaming softmax, row by row.

  Fix a row r of the query block and an output feature d. Along the eight points of one (batch, query tile) pair the
  running-maximum and running-sum buffers at row r move exactly as the streaming recurrence's state (m, l) does when
  it is fed, tile after tile, the row's scores against the point's key block; and the accumulator at (r, d) moves as
  the weighted state does when it is fed the same scores beside column d of the point's value block. At the first
  point the buffers start from (minus infinity, zero, zero), the recurrence's start. So after the eighth point the
  three hold the state after eight tiles, and the stored output entry — accumulator over sum — is, for real scores
  and values, the attention output of the row's 4096 scores and the column's 4096 values.
-/
import proofs.«174010_j37280316129900_2_alg».proof.Proof.AttentionArray
import proofs.«174010_j37280316129900_2_alg».proof.Proof.AttentionStepPayload
import proofs.«174010_j37280316129900_2_alg».proof.Proof.StreamingToSpec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.StreamingSoftmax
open Cert.Proof.AttentionStepPayload Cert.Proof.StreamingToSpec

variable (V : (c : Dev nD) → (b : Ref sig .tc) → Buf (Elt Ideal) ((c : Thread nD τ).loc b))

/-! ## The recurrence's inputs, by grid position -/

/-- Row `r`'s scores against the key block of grid position `p` (zero beyond the grid). -/
def scoresAt (c : Dev nD) (r : Fin 1024) (p : ℕ) (j : Fin 512) : EReal :=
  if h : p < cfg1.N then tileScore (iblk1 V c 0 ⟨p, h⟩) (iblk1 V c 1 ⟨p, h⟩) r j else 0

/-- Column `d` of the value block of grid position `p` (zero beyond the grid). -/
def valuesAt (c : Dev nD) (d : Fin 1024) (p : ℕ) (j : Fin 512) : EReal :=
  if h : p < cfg1.N then (iblk1 V c 2 ⟨p, h⟩ : Vec Ideal S1x512x1024 .bf16) (ix3 (0 : Fin 1) j d) else 0

theorem scoresAt_eq (c : Dev nD) (r : Fin 1024) (t : Fin cfg1.N) (p : ℕ) (e : p = t.val) :
    scoresAt V c r p = tileScore (iblk1 V c 0 t) (iblk1 V c 1 t) r := by
  subst e; funext j; unfold scoresAt; rw [dif_pos t.isLt]

theorem valuesAt_eq (c : Dev nD) (d : Fin 1024) (t : Fin cfg1.N) (p : ℕ) (e : p = t.val) :
    valuesAt V c d p = fun j => (iblk1 V c 2 t : Vec Ideal S1x512x1024 .bf16) (ix3 (0 : Fin 1) j d) := by
  subst e; funext j; unfold valuesAt; rw [dif_pos t.isLt]

/-! ## One point -/

/-- The state the three scratch buffers hold, at row `r` and feature `d`, after position `n`, is the streaming state
    after `j + 1` tiles of the pair that starts at position `8 g`. -/
def StateIs (c : Dev nD) (r d : Fin 1024) (n : ℕ) (hn : n < cfg1.N) (g j : ℕ) : Prop :=
  (outsAt1 V c n hn).2.1 (ix2 r (0 : Fin 1)) = (run (fun i => scoresAt V c r (8 * g + i)) (j + 1)).1
  ∧ (outsAt1 V c n hn).2.2.1 (ix2 r (0 : Fin 1)) = (run (fun i => scoresAt V c r (8 * g + i)) (j + 1)).2
  ∧ (outsAt1 V c n hn).2.2.2 (ix2 r d) = (runW (fun i => scoresAt V c r (8 * g + i)) (fun i => valuesAt V c d (8 * g + i)) (j + 1)).2

/-- At a first key tile: one step from the recurrence's start. -/
theorem state_first (c : Dev nD) (r d : Fin 1024) (t : Fin cfg1.N) (h0 : t.val % 8 = 0) (g : ℕ) (e : t.val = 8 * g) :
    StateIs V c r d t.val t.isLt g 0 := by
  have h1 : ¬t.val % 8 = 7 := by omega
  have ex : (fun i => scoresAt V c r (8 * g + i)) 0 = tileScore (iblk1 V c 0 t) (iblk1 V c 1 t) r :=
    scoresAt_eq V c r t _ (by omega)
  have ec : (fun i => valuesAt V c d (8 * g + i)) 0 = fun j => (iblk1 V c 2 t : Vec Ideal S1x512x1024 .bf16) (ix3 (0 : Fin 1) j d) :=
    valuesAt_eq V c d t _ (by omega)
  unfold StateIs
  rw [outsAt1_first V c t h0 h1]
  dsimp only
  rw [first_max, first_sum, first_acc, carryMax_eq]
  refine ⟨?_, ?_, ?_⟩
  · rw [runMax_eq_step _ _ _ (k1_pay5 (F := Ideal)) r, initMax_apply, initSum_apply]
    show _ = (step (run _ 0) ((fun i => scoresAt V c r (8 * g + i)) 0)).1
    rw [ex]; rfl
  · rw [runSum_apply, initMax_apply, initSum_apply]
    show _ = (step (run _ 0) ((fun i => scoresAt V c r (8 * g + i)) 0)).2
    rw [ex]; rfl
  · rw [acc_apply, initMax_apply, initAcc_apply]
    show _ = (stepW (runW _ _ 0) ((fun i => scoresAt V c r (8 * g + i)) 0) ((fun i => valuesAt V c d (8 * g + i)) 0)).2
    rw [ex, ec]; rfl

/-- At a later key tile: one step from what the point before left. -/
theorem state_next (c : Dev nD) (r d : Fin 1024) (t : Fin cfg1.N) (h0 : ¬t.val % 8 = 0) (g j : ℕ) (e : t.val = 8 * g + (j + 1))
    (ih : StateIs V c r d (t.val - 1) (Nat.lt_of_le_of_lt (Nat.sub_le _ _) t.isLt) g j) :
    StateIs V c r d t.val t.isLt g (j + 1) := by
  have ex : (fun i => scoresAt V c r (8 * g + i)) (j + 1) = tileScore (iblk1 V c 0 t) (iblk1 V c 1 t) r :=
    scoresAt_eq V c r t _ (by omega)
  have ec : (fun i => valuesAt V c d (8 * g + i)) (j + 1) = fun j => (iblk1 V c 2 t : Vec Ideal S1x512x1024 .bf16) (ix3 (0 : Fin 1) j d) :=
    valuesAt_eq V c d t _ (by omega)
  obtain ⟨im, il, ia⟩ := ih
  have hfst := runW_fst (fun i => scoresAt V c r (8 * g + i)) (fun i => valuesAt V c d (8 * g + i)) (j + 1)
  unfold StateIs
  by_cases h1 : t.val % 8 = 7
  · rw [outsAt1_last V c t h0 h1]
    dsimp only
    rw [last_max, last_sum, last_acc, carryMax_eq]
    refine ⟨?_, ?_, ?_⟩
    · rw [runMax_eq_step _ _ _ ((outsAt1 V c (t.val - 1) (Nat.lt_of_le_of_lt (Nat.sub_le _ _) t.isLt)).2.2.1) r, im, il]
      show _ = (step (run _ (j + 1)) ((fun i => scoresAt V c r (8 * g + i)) (j + 1))).1
      rw [ex]
    · rw [runSum_apply, im, il]
      show _ = (step (run _ (j + 1)) ((fun i => scoresAt V c r (8 * g + i)) (j + 1))).2
      rw [ex]
    · rw [acc_apply, im, ia]
      show _ = (stepW (runW _ _ (j + 1)) ((fun i => scoresAt V c r (8 * g + i)) (j + 1)) ((fun i => valuesAt V c d (8 * g + i)) (j + 1))).2
      rw [ex, ec, ← hfst]
  · rw [outsAt1_mid V c t h0 h1]
    dsimp only
    rw [mid_max, mid_sum, mid_acc, carryMax_eq]
    refine ⟨?_, ?_, ?_⟩
    · rw [runMax_eq_step _ _ _ ((outsAt1 V c (t.val - 1) (Nat.lt_of_le_of_lt (Nat.sub_le _ _) t.isLt)).2.2.1) r, im, il]
      show _ = (step (run _ (j + 1)) ((fun i => scoresAt V c r (8 * g + i)) (j + 1))).1
      rw [ex]
    · rw [runSum_apply, im, il]
      show _ = (step (run _ (j + 1)) ((fun i => scoresAt V c r (8 * g + i)) (j + 1))).2
      rw [ex]
    · rw [acc_apply, im, ia]
      show _ = (stepW (runW _ _ (j + 1)) ((fun i => scoresAt V c r (8 * g + i)) (j + 1)) ((fun i => valuesAt V c d (8 * g + i)) (j + 1))).2
      rw [ex, ec, ← hfst]

/-! ## Every point -/

/-- By induction on the position. -/
theorem state_eq (c : Dev nD) (r d : Fin 1024) :
    ∀ (n : ℕ) (hn : n < cfg1.N) (g j : ℕ), n = 8 * g + j → j < 8 → StateIs V c r d n hn g j := by
  intro n
  induction n with
  | zero =>
    intro hn g j e hj
    obtain ⟨rfl, rfl⟩ : g = 0 ∧ j = 0 := by omega
    exact state_first V c r d ⟨0, hn⟩ rfl 0 rfl
  | succ n ih =>
    intro hn g j e hj
    cases j with
    | zero => exact state_first V c r d ⟨n + 1, hn⟩ (by show (n + 1) % 8 = 0; omega) g (by show n + 1 = 8 * g; omega)
    | succ j =>
      exact state_next V c r d ⟨n + 1, hn⟩ (by show ¬(n + 1) % 8 = 0; omega) g j (by show n + 1 = 8 * g + (j + 1); omega)
        (ih (Nat.lt_of_succ_lt hn) g j (by omega) (by omega))

end Cert.KernelIdeal.Hand

end
-- ==== Proof.AttentionOutput.lean ====
/-
  The second pallas_call's result array is the attention of its three input arrays.

  After the eighth point of a (batch, query tile) pair the stored output entry at (row r, feature d) is the accumulator
  over the running sum, that is — the streaming state after eight tiles of 512 being the state of all 4096 entries at
  once — the attention output of the row's 4096 scores and the feature's 4096 values, when these are real numbers.
  Read off the arrays, the row's score against key k is the scaled inner product of query row (b, s) and key row
  (b, k), and the value is the value array at (b, k, d).
-/
import proofs.«174010_j37280316129900_2_alg».proof.Proof.AttentionRecurrence
import proofs.«174010_j37280316129900_2_alg».proof.Proof.LibIsReal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.StreamingSoftmax
open Cert.Proof.AttentionStepPayload Cert.Proof.StreamingToSpec

/-! ## The streaming state depends only on the tiles it was fed -/

theorem run_congr {ι : Type} [Fintype ι] (x x' : ℕ → ι → EReal) : ∀ k : ℕ, (∀ i, i < k → x i = x' i) → run x k = run x' k
  | 0, _ => rfl
  | k + 1, h => by
    show step (run x k) (x k) = step (run x' k) (x' k)
    rw [run_congr x x' k (fun i hi => h i (Nat.lt_succ_of_lt hi)), h k (Nat.lt_succ_self k)]

theorem runW_congr {ι : Type} [Fintype ι] (x x' c c' : ℕ → ι → EReal) :
    ∀ k : ℕ, (∀ i, i < k → x i = x' i) → (∀ i, i < k → c i = c' i) → runW x c k = runW x' c' k
  | 0, _, _ => rfl
  | k + 1, h, hc => by
    show stepW (runW x c k) (x k) (c k) = stepW (runW x' c' k) (x' k) (c' k)
    rw [runW_congr x x' c c' k (fun i hi => h i (Nat.lt_succ_of_lt hi)) (fun i hi => hc i (Nat.lt_succ_of_lt hi)),
      h k (Nat.lt_succ_self k), hc k (Nat.lt_succ_self k)]

variable (V : (c : Dev nD) → (b : Ref sig .tc) → Buf (Elt Ideal) ((c : Thread nD τ).loc b))

/-! ## A row's 4096 scores and a feature's 4096 values, tile by tile -/

/-- Row `r`'s score against key `k` of the pair that starts at position `8 g`: tile `k / 512`, entry `k mod 512`. -/
def rowScores (c : Dev nD) (g : ℕ) (r : Fin 1024) (k : Fin 4096) : EReal :=
  scoresAt V c r (8 * g + k.val / 512) ⟨k.val % 512, Nat.mod_lt _ (by decide)⟩

/-- Feature `d`'s value at key `k`. -/
def colValues (c : Dev nD) (g : ℕ) (d : Fin 1024) (k : Fin 4096) : EReal :=
  valuesAt V c d (8 * g + k.val / 512) ⟨k.val % 512, Nat.mod_lt _ (by decide)⟩

theorem scoresAt_congr (c : Dev nD) (r : Fin 1024) (p p' : ℕ) (j j' : Fin 512) (hp : p = p') (hj : j = j') :
    scoresAt V c r p j = scoresAt V c r p' j' := by subst hp hj; rfl

theorem valuesAt_congr (c : Dev nD) (d : Fin 1024) (p p' : ℕ) (j j' : Fin 512) (hp : p = p') (hj : j = j') :
    valuesAt V c d p j = valuesAt V c d p' j' := by subst hp hj; rfl

theorem tile_rowScores (c : Dev nD) (g : ℕ) (r : Fin 1024) (i : ℕ) (hi : i < 8) :
    tile (rowScores V c g r) i = scoresAt V c r (8 * g + i) := by
  funext j
  rw [tile_eq _ i hi j]
  have hj := j.isLt
  exact scoresAt_congr V c r _ _ _ _ (by show 8 * g + (512 * i + j.val) / 512 = 8 * g + i; omega)
    (Fin.ext (by show (512 * i + j.val) % 512 = j.val; omega))

theorem tile_colValues (c : Dev nD) (g : ℕ) (d : Fin 1024) (i : ℕ) (hi : i < 8) :
    tile (colValues V c g d) i = valuesAt V c d (8 * g + i) := by
  funext j
  rw [tile_eq _ i hi j]
  have hj := j.isLt
  exact valuesAt_congr V c d _ _ _ _ (by show 8 * g + (512 * i + j.val) / 512 = 8 * g + i; omega)
    (Fin.ext (by show (512 * i + j.val) % 512 = j.val; omega))

/-! ## The stored output entry -/

/-- At a last key tile the output buffer holds the new accumulator over the new running sum. -/
theorem out_of_state (c : Dev nD) (t : Fin cfg1.N) (h7 : t.val % 8 = 7) :
    (outsAt1 V c t.val t.isLt).1 = k1_pay3 (F := Ideal) (outsAt1 V c t.val t.isLt).2.2.2 (outsAt1 V c t.val t.isLt).2.2.1 := by
  have h0 : ¬t.val % 8 = 0 := by omega
  rw [outsAt1_last V c t h0 h7]
  dsimp only
  rw [last_out, last_acc, last_sum]

/-- So, for real scores and values, it holds the attention output of the row's scores and the feature's values. -/
theorem out_eq_attend (c : Dev nD) (t : Fin cfg1.N) (g : ℕ) (e : t.val = 8 * g + 7) (r d : Fin 1024)
    (hS : ∀ k, IsReal (rowScores V c g r k)) (hV : ∀ k, IsReal (colValues V c g d k)) :
    (outsAt1 V c t.val t.isLt).1 (ix3 (0 : Fin 1) r d) = Cert.AttentionSpec.attend (rowScores V c g r) (colValues V c g d) := by
  obtain ⟨-, hl, ha⟩ := state_eq V c r d t.val t.isLt g 7 e (by omega)
  rw [out_of_state V c t (by omega), out_apply, ha, hl]
  have e1 : run (fun i => scoresAt V c r (8 * g + i)) (7 + 1) = run (tile (rowScores V c g r)) 8 :=
    run_congr _ _ 8 (fun i hi => (tile_rowScores V c g r i hi).symm)
  have e2 : runW (fun i => scoresAt V c r (8 * g + i)) (fun i => valuesAt V c d (8 * g + i)) (7 + 1)
      = runW (tile (rowScores V c g r)) (tile (colValues V c g d)) 8 :=
    runW_congr _ _ _ _ 8 (fun i hi => (tile_rowScores V c g r i hi).symm) (fun i hi => (tile_colValues V c g d i hi).symm)
  rw [e1, e2]
  exact attend_tiles _ _ hS hV

/-! ## Read off the arrays -/

/-- The query, key and value arrays as the region finds them, over explicit coordinates. -/
def qArr (c : Dev nD) (b : Fin 4) (s : Fin 4096) (p : Fin 128) : EReal :=
  (V c (Pipeline.arrRef spec1 0) : S4x4096x128.Idx → Elt Ideal .bf16) (ix3 b s p)
def kArr (c : Dev nD) (b : Fin 4) (s : Fin 4096) (p : Fin 128) : EReal :=
  (V c (Pipeline.arrRef spec1 1) : S4x4096x128.Idx → Elt Ideal .bf16) (ix3 b s p)
def vArr (c : Dev nD) (b : Fin 4) (s : Fin 4096) (d : Fin 1024) : EReal :=
  (V c (Pipeline.arrRef spec1 2) : S4x4096x1024.Idx → Elt Ideal .bf16) (ix3 b s d)

/-- The pair of batch `b` and query tile `s / 1024` starts at position `8 (4 b + s / 1024)`; row `s mod 1024` of its
    query block is query row `s`, and entry `k mod 512` of key tile `k / 512` is key row `k`. -/
theorem rowScores_eq (c : Dev nD) (b : Fin 4) (s : Fin 4096) :
    rowScores V c (4 * b.val + s.val / 1024) ⟨s.val % 1024, Nat.mod_lt _ (by decide)⟩
      = fun k => Cert.AttentionSpec.score (qArr V c) (kArr V c) b s k := by
  funext k
  have hb := b.isLt; have hs := s.isLt; have hk := k.isLt
  have hlt : 8 * (4 * b.val + s.val / 1024) + k.val / 512 < cfg1.N := by rw [show cfg1.N = 128 from N_1]; omega
  unfold rowScores
  rw [scoresAt_eq V c _ ⟨_, hlt⟩ _ rfl]
  unfold tileScore Cert.AttentionSpec.score qArr kArr
  refine congrArg (· * Cert.AttentionSpec.scale) (Finset.sum_congr rfl fun p _ => ?_)
  rw [qblk_apply, kblk_apply]
  refine congrArg₂ (· * ·) (congrArg _ ?_) (congrArg _ ?_)
  · funext a; apply Fin.ext
    match a with
    | ⟨0, _⟩ => show (8 * (4 * b.val + s.val / 1024) + k.val / 512) / 32 = b.val; omega
    | ⟨1, _⟩ => show 1024 * ((8 * (4 * b.val + s.val / 1024) + k.val / 512) / 8 % 4) + s.val % 1024 = s.val; omega
    | ⟨2, _⟩ => rfl
  · funext a; apply Fin.ext
    match a with
    | ⟨0, _⟩ => show (8 * (4 * b.val + s.val / 1024) + k.val / 512) / 32 = b.val; omega
    | ⟨1, _⟩ => show 512 * ((8 * (4 * b.val + s.val / 1024) + k.val / 512) % 8) + k.val % 512 = k.val; omega
    | ⟨2, _⟩ => rfl

theorem colValues_eq (c : Dev nD) (b : Fin 4) (s : Fin 4096) (d : Fin 1024) :
    colValues V c (4 * b.val + s.val / 1024) d = fun k => vArr V c b k d := by
  funext k
  have hb := b.isLt; have hs := s.isLt; have hk := k.isLt
  have hlt : 8 * (4 * b.val + s.val / 1024) + k.val / 512 < cfg1.N := by rw [show cfg1.N = 128 from N_1]; omega
  unfold colValues
  rw [valuesAt_eq V c d ⟨_, hlt⟩ _ rfl]
  unfold vArr
  show (iblk1 V c 2 ⟨_, hlt⟩ : Vec Ideal S1x512x1024 .bf16) (ix3 (0 : Fin 1) _ d) = _
  rw [vblk_apply]
  refine congrArg _ ?_
  funext a; apply Fin.ext
  match a with
  | ⟨0, _⟩ => show (8 * (4 * b.val + s.val / 1024) + k.val / 512) / 32 = b.val; omega
  | ⟨1, _⟩ => show 512 * ((8 * (4 * b.val + s.val / 1024) + k.val / 512) % 8) + k.val % 512 = k.val; omega
  | ⟨2, _⟩ => rfl

/-- THE RESULT ARRAY of the second pallas_call, entry by entry: for real scores and values, the attention of the query
    row against the batch's keys, over the batch's values. -/
theorem resultArr_apply (c : Dev nD) (b : Fin 4) (s : Fin 4096) (d : Fin 1024)
    (hS : ∀ k, IsReal (Cert.AttentionSpec.score (qArr V c) (kArr V c) b s k)) (hV : ∀ k, IsReal (vArr V c b k d)) :
    resultArr V c (ix3 b s d)
      = Cert.AttentionSpec.attend (fun k => Cert.AttentionSpec.score (qArr V c) (kArr V c) b s k) (fun k => vArr V c b k d) := by
  have hb := b.isLt; have hs := s.isLt
  have hlt : 32 * b.val + 8 * (s.val / 1024) + 7 < cfg1.N := by rw [show cfg1.N = 128 from N_1]; omega
  show outAt V c (32 * b.val + 8 * (s.val / 1024) + 7) (ix3 (0 : Fin 1) ⟨s.val % 1024, _⟩ ⟨d.val, _⟩) = _
  rw [outAt_eq V c ⟨_, hlt⟩ _ rfl]
  have key := out_eq_attend V c ⟨_, hlt⟩ (4 * b.val + s.val / 1024) (by show 32 * b.val + 8 * (s.val / 1024) + 7 = 8 * (4 * b.val + s.val / 1024) + 7; omega)
    ⟨s.val % 1024, Nat.mod_lt _ (by decide)⟩ d
    (by rw [rowScores_eq]; exact hS) (by rw [colValues_eq V c b s d]; exact hV)
  rw [rowScores_eq, colValues_eq V c b s d] at key
  exact key

end Cert.KernelIdeal.Hand

end
-- ==== Proof.KernelValue.lean ====
/-
  The idealized kernel's result is the specification.

  The second pallas_call is entered with three arrays: queries, keys and values, each the first call's result array
  [16384, n] read as [4, 4096, n] (row 4096·b + s is row s of batch b). Row R of a first-call result is row R mod 1024
  of the block computed at point R / 1024: the matching columns of (rows of x) · W + β, where the rows of x are rows
  1024·(R / 1024) .. of x read as [16384, 1024], and W, β are the three weights side by side and the three biases end
  to end. Columns 0..127 of that sum are the query layer, 128..255 the key layer, 256..1279 the value layer. So the three
  arrays are the three affine layers of the arguments, and — the arguments being real numbers under the precondition —
  the second call's result array is, entry by entry, the attention of the query layer against the key layer over the
  value layer: the specification.
-/
import proofs.«174010_j37280316129900_2_alg».proof.Proof.ProgramRun
import proofs.«174010_j37280316129900_2_alg».proof.Proof.ProjectionArrays
import proofs.«174010_j37280316129900_2_alg».proof.Proof.ProjectionBlocks
import proofs.«174010_j37280316129900_2_alg».proof.Proof.ProjectionPayload
import proofs.«174010_j37280316129900_2_alg».proof.Proof.KernelHostReads
import proofs.«174010_j37280316129900_2_alg».proof.Proof.QueryKeyValueArrays
import proofs.«174010_j37280316129900_2_alg».proof.Proof.LibRowsMerged
import proofs.«174010_j37280316129900_2_alg».proof.Proof.FiniteInputs
import proofs.«174010_j37280316129900_2_alg».proof.Proof.AttentionOutput

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.AttentionSpec Cert.Proof.ProjectionPayload Cert.Proof.KernelHostReads Cert.Proof.QueryKeyValueArrays

variable (m : (ℓ : Loc nD τ sig) → Buf (Elt Ideal) ℓ) (c : Dev nD)

/-- Row `s` of batch `b` in the [16384, n] reading. -/
def rowOf (b : Fin 4) (s : Fin 4096) : Fin 16384 := ⟨b.val * 4096 + s.val, by have := b.isLt; have := s.isLt; omega⟩

/-! ## What the first pallas_call is entered with -/

theorem rows_entry (r : Fin 16384) (e : Fin 1024) :
    (Vin0 m c (Pipeline.arrRef spec0 0) : S16384x1024.Idx → EReal) (ix2 r e)
      = m ((c : Thread nD τ).loc main_arg0) (ix3 ⟨r.val / 4096, by have := r.isLt; omega⟩ ⟨r.val % 4096, Nat.mod_lt _ (by decide)⟩ e) :=
  rows_at m c r e

theorem weight_entry (e : Fin 1024) (j : Fin 1280) :
    (Vin0 m c (Pipeline.arrRef spec0 1) : S1024x1280.Idx → EReal) (ix2 e j)
      = wcat (m ((c : Thread nD τ).loc main_arg1)) (m ((c : Thread nD τ).loc main_arg3)) (m ((c : Thread nD τ).loc main_arg5)) e j :=
  (weight_at m c e j).trans rfl

theorem bias_entry (j : Fin 1280) :
    (Vin0 m c (Pipeline.arrRef spec0 2) : S1280.Idx → EReal) (ix1 j)
      = bcat (m ((c : Thread nD τ).loc main_arg2)) (m ((c : Thread nD τ).loc main_arg4)) (m ((c : Thread nD τ).loc main_arg6)) j :=
  (bias_at m c j).trans rfl

/-! ## The three arrays the second pallas_call is entered with -/

theorem queries_eq (b : Fin 4) (s : Fin 4096) (p : Fin 128) :
    qArr (Vin1 m) c b s p = lin (fun b s e => m ((c : Thread nD τ).loc main_arg0) (ix3 b s e)) (fun e p => m ((c : Thread nD τ).loc main_arg1) (ix2 e p)) (fun p => m ((c : Thread nD τ).loc main_arg2) (ix1 p)) b s p := by
  have hb := b.isLt; have hs := s.isLt; have hcol := p.isLt
  unfold qArr
  show (W3 m c (Proc.devRef .tc main_v5) : S4x4096x128.Idx → EReal) (ix3 b s p) = _
  rw [W3_main_v5, Cert.LibRowsMerged.split_rows_apply _ _ b s p (rowOf b s) rfl, arrAt0_3]
  show out0_3 (iblk0 (Vin0 m) c 0 (rowPoint (rowOf b s).val (rowOf b s).isLt)) (iblk0 (Vin0 m) c 1 (rowPoint (rowOf b s).val (rowOf b s).isLt)) (iblk0 (Vin0 m) c 2 (rowPoint (rowOf b s).val (rowOf b s).isLt))
      (ix2 (⟨(rowOf b s).val % 1024, Nat.mod_lt _ (by decide)⟩ : Fin 1024) p) = _
  rw [out0_3_eq, projQ_apply, proj_apply]
  refine (congrArg₂ (fun (u v : EReal) => u + v) (Finset.sum_congr rfl fun e _ => congrArg₂ (fun (u v : EReal) => u * v) ?_ ?_) ?_).trans
    (fused_query_eq_lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s p (by omega))
  · rw [xblk_apply]
    refine (rows_entry m c _ e).trans (congrArg _ ?_)
    funext a; apply Fin.ext
    match a with
    | ⟨0, _⟩ => show (1024 * ((b.val * 4096 + s.val) / 1024) + (b.val * 4096 + s.val) % 1024) / 4096 = b.val; omega
    | ⟨1, _⟩ => show (1024 * ((b.val * 4096 + s.val) / 1024) + (b.val * 4096 + s.val) % 1024) % 4096 = s.val; omega
    | ⟨2, _⟩ => rfl
  · rw [wblk_apply]; exact weight_entry m c e _
  · rw [bblk_apply]; exact bias_entry m c _

theorem keys_eq (b : Fin 4) (s : Fin 4096) (p : Fin 128) :
    kArr (Vin1 m) c b s p = lin (fun b s e => m ((c : Thread nD τ).loc main_arg0) (ix3 b s e)) (fun e p => m ((c : Thread nD τ).loc main_arg3) (ix2 e p)) (fun p => m ((c : Thread nD τ).loc main_arg4) (ix1 p)) b s p := by
  have hb := b.isLt; have hs := s.isLt; have hcol := p.isLt
  unfold kArr
  show (W3 m c (Proc.devRef .tc main_v6) : S4x4096x128.Idx → EReal) (ix3 b s p) = _
  rw [W3_main_v6, Cert.LibRowsMerged.split_rows_apply _ _ b s p (rowOf b s) rfl, arrAt0_4]
  show out0_4 (iblk0 (Vin0 m) c 0 (rowPoint (rowOf b s).val (rowOf b s).isLt)) (iblk0 (Vin0 m) c 1 (rowPoint (rowOf b s).val (rowOf b s).isLt)) (iblk0 (Vin0 m) c 2 (rowPoint (rowOf b s).val (rowOf b s).isLt))
      (ix2 (⟨(rowOf b s).val % 1024, Nat.mod_lt _ (by decide)⟩ : Fin 1024) p) = _
  rw [out0_4_eq, projK_apply, proj_apply]
  refine (congrArg₂ (fun (u v : EReal) => u + v) (Finset.sum_congr rfl fun e _ => congrArg₂ (fun (u v : EReal) => u * v) ?_ ?_) ?_).trans
    (fused_key_eq_lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s p (by omega))
  · rw [xblk_apply]
    refine (rows_entry m c _ e).trans (congrArg _ ?_)
    funext a; apply Fin.ext
    match a with
    | ⟨0, _⟩ => show (1024 * ((b.val * 4096 + s.val) / 1024) + (b.val * 4096 + s.val) % 1024) / 4096 = b.val; omega
    | ⟨1, _⟩ => show (1024 * ((b.val * 4096 + s.val) / 1024) + (b.val * 4096 + s.val) % 1024) % 4096 = s.val; omega
    | ⟨2, _⟩ => rfl
  · rw [wblk_apply]; exact weight_entry m c e _
  · rw [bblk_apply]; exact bias_entry m c _

theorem values_eq (b : Fin 4) (s : Fin 4096) (d : Fin 1024) :
    vArr (Vin1 m) c b s d = lin (fun b s e => m ((c : Thread nD τ).loc main_arg0) (ix3 b s e)) (fun e p => m ((c : Thread nD τ).loc main_arg5) (ix2 e p)) (fun p => m ((c : Thread nD τ).loc main_arg6) (ix1 p)) b s d := by
  have hb := b.isLt; have hs := s.isLt; have hcol := d.isLt
  unfold vArr
  show (W3 m c (Proc.devRef .tc main_v7) : S4x4096x1024.Idx → EReal) (ix3 b s d) = _
  rw [W3_main_v7, Cert.LibRowsMerged.split_rows_apply _ _ b s d (rowOf b s) rfl, arrAt0_5]
  show out0_5 (iblk0 (Vin0 m) c 0 (rowPoint (rowOf b s).val (rowOf b s).isLt)) (iblk0 (Vin0 m) c 1 (rowPoint (rowOf b s).val (rowOf b s).isLt)) (iblk0 (Vin0 m) c 2 (rowPoint (rowOf b s).val (rowOf b s).isLt))
      (ix2 (⟨(rowOf b s).val % 1024, Nat.mod_lt _ (by decide)⟩ : Fin 1024) d) = _
  rw [out0_5_eq, projV_apply, proj_apply]
  refine (congrArg₂ (fun (u v : EReal) => u + v) (Finset.sum_congr rfl fun e _ => congrArg₂ (fun (u v : EReal) => u * v) ?_ ?_) ?_).trans
    (fused_value_eq_lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s d (by omega))
  · rw [xblk_apply]
    refine (rows_entry m c _ e).trans (congrArg _ ?_)
    funext a; apply Fin.ext
    match a with
    | ⟨0, _⟩ => show (1024 * ((b.val * 4096 + s.val) / 1024) + (b.val * 4096 + s.val) % 1024) / 4096 = b.val; omega
    | ⟨1, _⟩ => show (1024 * ((b.val * 4096 + s.val) / 1024) + (b.val * 4096 + s.val) % 1024) % 4096 = s.val; omega
    | ⟨2, _⟩ => rfl
  · rw [wblk_apply]; exact weight_entry m c e _
  · rw [bblk_apply]; exact bias_entry m c _

/-! ## The result -/

/-- Under the precondition the idealized kernel's result array is the specification of its seven arguments. -/
theorem kernel_result
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    (dat1 (Vin1 m) c).arrAt 3 cfg1.N
      = fun i => Cert.AttentionSpec.out (fun b s e => m ((c : Thread nD τ).loc main_arg0) (ix3 b s e)) (fun e p => m ((c : Thread nD τ).loc main_arg1) (ix2 e p)) (fun p => m ((c : Thread nD τ).loc main_arg2) (ix1 p)) (fun e p => m ((c : Thread nD τ).loc main_arg3) (ix2 e p)) (fun p => m ((c : Thread nD τ).loc main_arg4) (ix1 p)) (fun e p => m ((c : Thread nD τ).loc main_arg5) (ix2 e p)) (fun p => m ((c : Thread nD τ).loc main_arg6) (ix1 p)) (i 0) (i 1) (i 2) := by
  obtain ⟨h0, h1, h2, h3, h4, h5, h6⟩ := Cert.Proof.FiniteInputs.args_real _ _ _ _ _ _ _ hpre
  have hq : qArr (Vin1 m) c = lin (fun b s e => m ((c : Thread nD τ).loc main_arg0) (ix3 b s e)) (fun e p => m ((c : Thread nD τ).loc main_arg1) (ix2 e p)) (fun p => m ((c : Thread nD τ).loc main_arg2) (ix1 p)) := by funext b s p; exact queries_eq m c b s p
  have hk : kArr (Vin1 m) c = lin (fun b s e => m ((c : Thread nD τ).loc main_arg0) (ix3 b s e)) (fun e p => m ((c : Thread nD τ).loc main_arg3) (ix2 e p)) (fun p => m ((c : Thread nD τ).loc main_arg4) (ix1 p)) := by funext b s p; exact keys_eq m c b s p
  have hv : vArr (Vin1 m) c = lin (fun b s e => m ((c : Thread nD τ).loc main_arg0) (ix3 b s e)) (fun e p => m ((c : Thread nD τ).loc main_arg5) (ix2 e p)) (fun p => m ((c : Thread nD τ).loc main_arg6) (ix1 p)) := by funext b s d; exact values_eq m c b s d
  rw [final1]
  funext i
  obtain ⟨b, s, d, rfl⟩ : ∃ (b : Fin 4) (s : Fin 4096) (d : Fin 1024), i = ix3 b s d := ⟨i 0, i 1, i 2, eq_ix3 i⟩
  show resultArr (Vin1 m) c (ix3 b s d) = Cert.AttentionSpec.out _ _ _ _ _ _ _ b s d
  rw [resultArr_apply (Vin1 m) c b s d
    (by rw [hq, hk]; exact fun k => score_lin_isReal _ _ _ _ _ h0 h1 h2 h3 h4 b s k)
    (by rw [hv]; exact fun k => lin_isReal _ _ _ h0 h5 h6 b k d)]
  rw [hq, hk, hv]
  rfl

end Cert.KernelIdeal.Hand

end
-- ==== Proof.lean ====
/-
  The certificate of a single-head attention layer computed by two pallas_calls against its plain reference.

  Inputs: x [4, 4096, 1024], query and key weights [1024, 128] with biases [128], a value weight [1024, 1024] with
  bias [1024], all finite. Both programs compute, for batch b, query row q, feature d,
      (Σ_k V(b,k,d) · exp(S(b,q,k) − max_k S(b,q,k))) / (Σ_k exp(S(b,q,k) − max_k S(b,q,k))),
  where Q, K, V are the three affine layers of x and S(b,q,k) is the inner product of Q(b,q,·) and K(b,k,·) divided by
  the constant D = 11863283/1048576.

  * The reference does this with whole-array operations; read back one operation at a time it is the specification
    (Proof/ReferenceValue.lean), dividing by D being multiplying by 1/D.
  * The kernel first computes the three layers in one fused product against the weights set side by side, sixteen
    blocks of 1024 rows (Proof/ProjectionRegion.lean, ProjectionArrays.lean); then, for each batch and each tile of
    1024 query rows, it walks the keys in eight tiles of 512 carrying a running maximum, a running sum and an
    accumulator, and at the eighth tile stores accumulator over sum (Proof/AttentionRegion.lean). That recurrence is
    the streaming form of the softmax: after the eight tiles the three carried values are the row's maximum, the sum
    of the shifted exponentials and their value-weighted sum (Proof/AttentionRecurrence.lean, AttentionOutput.lean),
    which needs the scores and values to be real numbers — they are, the inputs being finite. The kernel multiplies
    the scores by the constant named "inv_ref_divisor", read as exactly 1/D.
  * Each program terminates without a fault and leaves its seven argument arrays as launched: the kernel's two
    calls by their region records over the run of @main (Proof/ProgramRun.lean, and its copy for the program as
    printed at the word level), the reference by its run.
-/
import proofs.«174010_j37280316129900_2_alg».proof.Defs
import proofs.«174010_j37280316129900_2_alg».proof.Proof.Gen.Kernel
import proofs.«174010_j37280316129900_2_alg».proof.Proof.Gen.KernelIdeal
import proofs.«174010_j37280316129900_2_alg».proof.Proof.Gen.ReferenceIdeal
import proofs.«174010_j37280316129900_2_alg».proof.Proof.Gen.Pre_finite_inputs
import proofs.«174010_j37280316129900_2_alg».proof.Proof.Gen.ReferenceIdeal.Run
import proofs.«174010_j37280316129900_2_alg».proof.Proof.Gen.ReferenceIdeal.Read
import proofs.«174010_j37280316129900_2_alg».proof.Proof.ReferenceSide
import proofs.«174010_j37280316129900_2_alg».proof.Proof.ReferenceValue
import proofs.«174010_j37280316129900_2_alg».proof.Proof.FiniteInputs
import proofs.«174010_j37280316129900_2_alg».proof.Proof.KernelProgramRun
import proofs.«174010_j37280316129900_2_alg».proof.Proof.ProgramRun
import proofs.«174010_j37280316129900_2_alg».proof.Proof.KernelValue
import Idealize.ShloMosaic.Adequacy
import Idealize.ShloMosaic.Init

noncomputable section

namespace Cert.Proof

open Idealize.ShloMosaic Idealize.SL.Sem

/-- The word-level kernel terminates, faults nowhere, and leaves its arguments as launched. -/
theorem frame_kernel : Cert.frame_Kernel (hKernel := Cert.Kernel.Gen.facts) (hPre_finite_inputs := Cert.Pre_finite_inputs.Gen.facts) :=
  fun m g _ => Cert.Kernel.Hand.frame_main (F := Bits) m g

/-- So does its idealization. -/
theorem frame_kernel_ideal : Cert.frame_KernelIdeal (hKernelIdeal := Cert.KernelIdeal.Gen.facts) (hPre_finite_inputs := Cert.Pre_finite_inputs.Gen.facts) :=
  fun m g _ => Cert.KernelIdeal.Hand.frame_main (F := Ideal) m g

/-- From memories agreeing on the seven arguments, finite, the idealized kernel and the idealized reference both
    end with the specification of those arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => (Cert.KernelIdeal.Hand.dat1 (Cert.KernelIdeal.Hand.Vin1 m) c).arrAt 3 Cert.KernelIdeal.cfg1.N,
    Cert.KernelIdeal.Hand.result_main (F := Ideal) m g, ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6⟩ := hagree c
  have hp := hpre c
  obtain ⟨h0, h1, h2, h3, h4, h5, h6⟩ := Cert.Proof.FiniteInputs.args_real _ _ _ _ _ _ _ hp
  show _ = (Cert.KernelIdeal.Hand.dat1 (Cert.KernelIdeal.Hand.Vin1 m) c).arrAt 3 Cert.KernelIdeal.cfg1.N
  rw [Cert.KernelIdeal.Hand.kernel_result m c hp, Cert.ReferenceIdeal.Read.val_main_v26_eq, e0, e1, e2, e3, e4, e5, e6]
  exact Cert.Proof.ReferenceValue.result_eq_spec _ _ _ _ _ _ _ h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_kernel, frame_kernel_ideal, Cert.Proof.ReferenceSide.frame_reference, Cert.Proof.ReferenceSide.scale_named, algebraic⟩

end Cert.Proof

end
